-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2000 : Shape := ⟨2, ![4096, 2000]⟩
abbrev S4096x4096 : Shape := ⟨2, ![4096, 4096]⟩
abbrev S2000x120 : Shape := ⟨2, ![2000, 120]⟩
abbrev S120 : Shape := ⟨1, ![120]⟩
abbrev S120x20 : Shape := ⟨2, ![120, 20]⟩
abbrev S20 : Shape := ⟨1, ![20]⟩
abbrev S20x64 : Shape := ⟨2, ![20, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x512 : Shape := ⟨2, ![256, 512]⟩
abbrev S512 : Shape := ⟨1, ![512]⟩
abbrev S512x2000 : Shape := ⟨2, ![512, 2000]⟩
abbrev S2000 : Shape := ⟨1, ![2000]⟩
abbrev S_ : Shape := ⟨0, ![]⟩

class Facts : Prop where
  bcast_S_S4096x2000 : S_.BroadcastsInDim S4096x2000 (![] : Fin 0 → Fin S4096x2000.rank)
  reducesTo_S4096x2000_S_d0_1 : S4096x2000.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2000x120 : S_.BroadcastsInDim S2000x120 (![] : Fin 0 → Fin S2000x120.rank)
  reducesTo_S2000x120_S_d0_1 : S2000x120.ReducesTo [0, 1] S_
  bcast_S_S120 : S_.BroadcastsInDim S120 (![] : Fin 0 → Fin S120.rank)
  reducesTo_S120_S_d0 : S120.ReducesTo [0] S_
  bcast_S_S120x20 : S_.BroadcastsInDim S120x20 (![] : Fin 0 → Fin S120x20.rank)
  reducesTo_S120x20_S_d0_1 : S120x20.ReducesTo [0, 1] S_
  bcast_S_S20 : S_.BroadcastsInDim S20 (![] : Fin 0 → Fin S20.rank)
  reducesTo_S20_S_d0 : S20.ReducesTo [0] S_
  bcast_S_S20x64 : S_.BroadcastsInDim S20x64 (![] : Fin 0 → Fin S20x64.rank)
  reducesTo_S20x64_S_d0_1 : S20x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2000 : S_.BroadcastsInDim S512x2000 (![] : Fin 0 → Fin S512x2000.rank)
  reducesTo_S512x2000_S_d0_1 : S512x2000.ReducesTo [0, 1] S_
  bcast_S_S2000 : S_.BroadcastsInDim S2000 (![] : Fin 0 → Fin S2000.rank)
  reducesTo_S2000_S_d0 : S2000.ReducesTo [0] S_

variable [Facts]

def fn_part4 {F : FTy → Type} [FloatOps F] (main_arg14 : FVec F S512 .f32) (main_arg15 : FVec F S512x2000 .f32) (main_arg16 : FVec F S2000 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x2000 .f32 := Host.absf main_arg15
  let main_cst_28 : FVec F S_ .f32 := constant S_ .f32 0x7F800000#32
  let main_v75 : FVec F S512x2000 .f32 := broadcastInDim S512x2000 ![] bcast_S_S512x2000 main_cst_28
  let main_v76 : IVec S512x2000 1 := cmpf .olt main_v74 main_v75
  let main_c_29 : IVec S_ 1 := constantI S_ 1 1#1
  let main_v77 : IVec S_ 1 := (fun x v => Host.reduce IntOp.andi x v reducesTo_S512x2000_S_d0_1 h_S_) main_v76 main_c_29
  let main_v78 : IVec S_ 1 := andi main_v73 main_v77
  let main_v79 : FVec F S2000 .f32 := Host.absf main_arg16
  let main_cst_30 : FVec F S_ .f32 := constant S_ .f32 0x7F800000#32
  let main_v80 : FVec F S2000 .f32 := broadcastInDim S2000 ![] bcast_S_S2000 main_cst_30
  let main_v81 : IVec S2000 1 := cmpf .olt main_v79 main_v80
  let main_c_31 : IVec S_ 1 := constantI S_ 1 1#1
  let main_v82 : IVec S_ 1 := (fun x v => Host.reduce IntOp.andi x v reducesTo_S2000_S_d0 h_S_) main_v81 main_c_31
  let main_v83 : IVec S_ 1 := andi main_v78 main_v82
  main_v83

def fn_part3 {F : FTy → Type} [FloatOps F] (main_arg11 : FVec F S64x256 .f32) (main_arg12 : FVec F S256 .f32) (main_arg13 : FVec F S256x512 .f32) (main_arg14 : FVec F S512 .f32) (main_arg15 : FVec F S512x2000 .f32) (main_arg16 : FVec F S2000 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x256 .f32 := Host.absf main_arg11
  let main_cst_20 : FVec F S_ .f32 := constant S_ .f32 0x7F800000#32
  let main_v55 : FVec F S64x256 .f32 := broadcastInDim S64x256 ![] bcast_S_S64x256 main_cst_20
  let main_v56 : IVec S64x256 1 := cmpf .olt main_v54 main_v55
  let main_c_21 : IVec S_ 1 := constantI S_ 1 1#1
  let main_v57 : IVec S_ 1 := (fun x v => Host.reduce IntOp.andi x v reducesTo_S64x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg14 main_arg15 main_arg16 main_v63 main_v67

def fn_part2 {F : FTy → Type} [FloatOps F] (main_arg7 : FVec F S64 .f32) (main_arg8 : FVec F S64x64 .f32) (main_arg9 : FVec F S20x64 .f32) (main_arg10 : FVec F S64 .f32) (main_arg11 : FVec F S64x256 .f32) (main_arg12 : FVec F S256 .f32) (main_arg13 : FVec F S256x512 .f32) (main_arg14 : FVec F S512 .f32) (main_arg15 : FVec F S512x2000 .f32) (main_arg16 : FVec F S2000 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S20x64 .f32 := Host.absf main_arg9
  let main_cst_16 : FVec F S_ .f32 := constant S_ .f32 0x7F800000#32
  let main_v45 : FVec F S20x64 .f32 := broadcastInDim S20x64 ![] bcast_S_S20x64 main_cst_16
  let main_v46 : IVec S20x64 1 := cmpf .olt main_v44 main_v45
  let main_c_17 : IVec S_ 1 := constantI S_ 1 1#1
  let main_v47 : IVec S_ 1 := (fun x v => Host.reduce IntOp.andi x v reducesTo_S20x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S120x20 .f32) (main_arg5 : FVec F S20 .f32) (main_arg6 : FVec F S20x64 .f32) (main_arg7 : FVec F S64 .f32) (main_arg8 : FVec F S64x64 .f32) (main_arg9 : FVec F S20x64 .f32) (main_arg10 : FVec F S64 .f32) (main_arg11 : FVec F S64x256 .f32) (main_arg12 : FVec F S256 .f32) (main_arg13 : FVec F S256x512 .f32) (main_arg14 : FVec F S512 .f32) (main_arg15 : FVec F S512x2000 .f32) (main_arg16 : FVec F S2000 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S120x20 .f32 := Host.absf main_arg4
  let main_cst_6 : FVec F S_ .f32 := constant S_ .f32 0x7F800000#32
  let main_v20 : FVec F S120x20 .f32 := broadcastInDim S120x20 ![] bcast_S_S120x20 main_cst_6
  let main_v21 : IVec S120x20 1 := cmpf .olt main_v19 main_v20
  let main_c_7 : IVec S_ 1 := constantI S_ 1 1#1
  let main_v22 : IVec S_ 1 := (fun x v => Host.reduce IntOp.andi x v reducesTo_S120x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x64 .f32 := Host.absf main_arg6
  let main_cst_10 : FVec F S_ .f32 := constant S_ .f32 0x7F800000#32
  let main_v30 : FVec F S20x64 .f32 := broadcastInDim S20x64 ![] bcast_S_S20x64 main_cst_10
  let main_v31 : IVec S20x64 1 := cmpf .olt main_v29 main_v30
  let main_c_11 : IVec S_ 1 := constantI S_ 1 1#1
  let main_v32 : IVec S_ 1 := (fun x v => Host.reduce IntOp.andi x v reducesTo_S20x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x2000 .f32) (main_arg1 : FVec F S4096x4096 .f32) (main_arg2 : FVec F S2000x120 .f32) (main_arg3 : FVec F S120 .f32) (main_arg4 : FVec F S120x20 .f32) (main_arg5 : FVec F S20 .f32) (main_arg6 : FVec F S20x64 .f32) (main_arg7 : FVec F S64 .f32) (main_arg8 : FVec F S64x64 .f32) (main_arg9 : FVec F S20x64 .f32) (main_arg10 : FVec F S64 .f32) (main_arg11 : FVec F S64x256 .f32) (main_arg12 : FVec F S256 .f32) (main_arg13 : FVec F S256x512 .f32) (main_arg14 : FVec F S512 .f32) (main_arg15 : FVec F S512x2000 .f32) (main_arg16 : FVec F S2000 .f32) : IVec S_ 1 :=
  let main_v0 : FVec F S4096x2000 .f32 := Host.absf main_arg0
  let main_cst : FVec F S_ .f32 := constant S_ .f32 0x7F800000#32
  let main_v1 : FVec F S4096x2000 .f32 := broadcastInDim S4096x2000 ![] bcast_S_S4096x2000 main_cst
  let main_v2 : IVec S4096x2000 1 := cmpf .olt main_v0 main_v1
  let main_c : IVec S_ 1 := constantI S_ 1 1#1
  let main_v3 : IVec S_ 1 := (fun x v => Host.reduce IntOp.andi x v reducesTo_S4096x2000_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2000x120 .f32 := Host.absf main_arg2
  let main_cst_2 : FVec F S_ .f32 := constant S_ .f32 0x7F800000#32
  let main_v10 : FVec F S2000x120 .f32 := broadcastInDim S2000x120 ![] bcast_S_S2000x120 main_cst_2
  let main_v11 : IVec S2000x120 1 := cmpf .olt main_v9 main_v10
  let main_c_3 : IVec S_ 1 := constantI S_ 1 1#1
  let main_v12 : IVec S_ 1 := (fun x v => Host.reduce IntOp.andi x v reducesTo_S2000x120_S_d0_1 h_S_) main_v11 main_c_3
  let main_v13 : IVec S_ 1 := andi main_v8 main_v12
  let main_v14 : FVec F S120 .f32 := Host.absf main_arg3
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x2000 : Shape := ⟨2, ![4096, 2000]⟩
abbrev S4096x4096 : Shape := ⟨2, ![4096, 4096]⟩
abbrev S2000x120 : Shape := ⟨2, ![2000, 120]⟩
abbrev S120 : Shape := ⟨1, ![120]⟩
abbrev S120x20 : Shape := ⟨2, ![120, 20]⟩
abbrev S20 : Shape := ⟨1, ![20]⟩
abbrev S20x64 : Shape := ⟨2, ![20, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x512 : Shape := ⟨2, ![256, 512]⟩
abbrev S512 : Shape := ⟨1, ![512]⟩
abbrev S512x2000 : Shape := ⟨2, ![512, 2000]⟩
abbrev S2000 : Shape := ⟨1, ![2000]⟩
abbrev S1x120 : Shape := ⟨2, ![1, 120]⟩
abbrev S1x20 : Shape := ⟨2, ![1, 20]⟩
abbrev S1x64 : Shape := ⟨2, ![1, 64]⟩
abbrev S1x256 : Shape := ⟨2, ![1, 256]⟩
abbrev S1x512 : Shape := ⟨2, ![1, 512]⟩
abbrev S1x2000 : Shape := ⟨2, ![1, 2000]⟩
abbrev S4096x120 : Shape := ⟨2, ![4096, 120]⟩
abbrev S4096x20 : Shape := ⟨2, ![4096, 20]⟩
abbrev S4096x64 : Shape := ⟨2, ![4096, 64]⟩
abbrev S512x120 : Shape := ⟨2, ![512, 120]⟩
abbrev S512x4096 : Shape := ⟨2, ![512, 4096]⟩
abbrev S512x20 : Shape := ⟨2, ![512, 20]⟩
abbrev S512x64 : Shape := ⟨2, ![512, 64]⟩
abbrev S512x256 : Shape := ⟨2, ![512, 256]⟩
abbrev S512x512 : Shape := ⟨2, ![512, 512]⟩

abbrev nBuf : Space → Nat
  | .hbm => 31
  | .vmem => 40
  | .smem => 0
  | _ => 0

abbrev bufTy : (tb : Table) → Fin (tcTables nBuf tb) → BufTy
  | .hbm, ⟨0, _⟩ => ⟨S4096x2000, .f32⟩
  | .hbm, ⟨1, _⟩ => ⟨S4096x4096, .f32⟩
  | .hbm, ⟨2, _⟩ => ⟨S2000x120, .f32⟩
  | .hbm, ⟨3, _⟩ => ⟨S120, .f32⟩
  | .hbm, ⟨4, _⟩ => ⟨S120x20, .f32⟩
  | .hbm, ⟨5, _⟩ => ⟨S20, .f32⟩
  | .hbm, ⟨6, _⟩ => ⟨S20x64, .f32⟩
  | .hbm, ⟨7, _⟩ => ⟨S64, .f32⟩
  | .hbm, ⟨8, _⟩ => ⟨S64x64, .f32⟩
  | .hbm, ⟨9, _⟩ => ⟨S20x64, .f32⟩
  | .hbm, ⟨10, _⟩ => ⟨S64, .f32⟩
  | .hbm, ⟨11, _⟩ => ⟨S64x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x2000, .f32⟩
  | .hbm, ⟨16, _⟩ => ⟨S2000, .f32⟩
  | .hbm, ⟨17, _⟩ => ⟨S1x120, .f32⟩
  | .hbm, ⟨18, _⟩ => ⟨S1x20, .f32⟩
  | .hbm, ⟨19, _⟩ => ⟨S1x64, .f32⟩
  | .hbm, ⟨20, _⟩ => ⟨S1x64, .f32⟩
  | .hbm, ⟨21, _⟩ => ⟨S1x256, .f32⟩
  | .hbm, ⟨22, _⟩ => ⟨S1x512, .f32⟩
  | .hbm, ⟨23, _⟩ => ⟨S1x2000, .f32⟩
  | .hbm, ⟨24, _⟩ => ⟨S4096x120, .f32⟩
  | .hbm, ⟨25, _⟩ => ⟨S4096x120, .f32⟩
  | .hbm, ⟨26, _⟩ => ⟨S4096x20, .f32⟩
  | .hbm, ⟨27, _⟩ => ⟨S4096x64, .f32⟩
  | .hbm, ⟨28, _⟩ => ⟨S4096x64, .f32⟩
  | .hbm, ⟨29, _⟩ => ⟨S4096x2000, .f32⟩
  | .hbm, ⟨30, _⟩ => ⟨S4096x4096, .f32⟩
  | .local _ .vmem, ⟨0, _⟩ => ⟨S512x2000, .f32⟩
  | .local _ .vmem, ⟨1, _⟩ => ⟨S512x2000, .f32⟩
  | .local _ .vmem, ⟨2, _⟩ => ⟨S2000x120, .f32⟩
  | .local _ .vmem, ⟨3, _⟩ => ⟨S512x120, .f32⟩
  | .local _ .vmem, ⟨4, _⟩ => ⟨S512x120, .f32⟩
  | .local _ .vmem, ⟨5, _⟩ => ⟨S512x4096, .f32⟩
  | .local _ .vmem, ⟨6, _⟩ => ⟨S512x4096, .f32⟩
  | .local _ .vmem, ⟨7, _⟩ => ⟨S4096x120, .f32⟩
  | .local _ .vmem, ⟨8, _⟩ => ⟨S1x120, .f32⟩
  | .local _ .vmem, ⟨9, _⟩ => ⟨S512x120, .f32⟩
  | .local _ .vmem, ⟨10, _⟩ => ⟨S512x120, .f32⟩
  | .local _ .vmem, ⟨11, _⟩ => ⟨S512x4096, .f32⟩
  | .local _ .vmem, ⟨12, _⟩ => ⟨S512x4096, .f32⟩
  | .local _ .vmem, ⟨13, _⟩ => ⟨S4096x120, .f32⟩
  | .local _ .vmem, ⟨14, _⟩ => ⟨S120x20, .f32⟩
  | .local _ .vmem, ⟨15, _⟩ => ⟨S1x20, .f32⟩
  | .local _ .vmem, ⟨16, _⟩ => ⟨S20x64, .f32⟩
  | .local _ .vmem, ⟨17, _⟩ => ⟨S1x64, .f32⟩
  | .local _ .vmem, ⟨18, _⟩ => ⟨S64x64, .f32⟩
  | .local _ .vmem, ⟨19, _⟩ => ⟨S20x64, .f32⟩
  | .local _ .vmem, ⟨20, _⟩ => ⟨S1x64, .f32⟩
  | .local _ .vmem, ⟨21, _⟩ => ⟨S64x256, .f32⟩
  | .local _ .vmem, ⟨22, _⟩ => ⟨S1x256, .f32⟩
  | .local _ .vmem, ⟨23, _⟩ => ⟨S256x512, .f32⟩
  | .local _ .vmem, ⟨24, _⟩ => ⟨S1x512, .f32⟩
  | .local _ .vmem, ⟨25, _⟩ => ⟨S512x2000, .f32⟩
  | .local _ .vmem, ⟨26, _⟩ => ⟨S1x2000, .f32⟩
  | .local _ .vmem, ⟨27, _⟩ => ⟨S512x20, .f32⟩
  | .local _ .vmem, ⟨28, _⟩ => ⟨S512x20, .f32⟩
  | .local _ .vmem, ⟨29, _⟩ => ⟨S512x64, .f32⟩
  | .local _ .vmem, ⟨30, _⟩ => ⟨S512x64, .f32⟩
  | .local _ .vmem, ⟨31, _⟩ => ⟨S512x64, .f32⟩
  | .local _ .vmem, ⟨32, _⟩ => ⟨S512x64, .f32⟩
  | .local _ .vmem, ⟨33, _⟩ => ⟨S512x2000, .f32⟩
  | .local _ .vmem, ⟨34, _⟩ => ⟨S512x2000, .f32⟩
  | .local _ .vmem, ⟨35, _⟩ => ⟨S512x64, .f32⟩
  | .local _ .vmem, ⟨36, _⟩ => ⟨S512x64, .f32⟩
  | .local _ .vmem, ⟨37, _⟩ => ⟨S4096x64, .f32⟩
  | .local _ .vmem, ⟨38, _⟩ => ⟨S512x4096, .f32⟩
  | .local _ .vmem, ⟨39, _⟩ => ⟨S512x4096, .f32⟩
  | _, _ => ⟨S4096x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_v0_0 : Ref sig .tc := ⟨.hbm, 26, rfl⟩
abbrev main_call0_v9_1 : Ref sig .tc := ⟨.hbm, 27, rfl⟩
abbrev main_call0_v9_2 : Ref sig .tc := ⟨.hbm, 28, rfl⟩
abbrev main_v0_1 : Ref sig .tc := ⟨.hbm, 29, rfl⟩
abbrev main_v0_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc2_stg14_0 : Ref sig .tc := ⟨.vmem, 26, rfl⟩
abbrev cc2_stg15_0 : Ref sig .tc := ⟨.vmem, 27, rfl⟩
abbrev cc2_stg15_1 : Ref sig .tc := ⟨.vmem, 28, rfl⟩
abbrev cc2_stg16_0 : Ref sig .tc := ⟨.vmem, 29, rfl⟩
abbrev cc2_stg16_1 : Ref sig .tc := ⟨.vmem, 30, rfl⟩
abbrev cc2_stg17_0 : Ref sig .tc := ⟨.vmem, 31, rfl⟩
abbrev cc2_stg17_1 : Ref sig .tc := ⟨.vmem, 32, rfl⟩
abbrev cc2_stg18_0 : Ref sig .tc := ⟨.vmem, 33, rfl⟩
abbrev cc2_stg18_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc2_sem14_0 : DmaSem sig := 26
abbrev cc2_sem15_0 : DmaSem sig := 27
abbrev cc2_sem15_1 : DmaSem sig := 28
abbrev cc2_sem16_0 : DmaSem sig := 29
abbrev cc2_sem16_1 : DmaSem sig := 30
abbrev cc2_sem17_0 : DmaSem sig := 31
abbrev cc2_sem17_1 : DmaSem sig := 32
abbrev cc2_sem18_0 : DmaSem sig := 33
abbrev cc2_sem18_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem2_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x120 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x120 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x120 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S120x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S20x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S20x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S512x2000 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x2000 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S512x20 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S512x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S512x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S512x2000 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S120_S1x120 : S120.ShapeCasts S1x120
  shapeCasts_S20_S1x20 : S20.ShapeCasts S1x20
  shapeCasts_S64_S1x64 : S64.ShapeCasts S1x64
  shapeCasts_S256_S1x256 : S256.ShapeCasts S1x256
  shapeCasts_S512_S1x512 : S512.ShapeCasts S1x512
  shapeCasts_S2000_S1x2000 : S2000.ShapeCasts S1x2000
  inb_S512x2000_S512x2000_0_0 : ∀ a, (![0, 0] : Fin 2 → Nat) a + S512x2000.size a ≤ S512x2000.size a
  h_S512x2000 : 0 < S512x2000.numel
  inb_S2000x120_S2000x120_0_0 : ∀ a, (![0, 0] : Fin 2 → Nat) a + S2000x120.size a ≤ S2000x120.size a
  h_S2000x120 : 0 < S2000x120.numel
  bitsLt_bf16_f32 : FTy.bits .bf16 < FTy.bits .f32
  inb_S512x120_S512x120_0_0 : ∀ a, (![0, 0] : Fin 2 → Nat) a + S512x120.size a ≤ S512x120.size a
  h_S512x120 : 0 < S512x120.numel
  inb_S512x4096_S512x4096_0_0 : ∀ a, (![0, 0] : Fin 2 → Nat) a + S512x4096.size a ≤ S512x4096.size a
  h_S512x4096 : 0 < S512x4096.numel
  inb_S4096x120_S4096x120_0_0 : ∀ a, (![0, 0] : Fin 2 → Nat) a + S4096x120.size a ≤ S4096x120.size a
  h_S4096x120 : 0 < S4096x120.numel
  shapeCasts_S4096x120_S4096x120 : S4096x120.ShapeCasts S4096x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S512x120 : S1x120.Broadcasts S512x120
  inb_S120x20_S120x20_0_0 : ∀ a, (![0, 0] : Fin 2 → Nat) a + S120x20.size a ≤ S120x20.size a
  h_S120x20 : 0 < S120x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S512x20 : S1x20.Broadcasts S512x20
  inb_S512x20_S512x20_0_0 : ∀ a, (![0, 0] : Fin 2 → Nat) a + S512x20.size a ≤ S512x20.size a
  h_S512x20 : 0 < S512x20.numel
  inb_S20x64_S20x64_0_0 : ∀ a, (![0, 0] : Fin 2 → Nat) a + S20x64.size a ≤ S20x64.size a
  h_S20x64 : 0 < S20x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S512x2000 : S1x2000.Broadcasts S512x2000
  shapeCasts_S512x64_S512x64 : S512x64.ShapeCasts S512x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S512x2000_S2000x120_S512x120_1_0_0_1_n_n_wf : DotDims.WF S512x2000 S2000x120 S512x120 [1] [0] [0] [1] [] []
  dot_S512x4096_S4096x120_S512x120_1_0_0_1_n_n_wf : DotDims.WF S512x4096 S4096x120 S512x120 [1] [0] [0] [1] [] []
  dot_S512x120_S120x20_S512x20_1_0_0_1_n_n_wf : DotDims.WF S512x120 S120x20 S512x20 [1] [0] [0] [1] [] []
  dot_S512x20_S20x64_S512x64_1_0_0_1_n_n_wf : DotDims.WF S512x20 S20x64 S512x64 [1] [0] [0] [1] [] []
  dot_S512x64_S64x64_S512x64_1_0_0_1_n_n_wf : DotDims.WF S512x64 S64x64 S512x64 [1] [0] [0] [1] [] []
  dot_S512x64_S64x256_S512x256_1_0_0_1_n_n_wf : DotDims.WF S512x64 S64x256 S512x256 [1] [0] [0] [1] [] []
  dot_S512x256_S256x512_S512x512_1_0_0_1_n_n_wf : DotDims.WF S512x256 S256x512 S512x512 [1] [0] [0] [1] [] []
  dot_S512x512_S512x2000_S512x2000_1_0_0_1_n_n_wf : DotDims.WF S512x512 S512x2000 S512x2000 [1] [0] [0] [1] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2000.size a ≤ S4096x2000.size a
  hwx0_0 : ∀ i : grid0.Coords, EltTy.bits .f32 = 32 ∨ (Rect.block (s := S4096x2000) S512x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x120.size a ≤ S2000x120.size a
  hwx0_1 : ∀ i : grid0.Coords, EltTy.bits .f32 = 32 ∨ (Rect.block (s := S2000x120) S2000x120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x120.size a ≤ S4096x120.size a
  hwx0_2 : ∀ i : grid0.Coords, EltTy.bits .f32 = 32 ∨ (Rect.block (s := S4096x120) S512x120.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x120.size a ≤ S4096x120.size a
  hwx1_1 : ∀ i : grid1.Coords, EltTy.bits .f32 = 32 ∨ (Rect.block (s := S4096x120) S4096x120.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x120.size a ≤ S1x120.size a
  hwx1_2 : ∀ i : grid1.Coords, EltTy.bits .f32 = 32 ∨ (Rect.block (s := S1x120) S1x120.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x120.size a ≤ S4096x120.size a
  hwx1_3 : ∀ i : grid1.Coords, EltTy.bits .f32 = 32 ∨ (Rect.block (s := S4096x120) S512x120.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x120.size a ≤ S4096x120.size a
  hwx2_1 : ∀ i : grid2.Coords, EltTy.bits .f32 = 32 ∨ (Rect.block (s := S4096x120) S4096x120.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S120x20.size a ≤ S120x20.size a
  hwx2_2 : ∀ i : grid2.Coords, EltTy.bits .f32 = 32 ∨ (Rect.block (s := S120x20) S120x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S20x64.size a ≤ S20x64.size a
  hwx2_4 : ∀ i : grid2.Coords, EltTy.bits .f32 = 32 ∨ (Rect.block (s := S20x64) S20x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S20x64.size a ≤ S20x64.size a
  hwx2_7 : ∀ i : grid2.Coords, EltTy.bits .f32 = 32 ∨ (Rect.block (s := S20x64) S20x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x256.size a ≤ S64x256.size a
  hwx2_9 : ∀ i : grid2.Coords, EltTy.bits .f32 = 32 ∨ (Rect.block (s := S64x256) S64x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x512.size a ≤ S256x512.size a
  hwx2_11 : ∀ i : grid2.Coords, EltTy.bits .f32 = 32 ∨ (Rect.block (s := S256x512) S256x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x512.size a ≤ S1x512.size a
  hwx2_12 : ∀ i : grid2.Coords, EltTy.bits .f32 = 32 ∨ (Rect.block (s := S1x512) S1x512.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S512x2000.size a ≤ S512x2000.size a
  hwx2_13 : ∀ i : grid2.Coords, EltTy.bits .f32 = 32 ∨ (Rect.block (s := S512x2000) S512x2000.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x2000.size a ≤ S1x2000.size a
  hwx2_14 : ∀ i : grid2.Coords, EltTy.bits .f32 = 32 ∨ (Rect.block (s := S1x2000) S1x2000.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S512x20.size a ≤ S4096x20.size a
  hwx2_15 : ∀ i : grid2.Coords, EltTy.bits .f32 = 32 ∨ (Rect.block (s := S4096x20) S512x20.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S512x64.size a ≤ S4096x64.size a
  hwx2_16 : ∀ i : grid2.Coords, EltTy.bits .f32 = 32 ∨ (Rect.block (s := S4096x64) S512x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S512x64.size a ≤ S4096x64.size a
  hwx2_17 : ∀ i : grid2.Coords, EltTy.bits .f32 = 32 ∨ (Rect.block (s := S4096x64) S512x64.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S512x2000.size a ≤ S4096x2000.size a
  hwx2_18 : ∀ i : grid2.Coords, EltTy.bits .f32 = 32 ∨ (Rect.block (s := S4096x2000) S512x2000.size (cc2_transform_18 i) (hinb2_18 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S4096x64.size a
  hwx3_0 : ∀ i : grid3.Coords, EltTy.bits .f32 = 32 ∨ (Rect.block (s := S4096x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S4096x64.size a
  hwx3_1 : ∀ i : grid3.Coords, EltTy.bits .f32 = 32 ∨ (Rect.block (s := S4096x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x4096.size a ≤ S4096x4096.size a
  hwx3_2 : ∀ i : grid3.Coords, EltTy.bits .f32 = 32 ∨ (Rect.block (s := S4096x4096) S512x4096.size (cc3_transform_2 i) (hinb3_2 i)).WholeWords (EltTy.packing .f32)

variable [Facts₀]

def dot_S512x2000_S2000x120_S512x120_1_0_0_1_n_n : DotDims S512x2000 S2000x120 S512x120 where
  lhsContracting := [1]
  rhsContracting := [0]
  lhsNonContracting := [0]
  rhsNonContracting := [1]
  lhsBatch := []
  rhsBatch := []
  wf := dot_S512x2000_S2000x120_S512x120_1_0_0_1_n_n_wf
def dot_S512x4096_S4096x120_S512x120_1_0_0_1_n_n : DotDims S512x4096 S4096x120 S512x120 where
  lhsContracting := [1]
  rhsContracting := [0]
  lhsNonContracting := [0]
  rhsNonContracting := [1]
  lhsBatch := []
  rhsBatch := []
  wf := dot_S512x4096_S4096x120_S512x120_1_0_0_1_n_n_wf
def dot_S512x120_S120x20_S512x20_1_0_0_1_n_n : DotDims S512x120 S120x20 S512x20 where
  lhsContracting := [1]
  rhsContracting := [0]
  lhsNonContracting := [0]
  rhsNonContracting := [1]
  lhsBatch := []
  rhsBatch := []
  wf := dot_S512x120_S120x20_S512x20_1_0_0_1_n_n_wf
def dot_S512x20_S20x64_S512x64_1_0_0_1_n_n : DotDims S512x20 S20x64 S512x64 where
  lhsContracting := [1]
  rhsContracting := [0]
  lhsNonContracting := [0]
  rhsNonContracting := [1]
  lhsBatch := []
  rhsBatch := []
  wf := dot_S512x20_S20x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x2000_S512x2000_1_0_0_1_n_n : DotDims S512x512 S512x2000 S512x2000 where
  lhsContracting := [1]
  rhsContracting := [0]
  lhsNonContracting := [0]
  rhsNonContracting := [1]
  lhsBatch := []
  rhsBatch := []
  wf := dot_S512x512_S512x2000_S512x2000_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S512x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S512x120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7) S4096x120.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x120.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v8) S512x120.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v8) S4096x120.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S120x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v1) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S20x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v2) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S20x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v3) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg11) S64x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_call0_v4) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg13) S256x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_call0_v5) S1x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg15) S512x2000.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_call0_v6) S1x2000.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v0_0) S512x20.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_call0_v9_1) S512x64.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_call0_v9_2) S512x64.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v0_1) S512x2000.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

abbrev win3_0 : Pipeline.Window sig grid3 :=
  Pipeline.Window.ofSpec (Memref.whole main_call0_v9_2) S512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v9_1) S4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0_2) S512x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x2000 : Shape := ⟨2, ![4096, 2000]⟩
abbrev S4096x4096 : Shape := ⟨2, ![4096, 4096]⟩
abbrev S2000x120 : Shape := ⟨2, ![2000, 120]⟩
abbrev S120 : Shape := ⟨1, ![120]⟩
abbrev S120x20 : Shape := ⟨2, ![120, 20]⟩
abbrev S20 : Shape := ⟨1, ![20]⟩
abbrev S20x64 : Shape := ⟨2, ![20, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x512 : Shape := ⟨2, ![256, 512]⟩
abbrev S512 : Shape := ⟨1, ![512]⟩
abbrev S512x2000 : Shape := ⟨2, ![512, 2000]⟩
abbrev S2000 : Shape := ⟨1, ![2000]⟩
abbrev S4096x120 : Shape := ⟨2, ![4096, 120]⟩
abbrev S1x120 : Shape := ⟨2, ![1, 120]⟩
abbrev S_ : Shape := ⟨0, ![]⟩
abbrev S4096x20 : Shape := ⟨2, ![4096, 20]⟩
abbrev S1x20 : Shape := ⟨2, ![1, 20]⟩
abbrev S4096x64 : Shape := ⟨2, ![4096, 64]⟩
abbrev S1x64 : Shape := ⟨2, ![1, 64]⟩
abbrev S64x4096 : Shape := ⟨2, ![64, 4096]⟩
abbrev S4096x256 : Shape := ⟨2, ![4096, 256]⟩
abbrev S1x256 : Shape := ⟨2, ![1, 256]⟩
abbrev S4096x512 : Shape := ⟨2, ![4096, 512]⟩
abbrev S1x512 : Shape := ⟨2, ![1, 512]⟩
abbrev S1x2000 : Shape := ⟨2, ![1, 2000]⟩

abbrev nBuf : Space → Nat
  | .hbm => 70
  | .vmem => 0
  | .smem => 0
  | _ => 0

abbrev bufTy : (tb : Table) → Fin (tcTables nBuf tb) → BufTy
  | .hbm, ⟨0, _⟩ => ⟨S4096x2000, .f32⟩
  | .hbm, ⟨1, _⟩ => ⟨S4096x4096, .f32⟩
  | .hbm, ⟨2, _⟩ => ⟨S2000x120, .f32⟩
  | .hbm, ⟨3, _⟩ => ⟨S120, .f32⟩
  | .hbm, ⟨4, _⟩ => ⟨S120x20, .f32⟩
  | .hbm, ⟨5, _⟩ => ⟨S20, .f32⟩
  | .hbm, ⟨6, _⟩ => ⟨S20x64, .f32⟩
  | .hbm, ⟨7, _⟩ => ⟨S64, .f32⟩
  | .hbm, ⟨8, _⟩ => ⟨S64x64, .f32⟩
  | .hbm, ⟨9, _⟩ => ⟨S20x64, .f32⟩
  | .hbm, ⟨10, _⟩ => ⟨S64, .f32⟩
  | .hbm, ⟨11, _⟩ => ⟨S64x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x2000, .f32⟩
  | .hbm, ⟨16, _⟩ => ⟨S2000, .f32⟩
  | .hbm, ⟨17, _⟩ => ⟨S4096x120, .f32⟩
  | .hbm, ⟨18, _⟩ => ⟨S4096x120, .f32⟩
  | .hbm, ⟨19, _⟩ => ⟨S1x120, .f32⟩
  | .hbm, ⟨20, _⟩ => ⟨S4096x120, .f32⟩
  | .hbm, ⟨21, _⟩ => ⟨S4096x120, .f32⟩
  | .hbm, ⟨22, _⟩ => ⟨S_, .f32⟩
  | .hbm, ⟨23, _⟩ => ⟨S4096x120, .f32⟩
  | .hbm, ⟨24, _⟩ => ⟨S4096x120, .f32⟩
  | .hbm, ⟨25, _⟩ => ⟨S4096x20, .f32⟩
  | .hbm, ⟨26, _⟩ => ⟨S4096x20, .f32⟩
  | .hbm, ⟨27, _⟩ => ⟨S1x20, .f32⟩
  | .hbm, ⟨28, _⟩ => ⟨S4096x20, .f32⟩
  | .hbm, ⟨29, _⟩ => ⟨S4096x20, .f32⟩
  | .hbm, ⟨30, _⟩ => ⟨S4096x64, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S64x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x64, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S_, .f32⟩
  | .hbm, ⟨50, _⟩ => ⟨S4096x64, .f32⟩
  | .hbm, ⟨51, _⟩ => ⟨S4096x64, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S4096x512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x2000, .f32⟩
  | .hbm, ⟨67, _⟩ => ⟨S1x2000, .f32⟩
  | .hbm, ⟨68, _⟩ => ⟨S4096x2000, .f32⟩
  | .hbm, ⟨69, _⟩ => ⟨S4096x2000, .f32⟩
  | _, _ => ⟨S4096x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call3_cst : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  bcast_S120_S1x120_1 : S120.BroadcastsInDim S1x120 (![1] : Fin 1 → Fin S1x120.rank)
  bcast_S1x120_S4096x120_0_1 : S1x120.BroadcastsInDim S4096x120 (![0, 1] : Fin 2 → Fin S4096x120.rank)
  bcast_S_S4096x120 : S_.BroadcastsInDim S4096x120 (![] : Fin 0 → Fin S4096x120.rank)
  bcast_S20_S1x20_1 : S20.BroadcastsInDim S1x20 (![1] : Fin 1 → Fin S1x20.rank)
  bcast_S1x20_S4096x20_0_1 : S1x20.BroadcastsInDim S4096x20 (![0, 1] : Fin 2 → Fin S4096x20.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S4096x64_S64x4096_1_0 : S4096x64.Transposes [1, 0] S64x4096
  bcast_S_S4096x4096 : S_.BroadcastsInDim S4096x4096 (![] : Fin 0 → Fin S4096x4096.rank)
  bcast_S_S4096x64 : S_.BroadcastsInDim S4096x64 (![] : Fin 0 → Fin S4096x64.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  dot_S4096x2000_S2000x120_S4096x120_1_0_0_1_n_n_wf : DotDims.WF S4096x2000 S2000x120 S4096x120 [1] [0] [0] [1] [] []
  dot_S4096x4096_S4096x120_S4096x120_1_0_0_1_n_n_wf : DotDims.WF S4096x4096 S4096x120 S4096x120 [1] [0] [0] [1] [] []
  dot_S4096x120_S120x20_S4096x20_1_0_0_1_n_n_wf : DotDims.WF S4096x120 S120x20 S4096x20 [1] [0] [0] [1] [] []
  dot_S4096x4096_S4096x20_S4096x20_1_0_0_1_n_n_wf : DotDims.WF S4096x4096 S4096x20 S4096x20 [1] [0] [0] [1] [] []
  dot_S4096x20_S20x64_S4096x64_1_0_0_1_n_n_wf : DotDims.WF S4096x20 S20x64 S4096x64 [1] [0] [0] [1] [] []
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []
  dot_S4096x64_S64x256_S4096x256_1_0_0_1_n_n_wf : DotDims.WF S4096x64 S64x256 S4096x256 [1] [0] [0] [1] [] []
  dot_S4096x256_S256x512_S4096x512_1_0_0_1_n_n_wf : DotDims.WF S4096x256 S256x512 S4096x512 [1] [0] [0] [1] [] []
  dot_S4096x512_S512x2000_S4096x2000_1_0_0_1_n_n_wf : DotDims.WF S4096x512 S512x2000 S4096x2000 [1] [0] [0] [1] [] []

variable [Facts₀]

def dot_S4096x2000_S2000x120_S4096x120_1_0_0_1_n_n : DotDims S4096x2000 S2000x120 S4096x120 where
  lhsContracting := [1]
  rhsContracting := [0]
  lhsNonContracting := [0]
  rhsNonContracting := [1]
  lhsBatch := []
  rhsBatch := []
  wf := dot_S4096x2000_S2000x120_S4096x120_1_0_0_1_n_n_wf
def dot_S4096x4096_S4096x120_S4096x120_1_0_0_1_n_n : DotDims S4096x4096 S4096x120 S4096x120 where
  lhsContracting := [1]
  rhsContracting := [0]
  lhsNonContracting := [0]
  rhsNonContracting := [1]
  lhsBatch := []
  rhsBatch := []
  wf := dot_S4096x4096_S4096x120_S4096x120_1_0_0_1_n_n_wf
def dot_S4096x120_S120x20_S4096x20_1_0_0_1_n_n : DotDims S4096x120 S120x20 S4096x20 where
  lhsContracting := [1]
  rhsContracting := [0]
  lhsNonContracting := [0]
  rhsNonContracting := [1]
  lhsBatch := []
  rhsBatch := []
  wf := dot_S4096x120_S120x20_S4096x20_1_0_0_1_n_n_wf
def dot_S4096x4096_S4096x20_S4096x20_1_0_0_1_n_n : DotDims S4096x4096 S4096x20 S4096x20 where
  lhsContracting := [1]
  rhsContracting := [0]
  lhsNonContracting := [0]
  rhsNonContracting := [1]
  lhsBatch := []
  rhsBatch := []
  wf := dot_S4096x4096_S4096x20_S4096x20_1_0_0_1_n_n_wf
def dot_S4096x20_S20x64_S4096x64_1_0_0_1_n_n : DotDims S4096x20 S20x64 S4096x64 where
  lhsContracting := [1]
  rhsContracting := [0]
  lhsNonContracting := [0]
  rhsNonContracting := [1]
  lhsBatch := []
  rhsBatch := []
  wf := dot_S4096x20_S20x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x2000_S4096x2000_1_0_0_1_n_n : DotDims S4096x512 S512x2000 S4096x2000 where
  lhsContracting := [1]
  rhsContracting := [0]
  lhsNonContracting := [0]
  rhsNonContracting := [1]
  lhsBatch := []
  rhsBatch := []
  wf := dot_S4096x512_S512x2000_S4096x2000_1_0_0_1_n_n_wf

class Facts : Prop extends Facts₀ where

variable [Facts]
-- ==== Proof.KernelRun.lean ====
/-
  The idealized kernel's run with its three result arrays NAMED. The program is four grid launches in a row; the
  buffer contents at the five boundaries are the fold `W1 … W5` (each launch replaces its own arrays by what its
  write-backs leave and keeps every other buffer). Every weakly fair execution ends, faults nowhere, leaves the
  seventeen argument arrays as launched, and leaves each result buffer at the last boundary's contents `W5`.
-/
import proofs.«147425_g84645215470087_cont_9to1_m_424_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer ends at the last
    boundary's contents and each argument array as launched. -/
theorem run_W5 : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0_0 (by decide)),
       h c _ (mem_uc main_v0_1 (by decide)),
       h c _ (mem_uc main_v0_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c)⟩)

end Cert.KernelIdeal.RunValue

end
-- ==== Proof.LibMatmul.lean ====
/-
  A tile product into the zero accumulator, read at one output index: with the contraction running over one axis of
  extent `K`, the entry is the sum over `k : Fin K` of the left operand at the index the dimension numbers assign
  to `k` times the right operand at its index. The caller names the two operand indices as functions of `k`.
-/
import Idealize.ShloMosaic.Lib.ValueIdx
import Idealize.ShloMosaic.PureOps.Ideal.Laws

noncomputable section

namespace Cert.LibMatmul

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d none lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibMatmul

end
-- ==== Proof.Spec.lean ====
/-
  The mathematics both programs compute, on arrays of extended reals indexed by two coordinates.
  `mm a b` is the matrix product (entry `(r, c)` the sum over `t` of `a (r, t) · b (t, c)`), `mmT a b` the product
  with the transpose of `b`, `addRow a b` adds the one-row array `b` to every row, `relu` is the maximum with zero,
  `logisticT` is `1/2 · tanh (x/2) + 1/2` and `logisticE` is `1 / (1 + e^{-x})`, entry by entry, `row1` reads a
  vector as a one-row array. The definitions hold for every pair of extents, so the same names describe a block and the
  whole array; the lemmas `*_at` say that an entry of an operation on blocks is the entry of the same operation on
  whole arrays as soon as the entries it reads correspond.
-/
import Idealize.ShloMosaic.Lib.ValueIdx
import Idealize.ShloMosaic.PureOps.Ideal

noncomputable section

namespace Cert.Spec

open Idealize.ShloMosaic Idealize.ShloMosaic.ValueIdx

/-- An array of extended reals with `r` rows and `c` columns. -/
abbrev A2 (r c : ℕ) : Type := (⟨2, ![r, c]⟩ : Shape).Idx → EReal

/-- The row coordinate of an index. -/
abbrev rw0 {r c : ℕ} (i : (⟨2, ![r, c]⟩ : Shape).Idx) : Fin r := ⟨(i 0).val, (i 0).isLt⟩
/-- The column coordinate of an index. -/
abbrev cl1 {r c : ℕ} (i : (⟨2, ![r, c]⟩ : Shape).Idx) : Fin c := ⟨(i 1).val, (i 1).isLt⟩

/-- Every index is its row and column coordinates. -/
theorem eq_ix {r c : ℕ} (i : (⟨2, ![r, c]⟩ : Shape).Idx) : i = ix2 (rw0 i) (cl1 i) := by
  funext a; match a with | ⟨0, _⟩ => rfl | ⟨1, _⟩ => rfl

/-- The f32 zero word's value. -/
abbrev zero : EReal := Ideal.ofBits .f32 0x00000000#32
/-- The f32 word of one half. -/
abbrev half : EReal := Ideal.ofBits .f32 0x3F000000#32
/-- The f32 word of one. -/
abbrev one : EReal := Ideal.ofBits .f32 0x3F800000#32

/-- Matrix product. -/
def mm {r k c : ℕ} (a : A2 r k) (b : A2 k c) : A2 r c :=
  fun i => ∑ t : Fin k, a (ix2 (rw0 i) t) * b (ix2 t (cl1 i))
/-- Matrix product with the second factor transposed. -/
def mmT {r k c : ℕ} (a : A2 r k) (b : A2 c k) : A2 r c :=
  fun i => ∑ t : Fin k, a (ix2 (rw0 i) t) * b (ix2 (cl1 i) t)
/-- A one-row array added to every row. -/
def addRow {r c : ℕ} (a : A2 r c) (b : A2 1 c) : A2 r c :=
  fun i => a i + b (ix2 (0 : Fin 1) (cl1 i))
/-- The maximum with zero, entry by entry. -/
def relu {r c : ℕ} (a : A2 r c) : A2 r c := fun i => max (a i) zero
/-- An affine layer: product plus a row. -/
def lin {r k c : ℕ} (a : A2 r k) (w : A2 k c) (b : A2 1 c) : A2 r c := addRow (mm a w) b
/-- The logistic function written with the hyperbolic tangent, entry by entry. -/
def logisticT {r c : ℕ} (a : A2 r c) : A2 r c := fun i => half * Ideal.tanh (half * a i) + half
/-- The logistic function written with the exponential, entry by entry. -/
def logisticE {r c : ℕ} (a : A2 r c) : A2 r c := fun i => Ideal.div one (one + Ideal.exp (-(a i)))
/-- A vector read as a one-row array. -/
def row1 {c : ℕ} (x : (⟨1, ![c]⟩ : Shape).Idx → EReal) : A2 1 c := fun i => x (ix1 (cl1 i))
/-- The transpose. -/
def tr {r c : ℕ} (a : A2 r c) : A2 c r := fun i => a (ix2 (cl1 i) (rw0 i))

/-! ## An entry of an operation on blocks against the entry of the operation on whole arrays -/

theorem mm_at {r k c r' c' : ℕ} (xb : A2 r k) (wb : A2 k c) (a : A2 r' k) (w : A2 k c')
    (j : (⟨2, ![r, c]⟩ : Shape).Idx) (i : (⟨2, ![r', c']⟩ : Shape).Idx)
    (h0 : ∀ t : Fin k, xb (ix2 (rw0 j) t) = a (ix2 (rw0 i) t))
    (h1 : ∀ t : Fin k, wb (ix2 t (cl1 j)) = w (ix2 t (cl1 i))) : mm xb wb j = mm a w i := by
  unfold mm
  exact Finset.sum_congr rfl fun t _ => by rw [h0 t, h1 t]

theorem mmT_at {r k c r' c' : ℕ} (xb : A2 r k) (wb : A2 c k) (a : A2 r' k) (w : A2 c' k)
    (j : (⟨2, ![r, c]⟩ : Shape).Idx) (i : (⟨2, ![r', c']⟩ : Shape).Idx)
    (h0 : ∀ t : Fin k, xb (ix2 (rw0 j) t) = a (ix2 (rw0 i) t))
    (h1 : ∀ t : Fin k, wb (ix2 (cl1 j) t) = w (ix2 (cl1 i) t)) : mmT xb wb j = mmT a w i := by
  unfold mmT
  exact Finset.sum_congr rfl fun t _ => by rw [h0 t, h1 t]

theorem addRow_at {r c r' c' : ℕ} (xb : A2 r c) (bb : A2 1 c) (a : A2 r' c') (b : A2 1 c')
    (j : (⟨2, ![r, c]⟩ : Shape).Idx) (i : (⟨2, ![r', c']⟩ : Shape).Idx)
    (h0 : xb j = a i) (h1 : bb (ix2 (0 : Fin 1) (cl1 j)) = b (ix2 (0 : Fin 1) (cl1 i))) :
    addRow xb bb j = addRow a b i := by
  unfold addRow
  rw [h0, h1]

theorem relu_at {r c r' c' : ℕ} (xb : A2 r c) (a : A2 r' c')
    (j : (⟨2, ![r, c]⟩ : Shape).Idx) (i : (⟨2, ![r', c']⟩ : Shape).Idx) (h0 : xb j = a i) :
    relu xb j = relu a i := by
  unfold relu
  rw [h0]

theorem lin_at {r k c r' c' : ℕ} (xb : A2 r k) (wb : A2 k c) (bb : A2 1 c) (a : A2 r' k) (w : A2 k c') (b : A2 1 c')
    (j : (⟨2, ![r, c]⟩ : Shape).Idx) (i : (⟨2, ![r', c']⟩ : Shape).Idx)
    (h0 : ∀ t : Fin k, xb (ix2 (rw0 j) t) = a (ix2 (rw0 i) t))
    (h1 : ∀ t : Fin k, wb (ix2 t (cl1 j)) = w (ix2 t (cl1 i)))
    (h2 : bb (ix2 (0 : Fin 1) (cl1 j)) = b (ix2 (0 : Fin 1) (cl1 i))) : lin xb wb bb j = lin a w b i :=
  addRow_at _ _ _ _ j i (mm_at _ _ _ _ j i h0 h1) h2

theorem logisticT_at {r c r' c' : ℕ} (xb : A2 r c) (a : A2 r' c')
    (j : (⟨2, ![r, c]⟩ : Shape).Idx) (i : (⟨2, ![r', c']⟩ : Shape).Idx) (h0 : xb j = a i) :
    logisticT xb j = logisticT a i := by
  unfold logisticT
  rw [h0]

/-! ## A block as a band of rows of an array

  `Rows off b a`: the block `b` is the rows `off, off + 1, …` of the array `a` — entry `j` of the block is entry `i` of
  the array whenever `i`'s row is `off` plus `j`'s row and the columns agree. Every operation above carries the
  relation from its first operand to its result, the other operands being the same on both sides. -/

/-- The block `b` is the band of rows of `a` that starts at row `off`. -/
def Rows {rb r c : ℕ} (off : ℕ) (b : A2 rb c) (a : A2 r c) : Prop :=
  ∀ (j : (⟨2, ![rb, c]⟩ : Shape).Idx) (i : (⟨2, ![r, c]⟩ : Shape).Idx),
    (i 0).val = off + (j 0).val → (i 1).val = (j 1).val → b j = a i

theorem cl1_eq {rb r c : ℕ} (j : (⟨2, ![rb, c]⟩ : Shape).Idx) (i : (⟨2, ![r, c]⟩ : Shape).Idx)
    (h1 : (i 1).val = (j 1).val) : cl1 j = cl1 i := Fin.ext h1.symm

theorem Rows.mm {rb r k c : ℕ} {off : ℕ} {b : A2 rb k} {a : A2 r k} {wb w : A2 k c}
    (hb : Rows off b a) (hw : ∀ y, wb y = w y) : Rows off (mm b wb) (mm a w) := fun j i h0 h1 =>
  mm_at b wb a w j i (fun t => hb _ _ h0 rfl) (fun t => by rw [hw, cl1_eq j i h1])

theorem Rows.mmT {rb r k c : ℕ} {off : ℕ} {b : A2 rb k} {a : A2 r k} {wb w : A2 c k}
    (hb : Rows off b a) (hw : ∀ y, wb y = w y) : Rows off (mmT b wb) (mmT a w) := fun j i h0 h1 =>
  mmT_at b wb a w j i (fun t => hb _ _ h0 rfl) (fun t => by rw [hw, cl1_eq j i h1])

theorem Rows.addRow {rb r c : ℕ} {off : ℕ} {b : A2 rb c} {a : A2 r c} {bb b' : A2 1 c}
    (hb : Rows off b a) (hbias : ∀ y, bb y = b' y) : Rows off (addRow b bb) (addRow a b') := fun j i h0 h1 =>
  addRow_at b bb a b' j i (hb j i h0 h1) (by rw [hbias, cl1_eq j i h1])

theorem Rows.relu {rb r c : ℕ} {off : ℕ} {b : A2 rb c} {a : A2 r c} (hb : Rows off b a) :
    Rows off (relu b) (relu a) := fun j i h0 h1 => relu_at b a j i (hb j i h0 h1)

theorem Rows.lin {rb r k c : ℕ} {off : ℕ} {b : A2 rb k} {a : A2 r k} {wb w : A2 k c} {bb b' : A2 1 c}
    (hb : Rows off b a) (hw : ∀ y, wb y = w y) (hbias : ∀ y, bb y = b' y) : Rows off (lin b wb bb) (lin a w b') :=
  (hb.mm hw).addRow hbias

theorem Rows.logisticT {rb r c : ℕ} {off : ℕ} {b : A2 rb c} {a : A2 r c} (hb : Rows off b a) :
    Rows off (logisticT b) (logisticT a) := fun j i h0 h1 => logisticT_at b a j i (hb j i h0 h1)

end Cert.Spec

end
-- ==== Proof.LibPay.lean ====
/-
  The vector operations of a block's arithmetic read as the array operations of the specification, at the exact
  real-number instance: adding a broadcast one-row array is `addRow`, the maximum with the zero splat is `relu`,
  `c · tanh (c · x) + c` with `c` the word of one half is `logisticT`, and a vector reshaped to one row is `row1`.
-/
import proofs.«147425_g84645215470087_cont_9to1_m_424_2_alg».proof.Proof.Spec
import Idealize.ShloMosaic.Lib.Pipeline.Value
import Idealize.ShloMosaic.Lib.ValueLayout

noncomputable section

namespace Cert.LibPay

open Idealize.ShloMosaic Idealize.ShloMosaic.ValueIdx Cert.Spec

/-- A one-row array broadcast over the rows and added is `addRow`. -/
theorem addf_broadcastTo_row {r c : ℕ} (a : FVec Ideal ⟨2, ![r, c]⟩ .f32) (b : FVec Ideal ⟨2, ![1, c]⟩ .f32)
    (hb : (⟨2, ![1, c]⟩ : Shape).Broadcasts ⟨2, ![r, c]⟩) :
    addf a (broadcastTo ⟨2, ![r, c]⟩ b hb) = addRow a b := by
  funext j
  obtain ⟨p, q, rfl⟩ : ∃ (p : Fin r) (q : Fin c), j = ix2 p q := ⟨_, _, eq_ix j⟩
  show a (ix2 p q) + broadcastTo ⟨2, ![r, c]⟩ b hb (ix2 p q) = a (ix2 p q) + b (ix2 (0 : Fin 1) q)
  rw [broadcastTo_1b_ab_apply]

/-- The maximum with the splat of the zero word is `relu`. -/
theorem maximumf_zero {r c : ℕ} (a : FVec Ideal ⟨2, ![r, c]⟩ .f32) :
    maximumf a (broadcast ⟨2, ![r, c]⟩ (Scalar.ofBits (F := Ideal) .f32 0x00000000#32)) = relu a := rfl

/-- `c · tanh (c · x) + c` with `c` the word of one half is `logisticT`. -/
theorem tanh_form {r c : ℕ} (a : FVec Ideal ⟨2, ![r, c]⟩ .f32) :
    addf (mulf (broadcast ⟨2, ![r, c]⟩ (Scalar.ofBits (F := Ideal) .f32 0x3F000000#32))
      (tanh (mulf (broadcast ⟨2, ![r, c]⟩ (Scalar.ofBits (F := Ideal) .f32 0x3F000000#32)) a)))
      (broadcast ⟨2, ![r, c]⟩ (Scalar.ofBits (F := Ideal) .f32 0x3F000000#32)) = logisticT a := by
  funext i
  simp only [addf, mulf, tanh, broadcast, Ideal.mulf_def, Ideal.addf_def, Ideal.tanh_def, Ideal.ofBits_def]
  rfl

/-- A vector reshaped to one row is `row1`. -/
theorem shapeCast_row {c : ℕ} (x : (⟨1, ![c]⟩ : Shape).Idx → EReal) (h : (⟨1, ![c]⟩ : Shape).ShapeCasts ⟨2, ![1, c]⟩) :
    shapeCast ⟨2, ![1, c]⟩ x h = row1 x := by
  funext j
  obtain ⟨u, q, rfl⟩ : ∃ (u : Fin 1) (q : Fin c), j = ix2 u q := ⟨_, _, eq_ix j⟩
  exact shapeCast_a_1a_apply x h u q

end Cert.LibPay

end
-- ==== Proof.Net.lean ====
/-
  The network both programs compute, as functions of the seventeen argument arrays: a two-layer graph encoder
  (`P = X·W1`, `H = relu (A·P + b1)`, then `Z`), a bilinear decoder (`HD = Z·Wd + bd`, `U = HD·Wb`, the logistic
  function of `U·HDᵀ`) and a four-layer perceptron on `Z`. The two programs differ in two places only: the kernel
  forms `Z` as `(A·H)·W2 + b2` where the reference forms `A·(H·W2) + b2`, and the kernel writes the logistic function
  with the hyperbolic tangent where the reference writes it with the exponential.
-/
import proofs.«147425_g84645215470087_cont_9to1_m_424_2_alg».proof.Proof.Spec

noncomputable section

namespace Cert.Net

open Idealize.ShloMosaic Cert.Spec

/-- A vector of extended reals of length `n`. -/
abbrev V1 (n : ℕ) : Type := (⟨1, ![n]⟩ : Shape).Idx → EReal

/-- `X·W1`. -/
def P (x0 : A2 4096 2000) (x2 : A2 2000 120) : A2 4096 120 := mm x0 x2
/-- `relu (A·(X·W1) + b1)`. -/
def H (x0 : A2 4096 2000) (x1 : A2 4096 4096) (x2 : A2 2000 120) (x3 : V1 120) : A2 4096 120 :=
  relu (addRow (mm x1 (P x0 x2)) (row1 x3))
/-- The latent array as the kernel groups it: `(A·H)·W2 + b2`. -/
def Zk (x1 : A2 4096 4096) (h : A2 4096 120) (x4 : A2 120 20) (x5 : V1 20) : A2 4096 20 :=
  addRow (mm (mm x1 h) x4) (row1 x5)
/-- The latent array as the reference groups it: `A·(H·W2) + b2`. -/
def Zr (x1 : A2 4096 4096) (h : A2 4096 120) (x4 : A2 120 20) (x5 : V1 20) : A2 4096 20 :=
  addRow (mm x1 (mm h x4)) (row1 x5)
/-- `Z·Wd + bd`. -/
def HD (z : A2 4096 20) (x6 : A2 20 64) (x7 : V1 64) : A2 4096 64 := lin z x6 (row1 x7)
/-- `HD·Wb`. -/
def U (hd : A2 4096 64) (x8 : A2 64 64) : A2 4096 64 := mm hd x8
/-- The adjacency reconstruction as the kernel writes it. -/
def AOk (u hd : A2 4096 64) : A2 4096 4096 := logisticT (mmT u hd)
/-- The adjacency reconstruction as the reference writes it. -/
def AOr (u hd : A2 4096 64) : A2 4096 4096 := logisticE (mm u (tr hd))
/-- The four-layer perceptron on the latent array. -/
def XO (z : A2 4096 20) (x9 : A2 20 64) (x10 : V1 64) (x11 : A2 64 256) (x12 : V1 256) (x13 : A2 256 512) (x14 : V1 512)
    (x15 : A2 512 2000) (x16 : V1 2000) : A2 4096 2000 :=
  lin (relu (lin (relu (lin (relu (lin z x9 (row1 x10))) x11 (row1 x12))) x13 (row1 x14))) x15 (row1 x16)

end Cert.Net

end
-- ==== Proof.R0.lean ====
/-
  The first launch, `P = X·W1` by blocks of 512 rows: the block arithmetic is one tile product, each grid point writes
  back the band of rows of `mm` of the two operand arrays that its block covers, and the eight bands cover the result.
-/
import proofs.«147425_g84645215470087_cont_9to1_m_424_2_alg».proof.Proof.Gen.KernelIdeal.Frame
import proofs.«147425_g84645215470087_cont_9to1_m_424_2_alg».proof.Proof.LibMatmul
import proofs.«147425_g84645215470087_cont_9to1_m_424_2_alg».proof.Proof.LibPay
import proofs.«147425_g84645215470087_cont_9to1_m_424_2_alg».proof.Proof.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

theorem hz : (![0, 0] : Fin 2 → Nat) = fun _ => 0 := funext fun a => by fin_cases a <;> rfl

/-- The dimension numbers of this product contract the left operand's second axis with the right operand's first:
    at output `(p, q)` and contraction coordinate `k` the factors sit at `(p, k)` and `(k, q)`. -/
theorem lhs0_xw (i : S512x120.Idx) (c : dot_S512x2000_S2000x120_S512x120_1_0_0_1_n_n.contr.Idx) : (dot_S512x2000_S2000x120_S512x120_1_0_0_1_n_n.lhsIdx i c 0).val = (i 0).val := by
  unfold DotDims.lhsIdx
  rw [dif_neg (show ¬(0 : Fin S512x2000.rank) ∈ dot_S512x2000_S2000x120_S512x120_1_0_0_1_n_n.lhsBatch by decide), dif_pos (show (0 : Fin S512x2000.rank) ∈ dot_S512x2000_S2000x120_S512x120_1_0_0_1_n_n.lhsNonContracting by decide)]
  rfl
theorem lhs1_xw (i : S512x120.Idx) (c : dot_S512x2000_S2000x120_S512x120_1_0_0_1_n_n.contr.Idx) : (dot_S512x2000_S2000x120_S512x120_1_0_0_1_n_n.lhsIdx i c 1).val = (c ⟨0, by decide⟩).val :=
  dot_S512x2000_S2000x120_S512x120_1_0_0_1_n_n.lhsIdx_val_of_single rfl i c
theorem rhs0_xw (i : S512x120.Idx) (c : dot_S512x2000_S2000x120_S512x120_1_0_0_1_n_n.contr.Idx) : (dot_S512x2000_S2000x120_S512x120_1_0_0_1_n_n.rhsIdx i c 0).val = (c ⟨0, by decide⟩).val :=
  dot_S512x2000_S2000x120_S512x120_1_0_0_1_n_n.rhsIdx_val_of_single rfl i c
theorem rhs1_xw (i : S512x120.Idx) (c : dot_S512x2000_S2000x120_S512x120_1_0_0_1_n_n.contr.Idx) : (dot_S512x2000_S2000x120_S512x120_1_0_0_1_n_n.rhsIdx i c 1).val = (i 1).val := by
  unfold DotDims.rhsIdx
  rw [dif_neg (show ¬(1 : Fin S2000x120.rank) ∈ dot_S512x2000_S2000x120_S512x120_1_0_0_1_n_n.rhsBatch by decide), dif_pos (show (1 : Fin S2000x120.rank) ∈ dot_S512x2000_S2000x120_S512x120_1_0_0_1_n_n.rhsNonContracting by decide)]
  rfl
theorem lhs_xw (p : Fin 512) (q : Fin 120) (k : Fin 2000) :
    dot_S512x2000_S2000x120_S512x120_1_0_0_1_n_n.lhsIdx (ix2 p q) ((contrEquiv1 dot_S512x2000_S2000x120_S512x120_1_0_0_1_n_n 2000 rfl rfl).symm k) = ix2 p k := by
  have hk := contrEquiv1_symm_val dot_S512x2000_S2000x120_S512x120_1_0_0_1_n_n 2000 rfl rfl k
  funext a; apply Fin.ext
  match a with
  | ⟨0, _⟩ => exact lhs0_xw _ _
  | ⟨1, _⟩ => exact (lhs1_xw _ _).trans hk
theorem rhs_xw (p : Fin 512) (q : Fin 120) (k : Fin 2000) :
    dot_S512x2000_S2000x120_S512x120_1_0_0_1_n_n.rhsIdx (ix2 p q) ((contrEquiv1 dot_S512x2000_S2000x120_S512x120_1_0_0_1_n_n 2000 rfl rfl).symm k) = ix2 k q := by
  have hk := contrEquiv1_symm_val dot_S512x2000_S2000x120_S512x120_1_0_0_1_n_n 2000 rfl rfl k
  funext a; apply Fin.ext
  match a with
  | ⟨0, _⟩ => exact (rhs0_xw _ _).trans hk
  | ⟨1, _⟩ => exact rhs1_xw _ _

/-- This tile product (its operands narrowed to bf16, which changes nothing over the extended reals) is `mm`. -/
theorem mm_xw (X : FVec Ideal S512x2000 .f32) (W : FVec Ideal S2000x120 .f32) (h1 h2 : (FTy.bf16).bits < (FTy.f32).bits) :
    matmul dot_S512x2000_S2000x120_S512x120_1_0_0_1_n_n none (truncf .bf16 X h1) (truncf .bf16 W h2) (constant S512x120 .f32 0x00000000#32) = mm X W := by
  funext j
  obtain ⟨p, q, rfl⟩ : ∃ (p : Fin 512) (q : Fin 120), j = ix2 p q := ⟨_, _, eq_ix j⟩
  exact Cert.LibMatmul.matmul_zero_at dot_S512x2000_S2000x120_S512x120_1_0_0_1_n_n 2000 rfl rfl _ _ (ix2 p q) (fun k => ix2 p k) (fun k => ix2 k q) (lhs_xw p q) (rhs_xw p q)

/-- The first launch's block arithmetic: one product. -/
theorem pay_spec (v0 : Vec Ideal S512x2000 .f32) (v1 : Vec Ideal S2000x120 .f32) : k0_pay1 v0 v1 = mm v0 v1 := by
  unfold k0_pay1
  exact mm_xw _ _ _ _

variable (V : (c : Dev nD) → (b : Ref sig .tc) → Buf (Elt Ideal) ((c : Thread nD τ).loc b))

/-- The printed block index maps over the eight grid points: every row-blocked window moves with the first output's
    row block, every other block index is zero, and the row block stays below eight. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of output window 2 is some grid point's. -/
theorem idx_onto2 : ∀ q0 : Fin 8, ∃ t : Fin cfg0.N, win0_2.index t = ![q0.val, 0] :=
  (by decide +kernel : ∀ q0 : Fin 8, ∃ t : Fin grid0.N, win0_2.index t = ![q0.val, 0])

/-- Input window 0 moves with the output's row block: its block at grid point `t` is the band of 512 rows of its
    array that starts where the output's block starts. -/
theorem blk0 (c : Dev nD) (t : Fin cfg0.N) :
    Rows (win0_2.index t (0 : Fin 2) * 512) (iblk0 V c 0 t) (V c (Pipeline.arrRef spec0 0)) := by
  intro j i h0 h1
  have e := idx_facts t
  show V c (Pipeline.arrRef spec0 0) (((cfg0.win 0).blk t).view.emb j) = V c (Pipeline.arrRef spec0 0) i
  congr 1; funext a; apply Fin.ext
  match a with
  | ⟨0, _⟩ => show win0_0.index t (0 : Fin 2) * 512 + 1 * (j 0).val = (i 0).val; omega
  | ⟨1, _⟩ => show win0_0.index t (1 : Fin 2) * 2000 + 1 * (j 1).val = (i 1).val; omega

/-- Input window 1 is loaded whole: its block at every grid point is the array itself. -/
theorem blk1 (c : Dev nD) (t : Fin cfg0.N) (y : S2000x120.Idx) : iblk0 V c 1 t y = V c (Pipeline.arrRef spec0 1) y := by
  have e := idx_facts t
  show V c (Pipeline.arrRef spec0 1) (((cfg0.win 1).blk t).view.emb y) = V c (Pipeline.arrRef spec0 1) y
  congr 1; funext a; apply Fin.ext
  match a with
  | ⟨0, _⟩ => show win0_1.index t (0 : Fin 2) * 2000 + 1 * (y 0).val = (y 0).val; omega
  | ⟨1, _⟩ => show win0_1.index t (1 : Fin 2) * 120 + 1 * (y 1).val = (y 1).val; omega

/-- What grid point `t` writes back through output window 2 is block `t` of the specification's array. -/
theorem flushed_eq2 (c : Dev nD) (t : Fin cfg0.N) :
    (dat0 V c).flushed 2 t = ((cfg0.win 2).blk t).view.read (Elt Ideal) (mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S512x2000) hz, View.ld_unit_zero (S := S2000x120) hz]
  have e := idx_facts t
  funext j
  refine (congrFun (pay_spec _ _) j).trans ?_
  refine ((blk0 V c t).mm (blk1 V c t)) j _ ?_ ?_
  · show win0_2.index t (0 : Fin 2) * 512 + 1 * (j 0).val = win0_2.index t (0 : Fin 2) * 512 + (j 0).val; omega
  · show win0_2.index t (1 : Fin 2) * 120 + 1 * (j 1).val = (j 1).val; omega

/-- An index of output 2's array is in grid point `t`'s block iff each coordinate is in the block's range. -/
theorem mem_blk2 (t : Fin cfg0.N) (i : S4096x120.Idx) :
    i ∈ ((cfg0.win 2).blk t).view.set ↔ ∀ a : Fin 2, win0_2.index t a * S512x120.size a ≤ (i a).val ∧ (i a).val < win0_2.index t a * S512x120.size a + S512x120.size a := by
  show i ∈ ((View.whole main_call0_v7).slice (win0_2.rect t)).set ↔ _
  rw [View.set_slice_whole, Rect.mem_set_unit]
  exact Iff.rfl

/-- The eight row blocks cover output 2's array: row `r` lies in block `r / 512`. -/
theorem cover2 (i : S4096x120.Idx) : ∃ t : Fin cfg0.N, (cfg0.win 2).flush t = true ∧ i ∈ ((cfg0.win 2).blk t).view.set := by
  have hi0 : (i 0).val < 4096 := (i 0).isLt
  have hi1 : (i 1).val < 120 := (i 1).isLt
  obtain ⟨t, ht⟩ := idx_onto2 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 120 ≤ (i 1).val ∧ (i 1).val < win0_2.index t (1 : Fin 2) * 120 + 120; omega

/-- After the launch, output 2's array is the specification's array of the launch's operand arrays as found. -/
theorem final2 (c : Dev nD) : (dat0 V c).arrAt 2 cfg0.N = mm (V c (Pipeline.arrRef spec0 0)) (V c (Pipeline.arrRef spec0 1)) :=
  (dat0 V c).arrAt_eq_of_cover 2 _ (fun t _ => flushed_eq2 V c t) cover2

end Cert.KernelIdeal.R0

end
-- ==== Proof.R1.lean ====
/-
  The second launch, `H = relu (A·P + b1)` by blocks of 512 rows of `A`: the block arithmetic is a tile product, a
  broadcast row added and the maximum with zero; each grid point writes back the band of rows of that expression of the
  operand arrays, and the eight bands cover the result.
-/
import proofs.«147425_g84645215470087_cont_9to1_m_424_2_alg».proof.Proof.Gen.KernelIdeal.Frame
import proofs.«147425_g84645215470087_cont_9to1_m_424_2_alg».proof.Proof.LibMatmul
import proofs.«147425_g84645215470087_cont_9to1_m_424_2_alg».proof.Proof.LibPay
import proofs.«147425_g84645215470087_cont_9to1_m_424_2_alg».proof.Proof.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

theorem hz : (![0, 0] : Fin 2 → Nat) = fun _ => 0 := funext fun a => by fin_cases a <;> rfl

/-- The dimension numbers of this product contract the left operand's second axis with the right operand's first:
    at output `(p, q)` and contraction coordinate `k` the factors sit at `(p, k)` and `(k, q)`. -/
theorem lhs0_ap (i : S512x120.Idx) (c : dot_S512x4096_S4096x120_S512x120_1_0_0_1_n_n.contr.Idx) : (dot_S512x4096_S4096x120_S512x120_1_0_0_1_n_n.lhsIdx i c 0).val = (i 0).val := by
  unfold DotDims.lhsIdx
  rw [dif_neg (show ¬(0 : Fin S512x4096.rank) ∈ dot_S512x4096_S4096x120_S512x120_1_0_0_1_n_n.lhsBatch by decide), dif_pos (show (0 : Fin S512x4096.rank) ∈ dot_S512x4096_S4096x120_S512x120_1_0_0_1_n_n.lhsNonContracting by decide)]
  rfl
theorem lhs1_ap (i : S512x120.Idx) (c : dot_S512x4096_S4096x120_S512x120_1_0_0_1_n_n.contr.Idx) : (dot_S512x4096_S4096x120_S512x120_1_0_0_1_n_n.lhsIdx i c 1).val = (c ⟨0, by decide⟩).val :=
  dot_S512x4096_S4096x120_S512x120_1_0_0_1_n_n.lhsIdx_val_of_single rfl i c
theorem rhs0_ap (i : S512x120.Idx) (c : dot_S512x4096_S4096x120_S512x120_1_0_0_1_n_n.contr.Idx) : (dot_S512x4096_S4096x120_S512x120_1_0_0_1_n_n.rhsIdx i c 0).val = (c ⟨0, by decide⟩).val :=
  dot_S512x4096_S4096x120_S512x120_1_0_0_1_n_n.rhsIdx_val_of_single rfl i c
theorem rhs1_ap (i : S512x120.Idx) (c : dot_S512x4096_S4096x120_S512x120_1_0_0_1_n_n.contr.Idx) : (dot_S512x4096_S4096x120_S512x120_1_0_0_1_n_n.rhsIdx i c 1).val = (i 1).val := by
  unfold DotDims.rhsIdx
  rw [dif_neg (show ¬(1 : Fin S4096x120.rank) ∈ dot_S512x4096_S4096x120_S512x120_1_0_0_1_n_n.rhsBatch by decide), dif_pos (show (1 : Fin S4096x120.rank) ∈ dot_S512x4096_S4096x120_S512x120_1_0_0_1_n_n.rhsNonContracting by decide)]
  rfl
theorem lhs_ap (p : Fin 512) (q : Fin 120) (k : Fin 4096) :
    dot_S512x4096_S4096x120_S512x120_1_0_0_1_n_n.lhsIdx (ix2 p q) ((contrEquiv1 dot_S512x4096_S4096x120_S512x120_1_0_0_1_n_n 4096 rfl rfl).symm k) = ix2 p k := by
  have hk := contrEquiv1_symm_val dot_S512x4096_S4096x120_S512x120_1_0_0_1_n_n 4096 rfl rfl k
  funext a; apply Fin.ext
  match a with
  | ⟨0, _⟩ => exact lhs0_ap _ _
  | ⟨1, _⟩ => exact (lhs1_ap _ _).trans hk
theorem rhs_ap (p : Fin 512) (q : Fin 120) (k : Fin 4096) :
    dot_S512x4096_S4096x120_S512x120_1_0_0_1_n_n.rhsIdx (ix2 p q) ((contrEquiv1 dot_S512x4096_S4096x120_S512x120_1_0_0_1_n_n 4096 rfl rfl).symm k) = ix2 k q := by
  have hk := contrEquiv1_symm_val dot_S512x4096_S4096x120_S512x120_1_0_0_1_n_n 4096 rfl rfl k
  funext a; apply Fin.ext
  match a with
  | ⟨0, _⟩ => exact (rhs0_ap _ _).trans hk
  | ⟨1, _⟩ => exact rhs1_ap _ _

/-- This tile product (its operands narrowed to bf16, which changes nothing over the extended reals) is `mm`. -/
theorem mm_ap (X : FVec Ideal S512x4096 .f32) (W : FVec Ideal S4096x120 .f32) (h1 h2 : (FTy.bf16).bits < (FTy.f32).bits) :
    matmul dot_S512x4096_S4096x120_S512x120_1_0_0_1_n_n none (truncf .bf16 X h1) (truncf .bf16 W h2) (constant S512x120 .f32 0x00000000#32) = mm X W := by
  funext j
  obtain ⟨p, q, rfl⟩ : ∃ (p : Fin 512) (q : Fin 120), j = ix2 p q := ⟨_, _, eq_ix j⟩
  exact Cert.LibMatmul.matmul_zero_at dot_S512x4096_S4096x120_S512x120_1_0_0_1_n_n 4096 rfl rfl _ _ (ix2 p q) (fun k => ix2 p k) (fun k => ix2 k q) (lhs_ap p q) (rhs_ap p q)

/-- The second launch's block arithmetic: `relu (a·p + b)`. -/
theorem pay_spec (v0 : Vec Ideal S512x4096 .f32) (v1 : Vec Ideal S4096x120 .f32) (v6 : Vec Ideal S1x120 .f32) :
    k1_pay1 v0 v1 v6 = relu (addRow (mm v0 v1) v6) := by
  unfold k1_pay1
  rw [shapeCast_self, shapeCast_self]
  dsimp only
  rw [mm_ap, Cert.LibPay.addf_broadcastTo_row]
  rfl

variable (V : (c : Dev nD) → (b : Ref sig .tc) → Buf (Elt Ideal) ((c : Thread nD τ).loc b))

/-- The printed block index maps over the eight grid points: every row-blocked window moves with the first output's
    row block, every other block index is zero, and the row block stays below eight. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 7 :=
  (by decide +kernel : ∀ t : Fin grid1.N, _)

/-- Every row block of output window 3 is some grid point's. -/
theorem idx_onto3 : ∀ q0 : Fin 8, ∃ t : Fin cfg1.N, win1_3.index t = ![q0.val, 0] :=
  (by decide +kernel : ∀ q0 : Fin 8, ∃ t : Fin grid1.N, win1_3.index t = ![q0.val, 0])

/-- Input window 0 moves with the output's row block: its block at grid point `t` is the band of 512 rows of its
    array that starts where the output's block starts. -/
theorem blk0 (c : Dev nD) (t : Fin cfg1.N) :
    Rows (win1_3.index t (0 : Fin 2) * 512) (iblk1 V c 0 t) (V c (Pipeline.arrRef spec1 0)) := by
  intro j i h0 h1
  have e := idx_facts t
  show V c (Pipeline.arrRef spec1 0) (((cfg1.win 0).blk t).view.emb j) = V c (Pipeline.arrRef spec1 0) i
  congr 1; funext a; apply Fin.ext
  match a with
  | ⟨0, _⟩ => show win1_0.index t (0 : Fin 2) * 512 + 1 * (j 0).val = (i 0).val; omega
  | ⟨1, _⟩ => show win1_0.index t (1 : Fin 2) * 4096 + 1 * (j 1).val = (i 1).val; omega

/-- Input window 1 is loaded whole: its block at every grid point is the array itself. -/
theorem blk1 (c : Dev nD) (t : Fin cfg1.N) (y : S4096x120.Idx) : iblk1 V c 1 t y = V c (Pipeline.arrRef spec1 1) y := by
  have e := idx_facts t
  show V c (Pipeline.arrRef spec1 1) (((cfg1.win 1).blk t).view.emb y) = V c (Pipeline.arrRef spec1 1) y
  congr 1; funext a; apply Fin.ext
  match a with
  | ⟨0, _⟩ => show win1_1.index t (0 : Fin 2) * 4096 + 1 * (y 0).val = (y 0).val; omega
  | ⟨1, _⟩ => show win1_1.index t (1 : Fin 2) * 120 + 1 * (y 1).val = (y 1).val; omega

/-- Input window 2 is loaded whole: its block at every grid point is the array itself. -/
theorem blk2 (c : Dev nD) (t : Fin cfg1.N) (y : S1x120.Idx) : iblk1 V c 2 t y = V c (Pipeline.arrRef spec1 2) y := by
  have e := idx_facts t
  show V c (Pipeline.arrRef spec1 2) (((cfg1.win 2).blk t).view.emb y) = V c (Pipeline.arrRef spec1 2) y
  congr 1; funext a; apply Fin.ext
  match a with
  | ⟨0, _⟩ => show win1_2.index t (0 : Fin 2) * 1 + 1 * (y 0).val = (y 0).val; omega
  | ⟨1, _⟩ => show win1_2.index t (1 : Fin 2) * 120 + 1 * (y 1).val = (y 1).val; omega

/-- What grid point `t` writes back through output window 3 is block `t` of the specification's array. -/
theorem flushed_eq3 (c : Dev nD) (t : Fin cfg1.N) :
    (dat1 V c).flushed 3 t = ((cfg1.win 3).blk t).view.read (Elt Ideal) (relu (addRow (mm (V c (Pipeline.arrRef spec1 0)) (V c (Pipeline.arrRef spec1 1))) (V c (Pipeline.arrRef spec1 2)))) := by
  show (cfg1.win 3).cut (grid1.coords t) ((dat1 V c).after 3 t) = _
  rw [after1_3]
  unfold out1_3
  rw [View.canon_unit_zero hz]
  simp only [View.ld_unit_zero (S := S512x4096) hz, View.ld_unit_zero (S := S4096x120) hz, View.ld_unit_zero (S := S1x120) hz]
  have e := idx_facts t
  funext j
  refine (congrFun (pay_spec _ _ _) j).trans ?_
  refine ((((blk0 V c t).mm (blk1 V c t)).addRow (blk2 V c t)).relu) j _ ?_ ?_
  · show win1_3.index t (0 : Fin 2) * 512 + 1 * (j 0).val = win1_3.index t (0 : Fin 2) * 512 + (j 0).val; omega
  · show win1_3.index t (1 : Fin 2) * 120 + 1 * (j 1).val = (j 1).val; omega

/-- An index of output 3's array is in grid point `t`'s block iff each coordinate is in the block's range. -/
theorem mem_blk3 (t : Fin cfg1.N) (i : S4096x120.Idx) :
    i ∈ ((cfg1.win 3).blk t).view.set ↔ ∀ a : Fin 2, win1_3.index t a * S512x120.size a ≤ (i a).val ∧ (i a).val < win1_3.index t a * S512x120.size a + S512x120.size a := by
  show i ∈ ((View.whole main_call0_v8).slice (win1_3.rect t)).set ↔ _
  rw [View.set_slice_whole, Rect.mem_set_unit]
  exact Iff.rfl

/-- The eight row blocks cover output 3's array: row `r` lies in block `r / 512`. -/
theorem cover3 (i : S4096x120.Idx) : ∃ t : Fin cfg1.N, (cfg1.win 3).flush t = true ∧ i ∈ ((cfg1.win 3).blk t).view.set := by
  have hi0 : (i 0).val < 4096 := (i 0).isLt
  have hi1 : (i 1).val < 120 := (i 1).isLt
  obtain ⟨t, ht⟩ := idx_onto3 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 120 ≤ (i 1).val ∧ (i 1).val < win1_3.index t (1 : Fin 2) * 120 + 120; omega

/-- After the launch, output 3's array is the specification's array of the launch's operand arrays as found. -/
theorem final3 (c : Dev nD) : (dat1 V c).arrAt 3 cfg1.N = relu (addRow (mm (V c (Pipeline.arrRef spec1 0)) (V c (Pipeline.arrRef spec1 1))) (V c (Pipeline.arrRef spec1 2))) :=
  (dat1 V c).arrAt_eq_of_cover 3 _ (fun t _ => flushed_eq3 V c t) cover3

end Cert.KernelIdeal.R1

end
-- ==== Proof.R2.lean ====
/-
  The third launch, by blocks of 512 rows of `A`: the latent block `z = (a·h)·w2 + b2`, the decoder factors
  `hd = z·wd + bd` and `u = hd·wb`, and the four-layer perceptron on `z`. Each of the four outputs' block arithmetic is
  read as the specification's operations on the loaded blocks; each grid point writes back, through each output
  window, the band of rows of that expression of the operand arrays, and the eight bands cover each result.
-/
import proofs.«147425_g84645215470087_cont_9to1_m_424_2_alg».proof.Proof.Gen.KernelIdeal.Frame
import proofs.«147425_g84645215470087_cont_9to1_m_424_2_alg».proof.Proof.LibMatmul
import proofs.«147425_g84645215470087_cont_9to1_m_424_2_alg».proof.Proof.LibPay
import proofs.«147425_g84645215470087_cont_9to1_m_424_2_alg».proof.Proof.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

theorem hz : (![0, 0] : Fin 2 → Nat) = fun _ => 0 := funext fun a => by fin_cases a <;> rfl

/-- The dimension numbers of this product contract the left operand's second axis with the right operand's first:
    at output `(p, q)` and contraction coordinate `k` the factors sit at `(p, k)` and `(k, q)`. -/
theorem lhs0_ah (i : S512x120.Idx) (c : dot_S512x4096_S4096x120_S512x120_1_0_0_1_n_n.contr.Idx) : (dot_S512x4096_S4096x120_S512x120_1_0_0_1_n_n.lhsIdx i c 0).val = (i 0).val := by
  unfold DotDims.lhsIdx
  rw [dif_neg (show ¬(0 : Fin S512x4096.rank) ∈ dot_S512x4096_S4096x120_S512x120_1_0_0_1_n_n.lhsBatch by decide), dif_pos (show (0 : Fin S512x4096.rank) ∈ dot_S512x4096_S4096x120_S512x120_1_0_0_1_n_n.lhsNonContracting by decide)]
  rfl
theorem lhs1_ah (i : S512x120.Idx) (c : dot_S512x4096_S4096x120_S512x120_1_0_0_1_n_n.contr.Idx) : (dot_S512x4096_S4096x120_S512x120_1_0_0_1_n_n.lhsIdx i c 1).val = (c ⟨0, by decide⟩).val :=
  dot_S512x4096_S4096x120_S512x120_1_0_0_1_n_n.lhsIdx_val_of_single rfl i c
theorem rhs0_ah (i : S512x120.Idx) (c : dot_S512x4096_S4096x120_S512x120_1_0_0_1_n_n.contr.Idx) : (dot_S512x4096_S4096x120_S512x120_1_0_0_1_n_n.rhsIdx i c 0).val = (c ⟨0, by decide⟩).val :=
  dot_S512x4096_S4096x120_S512x120_1_0_0_1_n_n.rhsIdx_val_of_single rfl i c
theorem rhs1_ah (i : S512x120.Idx) (c : dot_S512x4096_S4096x120_S512x120_1_0_0_1_n_n.contr.Idx) : (dot_S512x4096_S4096x120_S512x120_1_0_0_1_n_n.rhsIdx i c 1).val = (i 1).val := by
  unfold DotDims.rhsIdx
  rw [dif_neg (show ¬(1 : Fin S4096x120.rank) ∈ dot_S512x4096_S4096x120_S512x120_1_0_0_1_n_n.rhsBatch by decide), dif_pos (show (1 : Fin S4096x120.rank) ∈ dot_S512x4096_S4096x120_S512x120_1_0_0_1_n_n.rhsNonContracting by decide)]
  rfl
theorem lhs_ah (p : Fin 512) (q : Fin 120) (k : Fin 4096) :
    dot_S512x4096_S4096x120_S512x120_1_0_0_1_n_n.lhsIdx (ix2 p q) ((contrEquiv1 dot_S512x4096_S4096x120_S512x120_1_0_0_1_n_n 4096 rfl rfl).symm k) = ix2 p k := by
  have hk := contrEquiv1_symm_val dot_S512x4096_S4096x120_S512x120_1_0_0_1_n_n 4096 rfl rfl k
  funext a; apply Fin.ext
  match a with
  | ⟨0, _⟩ => exact lhs0_ah _ _
  | ⟨1, _⟩ => exact (lhs1_ah _ _).trans hk
theorem rhs_ah (p : Fin 512) (q : Fin 120) (k : Fin 4096) :
    dot_S512x4096_S4096x120_S512x120_1_0_0_1_n_n.rhsIdx (ix2 p q) ((contrEquiv1 dot_S512x4096_S4096x120_S512x120_1_0_0_1_n_n 4096 rfl rfl).symm k) = ix2 k q := by
  have hk := contrEquiv1_symm_val dot_S512x4096_S4096x120_S512x120_1_0_0_1_n_n 4096 rfl rfl k
  funext a; apply Fin.ext
  match a with
  | ⟨0, _⟩ => exact (rhs0_ah _ _).trans hk
  | ⟨1, _⟩ => exact rhs1_ah _ _

/-- This tile product (its operands narrowed to bf16, which changes nothing over the extended reals) is `mm`. -/
theorem mm_ah (X : FVec Ideal S512x4096 .f32) (W : FVec Ideal S4096x120 .f32) (h1 h2 : (FTy.bf16).bits < (FTy.f32).bits) :
    matmul dot_S512x4096_S4096x120_S512x120_1_0_0_1_n_n none (truncf .bf16 X h1) (truncf .bf16 W h2) (constant S512x120 .f32 0x00000000#32) = mm X W := by
  funext j
  obtain ⟨p, q, rfl⟩ : ∃ (p : Fin 512) (q : Fin 120), j = ix2 p q := ⟨_, _, eq_ix j⟩
  exact Cert.LibMatmul.matmul_zero_at dot_S512x4096_S4096x120_S512x120_1_0_0_1_n_n 4096 rfl rfl _ _ (ix2 p q) (fun k => ix2 p k) (fun k => ix2 k q) (lhs_ah p q) (rhs_ah p q)

/-- The dimension numbers of this product contract the left operand's second axis with the right operand's first:
    at output `(p, q)` and contraction coordinate `k` the factors sit at `(p, k)` and `(k, q)`. -/
theorem lhs0_rw (i : S512x20.Idx) (c : dot_S512x120_S120x20_S512x20_1_0_0_1_n_n.contr.Idx) : (dot_S512x120_S120x20_S512x20_1_0_0_1_n_n.lhsIdx i c 0).val = (i 0).val := by
  unfold DotDims.lhsIdx
  rw [dif_neg (show ¬(0 : Fin S512x120.rank) ∈ dot_S512x120_S120x20_S512x20_1_0_0_1_n_n.lhsBatch by decide), dif_pos (show (0 : Fin S512x120.rank) ∈ dot_S512x120_S120x20_S512x20_1_0_0_1_n_n.lhsNonContracting by decide)]
  rfl
theorem lhs1_rw (i : S512x20.Idx) (c : dot_S512x120_S120x20_S512x20_1_0_0_1_n_n.contr.Idx) : (dot_S512x120_S120x20_S512x20_1_0_0_1_n_n.lhsIdx i c 1).val = (c ⟨0, by decide⟩).val :=
  dot_S512x120_S120x20_S512x20_1_0_0_1_n_n.lhsIdx_val_of_single rfl i c
theorem rhs0_rw (i : S512x20.Idx) (c : dot_S512x120_S120x20_S512x20_1_0_0_1_n_n.contr.Idx) : (dot_S512x120_S120x20_S512x20_1_0_0_1_n_n.rhsIdx i c 0).val = (c ⟨0, by decide⟩).val :=
  dot_S512x120_S120x20_S512x20_1_0_0_1_n_n.rhsIdx_val_of_single rfl i c
theorem rhs1_rw (i : S512x20.Idx) (c : dot_S512x120_S120x20_S512x20_1_0_0_1_n_n.contr.Idx) : (dot_S512x120_S120x20_S512x20_1_0_0_1_n_n.rhsIdx i c 1).val = (i 1).val := by
  unfold DotDims.rhsIdx
  rw [dif_neg (show ¬(1 : Fin S120x20.rank) ∈ dot_S512x120_S120x20_S512x20_1_0_0_1_n_n.rhsBatch by decide), dif_pos (show (1 : Fin S120x20.rank) ∈ dot_S512x120_S120x20_S512x20_1_0_0_1_n_n.rhsNonContracting by decide)]
  rfl
theorem lhs_rw (p : Fin 512) (q : Fin 20) (k : Fin 120) :
    dot_S512x120_S120x20_S512x20_1_0_0_1_n_n.lhsIdx (ix2 p q) ((contrEquiv1 dot_S512x120_S120x20_S512x20_1_0_0_1_n_n 120 rfl rfl).symm k) = ix2 p k := by
  have hk := contrEquiv1_symm_val dot_S512x120_S120x20_S512x20_1_0_0_1_n_n 120 rfl rfl k
  funext a; apply Fin.ext
  match a with
  | ⟨0, _⟩ => exact lhs0_rw _ _
  | ⟨1, _⟩ => exact (lhs1_rw _ _).trans hk
theorem rhs_rw (p : Fin 512) (q : Fin 20) (k : Fin 120) :
    dot_S512x120_S120x20_S512x20_1_0_0_1_n_n.rhsIdx (ix2 p q) ((contrEquiv1 dot_S512x120_S120x20_S512x20_1_0_0_1_n_n 120 rfl rfl).symm k) = ix2 k q := by
  have hk := contrEquiv1_symm_val dot_S512x120_S120x20_S512x20_1_0_0_1_n_n 120 rfl rfl k
  funext a; apply Fin.ext
  match a with
  | ⟨0, _⟩ => exact (rhs0_rw _ _).trans hk
  | ⟨1, _⟩ => exact rhs1_rw _ _

/-- This tile product (its operands narrowed to bf16, which changes nothing over the extended reals) is `mm`. -/
theorem mm_rw (X : FVec Ideal S512x120 .f32) (W : FVec Ideal S120x20 .f32) (h1 h2 : (FTy.bf16).bits < (FTy.f32).bits) :
    matmul dot_S512x120_S120x20_S512x20_1_0_0_1_n_n none (truncf .bf16 X h1) (truncf .bf16 W h2) (constant S512x20 .f32 0x00000000#32) = mm X W := by
  funext j
  obtain ⟨p, q, rfl⟩ : ∃ (p : Fin 512) (q : Fin 20), j = ix2 p q := ⟨_, _, eq_ix j⟩
  exact Cert.LibMatmul.matmul_zero_at dot_S512x120_S120x20_S512x20_1_0_0_1_n_n 120 rfl rfl _ _ (ix2 p q) (fun k => ix2 p k) (fun k => ix2 k q) (lhs_rw p q) (rhs_rw p q)

/-- The dimension numbers of this product contract the left operand's second axis with the right operand's first:
    at output `(p, q)` and contraction coordinate `k` the factors sit at `(p, k)` and `(k, q)`. -/
theorem lhs0_zd (i : S512x64.Idx) (c : dot_S512x20_S20x64_S512x64_1_0_0_1_n_n.contr.Idx) : (dot_S512x20_S20x64_S512x64_1_0_0_1_n_n.lhsIdx i c 0).val = (i 0).val := by
  unfold DotDims.lhsIdx
  rw [dif_neg (show ¬(0 : Fin S512x20.rank) ∈ dot_S512x20_S20x64_S512x64_1_0_0_1_n_n.lhsBatch by decide), dif_pos (show (0 : Fin S512x20.rank) ∈ dot_S512x20_S20x64_S512x64_1_0_0_1_n_n.lhsNonContracting by decide)]
  rfl
theorem lhs1_zd (i : S512x64.Idx) (c : dot_S512x20_S20x64_S512x64_1_0_0_1_n_n.contr.Idx) : (dot_S512x20_S20x64_S512x64_1_0_0_1_n_n.lhsIdx i c 1).val = (c ⟨0, by decide⟩).val :=
  dot_S512x20_S20x64_S512x64_1_0_0_1_n_n.lhsIdx_val_of_single rfl i c
theorem rhs0_zd (i : S512x64.Idx) (c : dot_S512x20_S20x64_S512x64_1_0_0_1_n_n.contr.Idx) : (dot_S512x20_S20x64_S512x64_1_0_0_1_n_n.rhsIdx i c 0).val = (c ⟨0, by decide⟩).val :=
  dot_S512x20_S20x64_S512x64_1_0_0_1_n_n.rhsIdx_val_of_single rfl i c
theorem rhs1_zd (i : S512x64.Idx) (c : dot_S512x20_S20x64_S512x64_1_0_0_1_n_n.contr.Idx) : (dot_S512x20_S20x64_S512x64_1_0_0_1_n_n.rhsIdx i c 1).val = (i 1).val := by
  unfold DotDims.rhsIdx
  rw [dif_neg (show ¬(1 : Fin S20x64.rank) ∈ dot_S512x20_S20x64_S512x64_1_0_0_1_n_n.rhsBatch by decide), dif_pos (show (1 : Fin S20x64.rank) ∈ dot_S512x20_S20x64_S512x64_1_0_0_1_n_n.rhsNonContracting by decide)]
  rfl
theorem lhs_zd (p : Fin 512) (q : Fin 64) (k : Fin 20) :
    dot_S512x20_S20x64_S512x64_1_0_0_1_n_n.lhsIdx (ix2 p q) ((contrEquiv1 dot_S512x20_S20x64_S512x64_1_0_0_1_n_n 20 rfl rfl).symm k) = ix2 p k := by
  have hk := contrEquiv1_symm_val dot_S512x20_S20x64_S512x64_1_0_0_1_n_n 20 rfl rfl k
  funext a; apply Fin.ext
  match a with
  | ⟨0, _⟩ => exact lhs0_zd _ _
  | ⟨1, _⟩ => exact (lhs1_zd _ _).trans hk
theorem rhs_zd (p : Fin 512) (q : Fin 64) (k : Fin 20) :
    dot_S512x20_S20x64_S512x64_1_0_0_1_n_n.rhsIdx (ix2 p q) ((contrEquiv1 dot_S512x20_S20x64_S512x64_1_0_0_1_n_n 20 rfl rfl).symm k) = ix2 k q := by
  have hk := contrEquiv1_symm_val dot_S512x20_S20x64_S512x64_1_0_0_1_n_n 20 rfl rfl k
  funext a; apply Fin.ext
  match a with
  | ⟨0, _⟩ => exact (rhs0_zd _ _).trans hk
  | ⟨1, _⟩ => exact rhs1_zd _ _

/-- This tile product (its operands narrowed to bf16, which changes nothing over the extended reals) is `mm`. -/
theorem mm_zd (X : FVec Ideal S512x20 .f32) (W : FVec Ideal S20x64 .f32) (h1 h2 : (FTy.bf16).bits < (FTy.f32).bits) :
    matmul dot_S512x20_S20x64_S512x64_1_0_0_1_n_n none (truncf .bf16 X h1) (truncf .bf16 W h2) (constant S512x64 .f32 0x00000000#32) = mm X W := by
  funext j
  obtain ⟨p, q, rfl⟩ : ∃ (p : Fin 512) (q : Fin 64), j = ix2 p q := ⟨_, _, eq_ix j⟩
  exact Cert.LibMatmul.matmul_zero_at dot_S512x20_S20x64_S512x64_1_0_0_1_n_n 20 rfl rfl _ _ (ix2 p q) (fun k => ix2 p k) (fun k => ix2 k q) (lhs_zd p q) (rhs_zd p q)

/-- The dimension numbers of this product contract the left operand's second axis with the right operand's first:
    at output `(p, q)` and contraction coordinate `k` the factors sit at `(p, k)` and `(k, q)`. -/
theorem lhs0_hb (i : S512x64.Idx) (c : dot_S512x64_S64x64_S512x64_1_0_0_1_n_n.contr.Idx) : (dot_S512x64_S64x64_S512x64_1_0_0_1_n_n.lhsIdx i c 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs1_hb (i : S512x64.Idx) (c : dot_S512x64_S64x64_S512x64_1_0_0_1_n_n.contr.Idx) : (dot_S512x64_S64x64_S512x64_1_0_0_1_n_n.lhsIdx i c 1).val = (c ⟨0, by decide⟩).val :=
  dot_S512x64_S64x64_S512x64_1_0_0_1_n_n.lhsIdx_val_of_single rfl i c
theorem rhs0_hb (i : S512x64.Idx) (c : dot_S512x64_S64x64_S512x64_1_0_0_1_n_n.contr.Idx) : (dot_S512x64_S64x64_S512x64_1_0_0_1_n_n.rhsIdx i c 0).val = (c ⟨0, by decide⟩).val :=
  dot_S512x64_S64x64_S512x64_1_0_0_1_n_n.rhsIdx_val_of_single rfl i c
theorem rhs1_hb (i : S512x64.Idx) (c : dot_S512x64_S64x64_S512x64_1_0_0_1_n_n.contr.Idx) : (dot_S512x64_S64x64_S512x64_1_0_0_1_n_n.rhsIdx i c 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl
theorem lhs_hb (p : Fin 512) (q : Fin 64) (k : Fin 64) :
    dot_S512x64_S64x64_S512x64_1_0_0_1_n_n.lhsIdx (ix2 p q) ((contrEquiv1 dot_S512x64_S64x64_S512x64_1_0_0_1_n_n 64 rfl rfl).symm k) = ix2 p k := by
  have hk := contrEquiv1_symm_val dot_S512x64_S64x64_S512x64_1_0_0_1_n_n 64 rfl rfl k
  funext a; apply Fin.ext
  match a with
  | ⟨0, _⟩ => exact lhs0_hb _ _
  | ⟨1, _⟩ => exact (lhs1_hb _ _).trans hk
theorem rhs_hb (p : Fin 512) (q : Fin 64) (k : Fin 64) :
    dot_S512x64_S64x64_S512x64_1_0_0_1_n_n.rhsIdx (ix2 p q) ((contrEquiv1 dot_S512x64_S64x64_S512x64_1_0_0_1_n_n 64 rfl rfl).symm k) = ix2 k q := by
  have hk := contrEquiv1_symm_val dot_S512x64_S64x64_S512x64_1_0_0_1_n_n 64 rfl rfl k
  funext a; apply Fin.ext
  match a with
  | ⟨0, _⟩ => exact (rhs0_hb _ _).trans hk
  | ⟨1, _⟩ => exact rhs1_hb _ _

/-- This tile product (its operands narrowed to bf16, which changes nothing over the extended reals) is `mm`. -/
theorem mm_hb (X : FVec Ideal S512x64 .f32) (W : FVec Ideal S64x64 .f32) (h1 h2 : (FTy.bf16).bits < (FTy.f32).bits) :
    matmul dot_S512x64_S64x64_S512x64_1_0_0_1_n_n none (truncf .bf16 X h1) (truncf .bf16 W h2) (constant S512x64 .f32 0x00000000#32) = mm X W := by
  funext j
  obtain ⟨p, q, rfl⟩ : ∃ (p : Fin 512) (q : Fin 64), j = ix2 p q := ⟨_, _, eq_ix j⟩
  exact Cert.LibMatmul.matmul_zero_at dot_S512x64_S64x64_S512x64_1_0_0_1_n_n 64 rfl rfl _ _ (ix2 p q) (fun k => ix2 p k) (fun k => ix2 k q) (lhs_hb p q) (rhs_hb p q)

/-- The dimension numbers of this product contract the left operand's second axis with the right operand's first:
    at output `(p, q)` and contraction coordinate `k` the factors sit at `(p, k)` and `(k, q)`. -/
theorem lhs0_l2 (i : S512x256.Idx) (c : dot_S512x64_S64x256_S512x256_1_0_0_1_n_n.contr.Idx) : (dot_S512x64_S64x256_S512x256_1_0_0_1_n_n.lhsIdx i c 0).val = (i 0).val := by
  unfold DotDims.lhsIdx
  rw [dif_neg (show ¬(0 : Fin S512x64.rank) ∈ dot_S512x64_S64x256_S512x256_1_0_0_1_n_n.lhsBatch by decide), dif_pos (show (0 : Fin S512x64.rank) ∈ dot_S512x64_S64x256_S512x256_1_0_0_1_n_n.lhsNonContracting by decide)]
  rfl
theorem lhs1_l2 (i : S512x256.Idx) (c : dot_S512x64_S64x256_S512x256_1_0_0_1_n_n.contr.Idx) : (dot_S512x64_S64x256_S512x256_1_0_0_1_n_n.lhsIdx i c 1).val = (c ⟨0, by decide⟩).val :=
  dot_S512x64_S64x256_S512x256_1_0_0_1_n_n.lhsIdx_val_of_single rfl i c
theorem rhs0_l2 (i : S512x256.Idx) (c : dot_S512x64_S64x256_S512x256_1_0_0_1_n_n.contr.Idx) : (dot_S512x64_S64x256_S512x256_1_0_0_1_n_n.rhsIdx i c 0).val = (c ⟨0, by decide⟩).val :=
  dot_S512x64_S64x256_S512x256_1_0_0_1_n_n.rhsIdx_val_of_single rfl i c
theorem rhs1_l2 (i : S512x256.Idx) (c : dot_S512x64_S64x256_S512x256_1_0_0_1_n_n.contr.Idx) : (dot_S512x64_S64x256_S512x256_1_0_0_1_n_n.rhsIdx i c 1).val = (i 1).val := by
  unfold DotDims.rhsIdx
  rw [dif_neg (show ¬(1 : Fin S64x256.rank) ∈ dot_S512x64_S64x256_S512x256_1_0_0_1_n_n.rhsBatch by decide), dif_pos (show (1 : Fin S64x256.rank) ∈ dot_S512x64_S64x256_S512x256_1_0_0_1_n_n.rhsNonContracting by decide)]
  rfl
theorem lhs_l2 (p : Fin 512) (q : Fin 256) (k : Fin 64) :
    dot_S512x64_S64x256_S512x256_1_0_0_1_n_n.lhsIdx (ix2 p q) ((contrEquiv1 dot_S512x64_S64x256_S512x256_1_0_0_1_n_n 64 rfl rfl).symm k) = ix2 p k := by
  have hk := contrEquiv1_symm_val dot_S512x64_S64x256_S512x256_1_0_0_1_n_n 64 rfl rfl k
  funext a; apply Fin.ext
  match a with
  | ⟨0, _⟩ => exact lhs0_l2 _ _
  | ⟨1, _⟩ => exact (lhs1_l2 _ _).trans hk
theorem rhs_l2 (p : Fin 512) (q : Fin 256) (k : Fin 64) :
    dot_S512x64_S64x256_S512x256_1_0_0_1_n_n.rhsIdx (ix2 p q) ((contrEquiv1 dot_S512x64_S64x256_S512x256_1_0_0_1_n_n 64 rfl rfl).symm k) = ix2 k q := by
  have hk := contrEquiv1_symm_val dot_S512x64_S64x256_S512x256_1_0_0_1_n_n 64 rfl rfl k
  funext a; apply Fin.ext
  match a with
  | ⟨0, _⟩ => exact (rhs0_l2 _ _).trans hk
  | ⟨1, _⟩ => exact rhs1_l2 _ _

/-- This tile product (its operands narrowed to bf16, which changes nothing over the extended reals) is `mm`. -/
theorem mm_l2 (X : FVec Ideal S512x64 .f32) (W : FVec Ideal S64x256 .f32) (h1 h2 : (FTy.bf16).bits < (FTy.f32).bits) :
    matmul dot_S512x64_S64x256_S512x256_1_0_0_1_n_n none (truncf .bf16 X h1) (truncf .bf16 W h2) (constant S512x256 .f32 0x00000000#32) = mm X W := by
  funext j
  obtain ⟨p, q, rfl⟩ : ∃ (p : Fin 512) (q : Fin 256), j = ix2 p q := ⟨_, _, eq_ix j⟩
  exact Cert.LibMatmul.matmul_zero_at dot_S512x64_S64x256_S512x256_1_0_0_1_n_n 64 rfl rfl _ _ (ix2 p q) (fun k => ix2 p k) (fun k => ix2 k q) (lhs_l2 p q) (rhs_l2 p q)

/-- The dimension numbers of this product contract the left operand's second axis with the right operand's first:
    at output `(p, q)` and contraction coordinate `k` the factors sit at `(p, k)` and `(k, q)`. -/
theorem lhs0_l3 (i : S512x512.Idx) (c : dot_S512x256_S256x512_S512x512_1_0_0_1_n_n.contr.Idx) : (dot_S512x256_S256x512_S512x512_1_0_0_1_n_n.lhsIdx i c 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs1_l3 (i : S512x512.Idx) (c : dot_S512x256_S256x512_S512x512_1_0_0_1_n_n.contr.Idx) : (dot_S512x256_S256x512_S512x512_1_0_0_1_n_n.lhsIdx i c 1).val = (c ⟨0, by decide⟩).val :=
  dot_S512x256_S256x512_S512x512_1_0_0_1_n_n.lhsIdx_val_of_single rfl i c
theorem rhs0_l3 (i : S512x512.Idx) (c : dot_S512x256_S256x512_S512x512_1_0_0_1_n_n.contr.Idx) : (dot_S512x256_S256x512_S512x512_1_0_0_1_n_n.rhsIdx i c 0).val = (c ⟨0, by decide⟩).val :=
  dot_S512x256_S256x512_S512x512_1_0_0_1_n_n.rhsIdx_val_of_single rfl i c
theorem rhs1_l3 (i : S512x512.Idx) (c : dot_S512x256_S256x512_S512x512_1_0_0_1_n_n.contr.Idx) : (dot_S512x256_S256x512_S512x512_1_0_0_1_n_n.rhsIdx i c 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl
theorem lhs_l3 (p : Fin 512) (q : Fin 512) (k : Fin 256) :
    dot_S512x256_S256x512_S512x512_1_0_0_1_n_n.lhsIdx (ix2 p q) ((contrEquiv1 dot_S512x256_S256x512_S512x512_1_0_0_1_n_n 256 rfl rfl).symm k) = ix2 p k := by
  have hk := contrEquiv1_symm_val dot_S512x256_S256x512_S512x512_1_0_0_1_n_n 256 rfl rfl k
  funext a; apply Fin.ext
  match a with
  | ⟨0, _⟩ => exact lhs0_l3 _ _
  | ⟨1, _⟩ => exact (lhs1_l3 _ _).trans hk
theorem rhs_l3 (p : Fin 512) (q : Fin 512) (k : Fin 256) :
    dot_S512x256_S256x512_S512x512_1_0_0_1_n_n.rhsIdx (ix2 p q) ((contrEquiv1 dot_S512x256_S256x512_S512x512_1_0_0_1_n_n 256 rfl rfl).symm k) = ix2 k q := by
  have hk := contrEquiv1_symm_val dot_S512x256_S256x512_S512x512_1_0_0_1_n_n 256 rfl rfl k
  funext a; apply Fin.ext
  match a with
  | ⟨0, _⟩ => exact (rhs0_l3 _ _).trans hk
  | ⟨1, _⟩ => exact rhs1_l3 _ _

/-- This tile product (its operands narrowed to bf16, which changes nothing over the extended reals) is `mm`. -/
theorem mm_l3 (X : FVec Ideal S512x256 .f32) (W : FVec Ideal S256x512 .f32) (h1 h2 : (FTy.bf16).bits < (FTy.f32).bits) :
    matmul dot_S512x256_S256x512_S512x512_1_0_0_1_n_n none (truncf .bf16 X h1) (truncf .bf16 W h2) (constant S512x512 .f32 0x00000000#32) = mm X W := by
  funext j
  obtain ⟨p, q, rfl⟩ : ∃ (p : Fin 512) (q : Fin 512), j = ix2 p q := ⟨_, _, eq_ix j⟩
  exact Cert.LibMatmul.matmul_zero_at dot_S512x256_S256x512_S512x512_1_0_0_1_n_n 256 rfl rfl _ _ (ix2 p q) (fun k => ix2 p k) (fun k => ix2 k q) (lhs_l3 p q) (rhs_l3 p q)

/-- The dimension numbers of this product contract the left operand's second axis with the right operand's first:
    at output `(p, q)` and contraction coordinate `k` the factors sit at `(p, k)` and `(k, q)`. -/
theorem lhs0_l4 (i : S512x2000.Idx) (c : dot_S512x512_S512x2000_S512x2000_1_0_0_1_n_n.contr.Idx) : (dot_S512x512_S512x2000_S512x2000_1_0_0_1_n_n.lhsIdx i c 0).val = (i 0).val := by
  unfold DotDims.lhsIdx
  rw [dif_neg (show ¬(0 : Fin S512x512.rank) ∈ dot_S512x512_S512x2000_S512x2000_1_0_0_1_n_n.lhsBatch by decide), dif_pos (show (0 : Fin S512x512.rank) ∈ dot_S512x512_S512x2000_S512x2000_1_0_0_1_n_n.lhsNonContracting by decide)]
  rfl
theorem lhs1_l4 (i : S512x2000.Idx) (c : dot_S512x512_S512x2000_S512x2000_1_0_0_1_n_n.contr.Idx) : (dot_S512x512_S512x2000_S512x2000_1_0_0_1_n_n.lhsIdx i c 1).val = (c ⟨0, by decide⟩).val :=
  dot_S512x512_S512x2000_S512x2000_1_0_0_1_n_n.lhsIdx_val_of_single rfl i c
theorem rhs0_l4 (i : S512x2000.Idx) (c : dot_S512x512_S512x2000_S512x2000_1_0_0_1_n_n.contr.Idx) : (dot_S512x512_S512x2000_S512x2000_1_0_0_1_n_n.rhsIdx i c 0).val = (c ⟨0, by decide⟩).val :=
  dot_S512x512_S512x2000_S512x2000_1_0_0_1_n_n.rhsIdx_val_of_single rfl i c
theorem rhs1_l4 (i : S512x2000.Idx) (c : dot_S512x512_S512x2000_S512x2000_1_0_0_1_n_n.contr.Idx) : (dot_S512x512_S512x2000_S512x2000_1_0_0_1_n_n.rhsIdx i c 1).val = (i 1).val := by
  unfold DotDims.rhsIdx
  rw [dif_neg (show ¬(1 : Fin S512x2000.rank) ∈ dot_S512x512_S512x2000_S512x2000_1_0_0_1_n_n.rhsBatch by decide), dif_pos (show (1 : Fin S512x2000.rank) ∈ dot_S512x512_S512x2000_S512x2000_1_0_0_1_n_n.rhsNonContracting by decide)]
  rfl
theorem lhs_l4 (p : Fin 512) (q : Fin 2000) (k : Fin 512) :
    dot_S512x512_S512x2000_S512x2000_1_0_0_1_n_n.lhsIdx (ix2 p q) ((contrEquiv1 dot_S512x512_S512x2000_S512x2000_1_0_0_1_n_n 512 rfl rfl).symm k) = ix2 p k := by
  have hk := contrEquiv1_symm_val dot_S512x512_S512x2000_S512x2000_1_0_0_1_n_n 512 rfl rfl k
  funext a; apply Fin.ext
  match a with
  | ⟨0, _⟩ => exact lhs0_l4 _ _
  | ⟨1, _⟩ => exact (lhs1_l4 _ _).trans hk
theorem rhs_l4 (p : Fin 512) (q : Fin 2000) (k : Fin 512) :
    dot_S512x512_S512x2000_S512x2000_1_0_0_1_n_n.rhsIdx (ix2 p q) ((contrEquiv1 dot_S512x512_S512x2000_S512x2000_1_0_0_1_n_n 512 rfl rfl).symm k) = ix2 k q := by
  have hk := contrEquiv1_symm_val dot_S512x512_S512x2000_S512x2000_1_0_0_1_n_n 512 rfl rfl k
  funext a; apply Fin.ext
  match a with
  | ⟨0, _⟩ => exact (rhs0_l4 _ _).trans hk
  | ⟨1, _⟩ => exact rhs1_l4 _ _

/-- This tile product (its operands narrowed to bf16, which changes nothing over the extended reals) is `mm`. -/
theorem mm_l4 (X : FVec Ideal S512x512 .f32) (W : FVec Ideal S512x2000 .f32) (h1 h2 : (FTy.bf16).bits < (FTy.f32).bits) :
    matmul dot_S512x512_S512x2000_S512x2000_1_0_0_1_n_n none (truncf .bf16 X h1) (truncf .bf16 W h2) (constant S512x2000 .f32 0x00000000#32) = mm X W := by
  funext j
  obtain ⟨p, q, rfl⟩ : ∃ (p : Fin 512) (q : Fin 2000), j = ix2 p q := ⟨_, _, eq_ix j⟩
  exact Cert.LibMatmul.matmul_zero_at dot_S512x512_S512x2000_S512x2000_1_0_0_1_n_n 512 rfl rfl _ _ (ix2 p q) (fun k => ix2 p k) (fun k => ix2 k q) (lhs_l4 p q) (rhs_l4 p q)

/-- The latent block: `(a·h)·w2 + b2`. -/
theorem pay1_spec (v0 : Vec Ideal S512x4096 .f32) (v1 : Vec Ideal S4096x120 .f32) (v6 : Vec Ideal S120x20 .f32) (v10 : Vec Ideal S1x20 .f32) :
    k2_pay1 v0 v1 v6 v10 = addRow (mm (mm v0 v1) v6) v10 := by
  unfold k2_pay1
  rw [shapeCast_self, shapeCast_self]
  dsimp only
  rw [mm_ah, mm_rw, Cert.LibPay.addf_broadcastTo_row]

/-- The first decoder factor's block: `z·wd + bd`. -/
theorem pay2_spec (v0 : Vec Ideal S512x4096 .f32) (v1 : Vec Ideal S4096x120 .f32) (v6 : Vec Ideal S120x20 .f32) (v10 : Vec Ideal S1x20 .f32)
    (v15 : Vec Ideal S20x64 .f32) (v19 : Vec Ideal S1x64 .f32) :
    k2_pay2 v0 v1 v6 v10 v15 v19 = lin (addRow (mm (mm v0 v1) v6) v10) v15 v19 := by
  unfold k2_pay2
  rw [pay1_spec, shapeCast_self]
  dsimp only
  rw [mm_zd, Cert.LibPay.addf_broadcastTo_row]
  rfl

/-- The second decoder factor's block: `hd·wb`. -/
theorem pay3_spec (v0 : Vec Ideal S512x4096 .f32) (v1 : Vec Ideal S4096x120 .f32) (v6 : Vec Ideal S120x20 .f32) (v10 : Vec Ideal S1x20 .f32)
    (v15 : Vec Ideal S20x64 .f32) (v19 : Vec Ideal S1x64 .f32) (v24 : Vec Ideal S64x64 .f32) :
    k2_pay3 v0 v1 v6 v10 v15 v19 v24 = mm (lin (addRow (mm (mm v0 v1) v6) v10) v15 v19) v24 := by
  unfold k2_pay3
  rw [pay2_spec]
  dsimp only
  exact mm_hb _ _ _ _

/-- The perceptron's block on a latent block `z`: three `relu` layers and a last affine layer. -/
theorem pay4_spec (v13 : FVec Ideal S512x20 .f32) (v29 : Vec Ideal S20x64 .f32) (v33 : Vec Ideal S1x64 .f32) (v39 : Vec Ideal S64x256 .f32)
    (v43 : Vec Ideal S1x256 .f32) (v49 : Vec Ideal S256x512 .f32) (v53 : Vec Ideal S1x512 .f32) (v59 : Vec Ideal S512x2000 .f32) (v63 : Vec Ideal S1x2000 .f32) :
    k2_pay4 v13 v29 v33 v39 v43 v49 v53 v59 v63
      = lin (relu (lin (relu (lin (relu (lin v13 v29 v33)) v39 v43)) v49 v53)) v59 v63 := by
  unfold k2_pay4
  rw [shapeCast_self, shapeCast_self, shapeCast_self, shapeCast_self]
  dsimp only
  rw [mm_zd, mm_l2, mm_l3, mm_l4, Cert.LibPay.addf_broadcastTo_row, Cert.LibPay.addf_broadcastTo_row, Cert.LibPay.addf_broadcastTo_row, Cert.LibPay.addf_broadcastTo_row]
  rfl

/-- The perceptron's block on the latent block the same grid point computes. -/
theorem pay18_spec (v0 : Vec Ideal S512x4096 .f32) (v1 : Vec Ideal S4096x120 .f32) (v6 : Vec Ideal S120x20 .f32) (v10 : Vec Ideal S1x20 .f32)
    (v29 : Vec Ideal S20x64 .f32) (v33 : Vec Ideal S1x64 .f32) (v39 : Vec Ideal S64x256 .f32)
    (v43 : Vec Ideal S1x256 .f32) (v49 : Vec Ideal S256x512 .f32) (v53 : Vec Ideal S1x512 .f32) (v59 : Vec Ideal S512x2000 .f32) (v63 : Vec Ideal S1x2000 .f32) :
    k2_pay4 (k2_pay1 v0 v1 v6 v10) v29 v33 v39 v43 v49 v53 v59 v63
      = lin (relu (lin (relu (lin (relu (lin (addRow (mm (mm v0 v1) v6) v10) v29 v33)) v39 v43)) v49 v53)) v59 v63 := by
  rw [pay4_spec, pay1_spec]

variable (V : (c : Dev nD) → (b : Ref sig .tc) → Buf (Elt Ideal) ((c : Thread nD τ).loc b))

/-- The printed block index maps over the eight grid points: every row-blocked window moves with the first output's
    row block, every other block index is zero, and the row block stays below eight. -/
theorem idx_facts : ∀ t : Fin cfg2.N, win2_0.index t (0 : Fin 2) = win2_15.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = 0
    ∧ win2_15.index t (1 : Fin 2) = 0
    ∧ win2_16.index t (0 : Fin 2) = win2_15.index t (0 : Fin 2)
    ∧ win2_16.index t (1 : Fin 2) = 0
    ∧ win2_17.index t (0 : Fin 2) = win2_15.index t (0 : Fin 2)
    ∧ win2_17.index t (1 : Fin 2) = 0
    ∧ win2_18.index t (0 : Fin 2) = win2_15.index t (0 : Fin 2)
    ∧ win2_18.index t (1 : Fin 2) = 0
    ∧ win2_15.index t (0 : Fin 2) ≤ 7 :=
  (by decide +kernel : ∀ t : Fin grid2.N, _)

/-- Every row block of output window 15 is some grid point's. -/
theorem idx_onto15 : ∀ q0 : Fin 8, ∃ t : Fin cfg2.N, win2_15.index t = ![q0.val, 0] :=
  (by decide +kernel : ∀ q0 : Fin 8, ∃ t : Fin grid2.N, win2_15.index t = ![q0.val, 0])

/-- Every row block of output window 16 is some grid point's. -/
theorem idx_onto16 : ∀ q0 : Fin 8, ∃ t : Fin cfg2.N, win2_16.index t = ![q0.val, 0] :=
  (by decide +kernel : ∀ q0 : Fin 8, ∃ t : Fin grid2.N, win2_16.index t = ![q0.val, 0])

/-- Every row block of output window 17 is some grid point's. -/
theorem idx_onto17 : ∀ q0 : Fin 8, ∃ t : Fin cfg2.N, win2_17.index t = ![q0.val, 0] :=
  (by decide +kernel : ∀ q0 : Fin 8, ∃ t : Fin grid2.N, win2_17.index t = ![q0.val, 0])

/-- Every row block of output window 18 is some grid point's. -/
theorem idx_onto18 : ∀ q0 : Fin 8, ∃ t : Fin cfg2.N, win2_18.index t = ![q0.val, 0] :=
  (by decide +kernel : ∀ q0 : Fin 8, ∃ t : Fin grid2.N, win2_18.index t = ![q0.val, 0])

/-- Input window 0 moves with the output's row block: its block at grid point `t` is the band of 512 rows of its
    array that starts where the output's block starts. -/
theorem blk0 (c : Dev nD) (t : Fin cfg2.N) :
    Rows (win2_15.index t (0 : Fin 2) * 512) (iblk2 V c 0 t) (V c (Pipeline.arrRef spec2 0)) := by
  intro j i h0 h1
  have e := idx_facts t
  show V c (Pipeline.arrRef spec2 0) (((cfg2.win 0).blk t).view.emb j) = V c (Pipeline.arrRef spec2 0) i
  congr 1; funext a; apply Fin.ext
  match a with
  | ⟨0, _⟩ => show win2_0.index t (0 : Fin 2) * 512 + 1 * (j 0).val = (i 0).val; omega
  | ⟨1, _⟩ => show win2_0.index t (1 : Fin 2) * 4096 + 1 * (j 1).val = (i 1).val; omega

/-- Input window 1 is loaded whole: its block at every grid point is the array itself. -/
theorem blk1 (c : Dev nD) (t : Fin cfg2.N) (y : S4096x120.Idx) : iblk2 V c 1 t y = V c (Pipeline.arrRef spec2 1) y := by
  have e := idx_facts t
  show V c (Pipeline.arrRef spec2 1) (((cfg2.win 1).blk t).view.emb y) = V c (Pipeline.arrRef spec2 1) y
  congr 1; funext a; apply Fin.ext
  match a with
  | ⟨0, _⟩ => show win2_1.index t (0 : Fin 2) * 4096 + 1 * (y 0).val = (y 0).val; omega
  | ⟨1, _⟩ => show win2_1.index t (1 : Fin 2) * 120 + 1 * (y 1).val = (y 1).val; omega

/-- Input window 2 is loaded whole: its block at every grid point is the array itself. -/
theorem blk2 (c : Dev nD) (t : Fin cfg2.N) (y : S120x20.Idx) : iblk2 V c 2 t y = V c (Pipeline.arrRef spec2 2) y := by
  have e := idx_facts t
  show V c (Pipeline.arrRef spec2 2) (((cfg2.win 2).blk t).view.emb y) = V c (Pipeline.arrRef spec2 2) y
  congr 1; funext a; apply Fin.ext
  match a with
  | ⟨0, _⟩ => show win2_2.index t (0 : Fin 2) * 120 + 1 * (y 0).val = (y 0).val; omega
  | ⟨1, _⟩ => show win2_2.index t (1 : Fin 2) * 20 + 1 * (y 1).val = (y 1).val; omega

/-- Input window 3 is loaded whole: its block at every grid point is the array itself. -/
theorem blk3 (c : Dev nD) (t : Fin cfg2.N) (y : S1x20.Idx) : iblk2 V c 3 t y = V c (Pipeline.arrRef spec2 3) y := by
  have e := idx_facts t
  show V c (Pipeline.arrRef spec2 3) (((cfg2.win 3).blk t).view.emb y) = V c (Pipeline.arrRef spec2 3) y
  congr 1; funext a; apply Fin.ext
  match a with
  | ⟨0, _⟩ => show win2_3.index t (0 : Fin 2) * 1 + 1 * (y 0).val = (y 0).val; omega
  | ⟨1, _⟩ => show win2_3.index t (1 : Fin 2) * 20 + 1 * (y 1).val = (y 1).val; omega

/-- Input window 4 is loaded whole: its block at every grid point is the array itself. -/
theorem blk4 (c : Dev nD) (t : Fin cfg2.N) (y : S20x64.Idx) : iblk2 V c 4 t y = V c (Pipeline.arrRef spec2 4) y := by
  have e := idx_facts t
  show V c (Pipeline.arrRef spec2 4) (((cfg2.win 4).blk t).view.emb y) = V c (Pipeline.arrRef spec2 4) y
  congr 1; funext a; apply Fin.ext
  match a with
  | ⟨0, _⟩ => show win2_4.index t (0 : Fin 2) * 20 + 1 * (y 0).val = (y 0).val; omega
  | ⟨1, _⟩ => show win2_4.index t (1 : Fin 2) * 64 + 1 * (y 1).val = (y 1).val; omega

/-- Input window 5 is loaded whole: its block at every grid point is the array itself. -/
theorem blk5 (c : Dev nD) (t : Fin cfg2.N) (y : S1x64.Idx) : iblk2 V c 5 t y = V c (Pipeline.arrRef spec2 5) y := by
  have e := idx_facts t
  show V c (Pipeline.arrRef spec2 5) (((cfg2.win 5).blk t).view.emb y) = V c (Pipeline.arrRef spec2 5) y
  congr 1; funext a; apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- Input window 6 is loaded whole: its block at every grid point is the array itself. -/
theorem blk6 (c : Dev nD) (t : Fin cfg2.N) (y : S64x64.Idx) : iblk2 V c 6 t y = V c (Pipeline.arrRef spec2 6) y := by
  have e := idx_facts t
  show V c (Pipeline.arrRef spec2 6) (((cfg2.win 6).blk t).view.emb y) = V c (Pipeline.arrRef spec2 6) y
  congr 1; funext a; apply Fin.ext
  match a with
  | ⟨0, _⟩ => show win2_6.index t (0 : Fin 2) * 64 + 1 * (y 0).val = (y 0).val; omega
  | ⟨1, _⟩ => show win2_6.index t (1 : Fin 2) * 64 + 1 * (y 1).val = (y 1).val; omega

/-- Input window 7 is loaded whole: its block at every grid point is the array itself. -/
theorem blk7 (c : Dev nD) (t : Fin cfg2.N) (y : S20x64.Idx) : iblk2 V c 7 t y = V c (Pipeline.arrRef spec2 7) y := by
  have e := idx_facts t
  show V c (Pipeline.arrRef spec2 7) (((cfg2.win 7).blk t).view.emb y) = V c (Pipeline.arrRef spec2 7) y
  congr 1; funext a; apply Fin.ext
  match a with
  | ⟨0, _⟩ => show win2_7.index t (0 : Fin 2) * 20 + 1 * (y 0).val = (y 0).val; omega
  | ⟨1, _⟩ => show win2_7.index t (1 : Fin 2) * 64 + 1 * (y 1).val = (y 1).val; omega

/-- Input window 8 is loaded whole: its block at every grid point is the array itself. -/
theorem blk8 (c : Dev nD) (t : Fin cfg2.N) (y : S1x64.Idx) : iblk2 V c 8 t y = V c (Pipeline.arrRef spec2 8) y := by
  have e := idx_facts t
  show V c (Pipeline.arrRef spec2 8) (((cfg2.win 8).blk t).view.emb y) = V c (Pipeline.arrRef spec2 8) y
  congr 1; funext a; apply Fin.ext
  match a with
  | ⟨0, _⟩ => show win2_8.index t (0 : Fin 2) * 1 + 1 * (y 0).val = (y 0).val; omega
  | ⟨1, _⟩ => show win2_8.index t (1 : Fin 2) * 64 + 1 * (y 1).val = (y 1).val; omega

/-- Input window 9 is loaded whole: its block at every grid point is the array itself. -/
theorem blk9 (c : Dev nD) (t : Fin cfg2.N) (y : S64x256.Idx) : iblk2 V c 9 t y = V c (Pipeline.arrRef spec2 9) y := by
  have e := idx_facts t
  show V c (Pipeline.arrRef spec2 9) (((cfg2.win 9).blk t).view.emb y) = V c (Pipeline.arrRef spec2 9) y
  congr 1; funext a; apply Fin.ext
  match a with
  | ⟨0, _⟩ => show win2_9.index t (0 : Fin 2) * 64 + 1 * (y 0).val = (y 0).val; omega
  | ⟨1, _⟩ => show win2_9.index t (1 : Fin 2) * 256 + 1 * (y 1).val = (y 1).val; omega

/-- Input window 10 is loaded whole: its block at every grid point is the array itself. -/
theorem blk10 (c : Dev nD) (t : Fin cfg2.N) (y : S1x256.Idx) : iblk2 V c 10 t y = V c (Pipeline.arrRef spec2 10) y := by
  have e := idx_facts t
  show V c (Pipeline.arrRef spec2 10) (((cfg2.win 10).blk t).view.emb y) = V c (Pipeline.arrRef spec2 10) y
  congr 1; funext a; apply Fin.ext
  match a with
  | ⟨0, _⟩ => show win2_10.index t (0 : Fin 2) * 1 + 1 * (y 0).val = (y 0).val; omega
  | ⟨1, _⟩ => show win2_10.index t (1 : Fin 2) * 256 + 1 * (y 1).val = (y 1).val; omega

/-- Input window 11 is loaded whole: its block at every grid point is the array itself. -/
theorem blk11 (c : Dev nD) (t : Fin cfg2.N) (y : S256x512.Idx) : iblk2 V c 11 t y = V c (Pipeline.arrRef spec2 11) y := by
  have e := idx_facts t
  show V c (Pipeline.arrRef spec2 11) (((cfg2.win 11).blk t).view.emb y) = V c (Pipeline.arrRef spec2 11) y
  congr 1; funext a; apply Fin.ext
  match a with
  | ⟨0, _⟩ => show win2_11.index t (0 : Fin 2) * 256 + 1 * (y 0).val = (y 0).val; omega
  | ⟨1, _⟩ => show win2_11.index t (1 : Fin 2) * 512 + 1 * (y 1).val = (y 1).val; omega

/-- Input window 12 is loaded whole: its block at every grid point is the array itself. -/
theorem blk12 (c : Dev nD) (t : Fin cfg2.N) (y : S1x512.Idx) : iblk2 V c 12 t y = V c (Pipeline.arrRef spec2 12) y := by
  have e := idx_facts t
  show V c (Pipeline.arrRef spec2 12) (((cfg2.win 12).blk t).view.emb y) = V c (Pipeline.arrRef spec2 12) y
  congr 1; funext a; apply Fin.ext
  match a with
  | ⟨0, _⟩ => show win2_12.index t (0 : Fin 2) * 1 + 1 * (y 0).val = (y 0).val; omega
  | ⟨1, _⟩ => show win2_12.index t (1 : Fin 2) * 512 + 1 * (y 1).val = (y 1).val; omega

/-- Input window 13 is loaded whole: its block at every grid point is the array itself. -/
theorem blk13 (c : Dev nD) (t : Fin cfg2.N) (y : S512x2000.Idx) : iblk2 V c 13 t y = V c (Pipeline.arrRef spec2 13) y := by
  have e := idx_facts t
  show V c (Pipeline.arrRef spec2 13) (((cfg2.win 13).blk t).view.emb y) = V c (Pipeline.arrRef spec2 13) y
  congr 1; funext a; apply Fin.ext
  match a with
  | ⟨0, _⟩ => show win2_13.index t (0 : Fin 2) * 512 + 1 * (y 0).val = (y 0).val; omega
  | ⟨1, _⟩ => show win2_13.index t (1 : Fin 2) * 2000 + 1 * (y 1).val = (y 1).val; omega

/-- Input window 14 is loaded whole: its block at every grid point is the array itself. -/
theorem blk14 (c : Dev nD) (t : Fin cfg2.N) (y : S1x2000.Idx) : iblk2 V c 14 t y = V c (Pipeline.arrRef spec2 14) y := by
  have e := idx_facts t
  show V c (Pipeline.arrRef spec2 14) (((cfg2.win 14).blk t).view.emb y) = V c (Pipeline.arrRef spec2 14) y
  congr 1; funext a; apply Fin.ext
  match a with
  | ⟨0, _⟩ => show win2_14.index t (0 : Fin 2) * 1 + 1 * (y 0).val = (y 0).val; omega
  | ⟨1, _⟩ => show win2_14.index t (1 : Fin 2) * 2000 + 1 * (y 1).val = (y 1).val; omega

/-- What grid point `t` writes back through output window 15 is block `t` of the specification's array. -/
theorem flushed_eq15 (c : Dev nD) (t : Fin cfg2.N) :
    (dat2 V c).flushed 15 t = ((cfg2.win 15).blk t).view.read (Elt Ideal) (addRow (mm (mm (V c (Pipeline.arrRef spec2 0)) (V c (Pipeline.arrRef spec2 1))) (V c (Pipeline.arrRef spec2 2))) (V c (Pipeline.arrRef spec2 3))) := by
  show (cfg2.win 15).cut (grid2.coords t) ((dat2 V c).after 15 t) = _
  rw [after2_15]
  unfold out2_15
  rw [View.canon_unit_zero hz]
  simp only [View.ld_unit_zero (S := S512x4096) hz, View.ld_unit_zero (S := S4096x120) hz, View.ld_unit_zero (S := S120x20) hz, View.ld_unit_zero (S := S1x20) hz, View.ld_unit_zero (S := S20x64) hz, View.ld_unit_zero (S := S1x64) hz, View.ld_unit_zero (S := S64x64) hz, View.ld_unit_zero (S := S64x256) hz, View.ld_unit_zero (S := S1x256) hz, View.ld_unit_zero (S := S256x512) hz, View.ld_unit_zero (S := S1x512) hz, View.ld_unit_zero (S := S512x2000) hz, View.ld_unit_zero (S := S1x2000) hz]
  have e := idx_facts t
  funext j
  refine (congrFun (pay1_spec _ _ _ _) j).trans ?_
  refine (((((blk0 V c t).mm (blk1 V c t)).mm (blk2 V c t)).addRow (blk3 V c t))) j _ ?_ ?_
  · show win2_15.index t (0 : Fin 2) * 512 + 1 * (j 0).val = win2_15.index t (0 : Fin 2) * 512 + (j 0).val; omega
  · show win2_15.index t (1 : Fin 2) * 20 + 1 * (j 1).val = (j 1).val; omega

/-- An index of output 15's array is in grid point `t`'s block iff each coordinate is in the block's range. -/
theorem mem_blk15 (t : Fin cfg2.N) (i : S4096x20.Idx) :
    i ∈ ((cfg2.win 15).blk t).view.set ↔ ∀ a : Fin 2, win2_15.index t a * S512x20.size a ≤ (i a).val ∧ (i a).val < win2_15.index t a * S512x20.size a + S512x20.size a := by
  show i ∈ ((View.whole main_v0_0).slice (win2_15.rect t)).set ↔ _
  rw [View.set_slice_whole, Rect.mem_set_unit]
  exact Iff.rfl

/-- The eight row blocks cover output 15's array: row `r` lies in block `r / 512`. -/
theorem cover15 (i : S4096x20.Idx) : ∃ t : Fin cfg2.N, (cfg2.win 15).flush t = true ∧ i ∈ ((cfg2.win 15).blk t).view.set := by
  have hi0 : (i 0).val < 4096 := (i 0).isLt
  have hi1 : (i 1).val < 20 := (i 1).isLt
  obtain ⟨t, ht⟩ := idx_onto15 ⟨(i 0).val / 512, by omega⟩
  have q0 : win2_15.index t (0 : Fin 2) = (i 0).val / 512 := congrFun ht 0
  have q1 : win2_15.index t (1 : Fin 2) = 0 := congrFun ht 1
  refine ⟨t, flush2_15 t, ?_⟩
  rw [mem_blk15]
  intro a
  match a with
  | ⟨0, _⟩ => show win2_15.index t (0 : Fin 2) * 512 ≤ (i 0).val ∧ (i 0).val < win2_15.index t (0 : Fin 2) * 512 + 512; omega
  | ⟨1, _⟩ => show win2_15.index t (1 : Fin 2) * 20 ≤ (i 1).val ∧ (i 1).val < win2_15.index t (1 : Fin 2) * 20 + 20; omega

/-- After the launch, output 15's array is the specification's array of the launch's operand arrays as found. -/
theorem final15 (c : Dev nD) : (dat2 V c).arrAt 15 cfg2.N = addRow (mm (mm (V c (Pipeline.arrRef spec2 0)) (V c (Pipeline.arrRef spec2 1))) (V c (Pipeline.arrRef spec2 2))) (V c (Pipeline.arrRef spec2 3)) :=
  (dat2 V c).arrAt_eq_of_cover 15 _ (fun t _ => flushed_eq15 V c t) cover15

/-- What grid point `t` writes back through output window 16 is block `t` of the specification's array. -/
theorem flushed_eq16 (c : Dev nD) (t : Fin cfg2.N) :
    (dat2 V c).flushed 16 t = ((cfg2.win 16).blk t).view.read (Elt Ideal) (lin (addRow (mm (mm (V c (Pipeline.arrRef spec2 0)) (V c (Pipeline.arrRef spec2 1))) (V c (Pipeline.arrRef spec2 2))) (V c (Pipeline.arrRef spec2 3))) (V c (Pipeline.arrRef spec2 4)) (V c (Pipeline.arrRef spec2 5))) := by
  show (cfg2.win 16).cut (grid2.coords t) ((dat2 V c).after 16 t) = _
  rw [after2_16]
  unfold out2_16
  rw [View.canon_unit_zero hz]
  simp only [View.ld_unit_zero (S := S512x4096) hz, View.ld_unit_zero (S := S4096x120) hz, View.ld_unit_zero (S := S120x20) hz, View.ld_unit_zero (S := S1x20) hz, View.ld_unit_zero (S := S20x64) hz, View.ld_unit_zero (S := S1x64) hz, View.ld_unit_zero (S := S64x64) hz, View.ld_unit_zero (S := S64x256) hz, View.ld_unit_zero (S := S1x256) hz, View.ld_unit_zero (S := S256x512) hz, View.ld_unit_zero (S := S1x512) hz, View.ld_unit_zero (S := S512x2000) hz, View.ld_unit_zero (S := S1x2000) hz]
  have e := idx_facts t
  funext j
  refine (congrFun (pay2_spec _ _ _ _ _ _) j).trans ?_
  refine ((((((blk0 V c t).mm (blk1 V c t)).mm (blk2 V c t)).addRow (blk3 V c t)).lin (blk4 V c t) (blk5 V c t))) j _ ?_ ?_
  · show win2_16.index t (0 : Fin 2) * 512 + 1 * (j 0).val = win2_15.index t (0 : Fin 2) * 512 + (j 0).val; omega
  · show win2_16.index t (1 : Fin 2) * 64 + 1 * (j 1).val = (j 1).val; omega

/-- An index of output 16's array is in grid point `t`'s block iff each coordinate is in the block's range. -/
theorem mem_blk16 (t : Fin cfg2.N) (i : S4096x64.Idx) :
    i ∈ ((cfg2.win 16).blk t).view.set ↔ ∀ a : Fin 2, win2_16.index t a * S512x64.size a ≤ (i a).val ∧ (i a).val < win2_16.index t a * S512x64.size a + S512x64.size a := by
  show i ∈ ((View.whole main_call0_v9_1).slice (win2_16.rect t)).set ↔ _
  rw [View.set_slice_whole, Rect.mem_set_unit]
  exact Iff.rfl

/-- The eight row blocks cover output 16's array: row `r` lies in block `r / 512`. -/
theorem cover16 (i : S4096x64.Idx) : ∃ t : Fin cfg2.N, (cfg2.win 16).flush t = true ∧ i ∈ ((cfg2.win 16).blk t).view.set := by
  have hi0 : (i 0).val < 4096 := (i 0).isLt
  have hi1 : (i 1).val < 64 := (i 1).isLt
  obtain ⟨t, ht⟩ := idx_onto16 ⟨(i 0).val / 512, by omega⟩
  have q0 : win2_16.index t (0 : Fin 2) = (i 0).val / 512 := congrFun ht 0
  have q1 : win2_16.index t (1 : Fin 2) = 0 := congrFun ht 1
  refine ⟨t, flush2_16 t, ?_⟩
  rw [mem_blk16]
  intro a
  match a with
  | ⟨0, _⟩ => show win2_16.index t (0 : Fin 2) * 512 ≤ (i 0).val ∧ (i 0).val < win2_16.index t (0 : Fin 2) * 512 + 512; omega
  | ⟨1, _⟩ => show win2_16.index t (1 : Fin 2) * 64 ≤ (i 1).val ∧ (i 1).val < win2_16.index t (1 : Fin 2) * 64 + 64; omega

/-- After the launch, output 16's array is the specification's array of the launch's operand arrays as found. -/
theorem final16 (c : Dev nD) : (dat2 V c).arrAt 16 cfg2.N = lin (addRow (mm (mm (V c (Pipeline.arrRef spec2 0)) (V c (Pipeline.arrRef spec2 1))) (V c (Pipeline.arrRef spec2 2))) (V c (Pipeline.arrRef spec2 3))) (V c (Pipeline.arrRef spec2 4)) (V c (Pipeline.arrRef spec2 5)) :=
  (dat2 V c).arrAt_eq_of_cover 16 _ (fun t _ => flushed_eq16 V c t) cover16

/-- What grid point `t` writes back through output window 17 is block `t` of the specification's array. -/
theorem flushed_eq17 (c : Dev nD) (t : Fin cfg2.N) :
    (dat2 V c).flushed 17 t = ((cfg2.win 17).blk t).view.read (Elt Ideal) (mm (lin (addRow (mm (mm (V c (Pipeline.arrRef spec2 0)) (V c (Pipeline.arrRef spec2 1))) (V c (Pipeline.arrRef spec2 2))) (V c (Pipeline.arrRef spec2 3))) (V c (Pipeline.arrRef spec2 4)) (V c (Pipeline.arrRef spec2 5))) (V c (Pipeline.arrRef spec2 6))) := by
  show (cfg2.win 17).cut (grid2.coords t) ((dat2 V c).after 17 t) = _
  rw [after2_17]
  unfold out2_17
  rw [View.canon_unit_zero hz]
  simp only [View.ld_unit_zero (S := S512x4096) hz, View.ld_unit_zero (S := S4096x120) hz, View.ld_unit_zero (S := S120x20) hz, View.ld_unit_zero (S := S1x20) hz, View.ld_unit_zero (S := S20x64) hz, View.ld_unit_zero (S := S1x64) hz, View.ld_unit_zero (S := S64x64) hz, View.ld_unit_zero (S := S64x256) hz, View.ld_unit_zero (S := S1x256) hz, View.ld_unit_zero (S := S256x512) hz, View.ld_unit_zero (S := S1x512) hz, View.ld_unit_zero (S := S512x2000) hz, View.ld_unit_zero (S := S1x2000) hz]
  have e := idx_facts t
  funext j
  refine (congrFun (pay3_spec _ _ _ _ _ _ _) j).trans ?_
  refine (((((((blk0 V c t).mm (blk1 V c t)).mm (blk2 V c t)).addRow (blk3 V c t)).lin (blk4 V c t) (blk5 V c t)).mm (blk6 V c t))) j _ ?_ ?_
  · show win2_17.index t (0 : Fin 2) * 512 + 1 * (j 0).val = win2_15.index t (0 : Fin 2) * 512 + (j 0).val; omega
  · show win2_17.index t (1 : Fin 2) * 64 + 1 * (j 1).val = (j 1).val; omega

/-- An index of output 17's array is in grid point `t`'s block iff each coordinate is in the block's range. -/
theorem mem_blk17 (t : Fin cfg2.N) (i : S4096x64.Idx) :
    i ∈ ((cfg2.win 17).blk t).view.set ↔ ∀ a : Fin 2, win2_17.index t a * S512x64.size a ≤ (i a).val ∧ (i a).val < win2_17.index t a * S512x64.size a + S512x64.size a := by
  show i ∈ ((View.whole main_call0_v9_2).slice (win2_17.rect t)).set ↔ _
  rw [View.set_slice_whole, Rect.mem_set_unit]
  exact Iff.rfl

/-- The eight row blocks cover output 17's array: row `r` lies in block `r / 512`. -/
theorem cover17 (i : S4096x64.Idx) : ∃ t : Fin cfg2.N, (cfg2.win 17).flush t = true ∧ i ∈ ((cfg2.win 17).blk t).view.set := by
  have hi0 : (i 0).val < 4096 := (i 0).isLt
  have hi1 : (i 1).val < 64 := (i 1).isLt
  obtain ⟨t, ht⟩ := idx_onto17 ⟨(i 0).val / 512, by omega⟩
  have q0 : win2_17.index t (0 : Fin 2) = (i 0).val / 512 := congrFun ht 0
  have q1 : win2_17.index t (1 : Fin 2) = 0 := congrFun ht 1
  refine ⟨t, flush2_17 t, ?_⟩
  rw [mem_blk17]
  intro a
  match a with
  | ⟨0, _⟩ => show win2_17.index t (0 : Fin 2) * 512 ≤ (i 0).val ∧ (i 0).val < win2_17.index t (0 : Fin 2) * 512 + 512; omega
  | ⟨1, _⟩ => show win2_17.index t (1 : Fin 2) * 64 ≤ (i 1).val ∧ (i 1).val < win2_17.index t (1 : Fin 2) * 64 + 64; omega

/-- After the launch, output 17's array is the specification's array of the launch's operand arrays as found. -/
theorem final17 (c : Dev nD) : (dat2 V c).arrAt 17 cfg2.N = mm (lin (addRow (mm (mm (V c (Pipeline.arrRef spec2 0)) (V c (Pipeline.arrRef spec2 1))) (V c (Pipeline.arrRef spec2 2))) (V c (Pipeline.arrRef spec2 3))) (V c (Pipeline.arrRef spec2 4)) (V c (Pipeline.arrRef spec2 5))) (V c (Pipeline.arrRef spec2 6)) :=
  (dat2 V c).arrAt_eq_of_cover 17 _ (fun t _ => flushed_eq17 V c t) cover17

/-- What grid point `t` writes back through output window 18 is block `t` of the specification's array. -/
theorem flushed_eq18 (c : Dev nD) (t : Fin cfg2.N) :
    (dat2 V c).flushed 18 t = ((cfg2.win 18).blk t).view.read (Elt Ideal) (lin (relu (lin (relu (lin (relu (lin (addRow (mm (mm (V c (Pipeline.arrRef spec2 0)) (V c (Pipeline.arrRef spec2 1))) (V c (Pipeline.arrRef spec2 2))) (V c (Pipeline.arrRef spec2 3))) (V c (Pipeline.arrRef spec2 7)) (V c (Pipeline.arrRef spec2 8)))) (V c (Pipeline.arrRef spec2 9)) (V c (Pipeline.arrRef spec2 10)))) (V c (Pipeline.arrRef spec2 11)) (V c (Pipeline.arrRef spec2 12)))) (V c (Pipeline.arrRef spec2 13)) (V c (Pipeline.arrRef spec2 14))) := by
  show (cfg2.win 18).cut (grid2.coords t) ((dat2 V c).after 18 t) = _
  rw [after2_18]
  unfold out2_18
  rw [View.canon_unit_zero hz]
  simp only [View.ld_unit_zero (S := S512x4096) hz, View.ld_unit_zero (S := S4096x120) hz, View.ld_unit_zero (S := S120x20) hz, View.ld_unit_zero (S := S1x20) hz, View.ld_unit_zero (S := S20x64) hz, View.ld_unit_zero (S := S1x64) hz, View.ld_unit_zero (S := S64x64) hz, View.ld_unit_zero (S := S64x256) hz, View.ld_unit_zero (S := S1x256) hz, View.ld_unit_zero (S := S256x512) hz, View.ld_unit_zero (S := S1x512) hz, View.ld_unit_zero (S := S512x2000) hz, View.ld_unit_zero (S := S1x2000) hz]
  have e := idx_facts t
  funext j
  refine (congrFun (pay18_spec _ _ _ _ _ _ _ _ _ _ _ _) j).trans ?_
  refine (((((((((blk0 V c t).mm (blk1 V c t)).mm (blk2 V c t)).addRow (blk3 V c t)).lin (blk7 V c t) (blk8 V c t)).relu.lin (blk9 V c t) (blk10 V c t)).relu.lin (blk11 V c t) (blk12 V c t)).relu.lin (blk13 V c t) (blk14 V c t))) j _ ?_ ?_
  · show win2_18.index t (0 : Fin 2) * 512 + 1 * (j 0).val = win2_15.index t (0 : Fin 2) * 512 + (j 0).val; omega
  · show win2_18.index t (1 : Fin 2) * 2000 + 1 * (j 1).val = (j 1).val; omega

/-- An index of output 18's array is in grid point `t`'s block iff each coordinate is in the block's range. -/
theorem mem_blk18 (t : Fin cfg2.N) (i : S4096x2000.Idx) :
    i ∈ ((cfg2.win 18).blk t).view.set ↔ ∀ a : Fin 2, win2_18.index t a * S512x2000.size a ≤ (i a).val ∧ (i a).val < win2_18.index t a * S512x2000.size a + S512x2000.size a := by
  show i ∈ ((View.whole main_v0_1).slice (win2_18.rect t)).set ↔ _
  rw [View.set_slice_whole, Rect.mem_set_unit]
  exact Iff.rfl

/-- The eight row blocks cover output 18's array: row `r` lies in block `r / 512`. -/
theorem cover18 (i : S4096x2000.Idx) : ∃ t : Fin cfg2.N, (cfg2.win 18).flush t = true ∧ i ∈ ((cfg2.win 18).blk t).view.set := by
  have hi0 : (i 0).val < 4096 := (i 0).isLt
  have hi1 : (i 1).val < 2000 := (i 1).isLt
  obtain ⟨t, ht⟩ := idx_onto18 ⟨(i 0).val / 512, by omega⟩
  have q0 : win2_18.index t (0 : Fin 2) = (i 0).val / 512 := congrFun ht 0
  have q1 : win2_18.index t (1 : Fin 2) = 0 := congrFun ht 1
  refine ⟨t, flush2_18 t, ?_⟩
  rw [mem_blk18]
  intro a
  match a with
  | ⟨0, _⟩ => show win2_18.index t (0 : Fin 2) * 512 ≤ (i 0).val ∧ (i 0).val < win2_18.index t (0 : Fin 2) * 512 + 512; omega
  | ⟨1, _⟩ => show win2_18.index t (1 : Fin 2) * 2000 ≤ (i 1).val ∧ (i 1).val < win2_18.index t (1 : Fin 2) * 2000 + 2000; omega

/-- After the launch, output 18's array is the specification's array of the launch's operand arrays as found. -/
theorem final18 (c : Dev nD) : (dat2 V c).arrAt 18 cfg2.N = lin (relu (lin (relu (lin (relu (lin (addRow (mm (mm (V c (Pipeline.arrRef spec2 0)) (V c (Pipeline.arrRef spec2 1))) (V c (Pipeline.arrRef spec2 2))) (V c (Pipeline.arrRef spec2 3))) (V c (Pipeline.arrRef spec2 7)) (V c (Pipeline.arrRef spec2 8)))) (V c (Pipeline.arrRef spec2 9)) (V c (Pipeline.arrRef spec2 10)))) (V c (Pipeline.arrRef spec2 11)) (V c (Pipeline.arrRef spec2 12)))) (V c (Pipeline.arrRef spec2 13)) (V c (Pipeline.arrRef spec2 14)) :=
  (dat2 V c).arrAt_eq_of_cover 18 _ (fun t _ => flushed_eq18 V c t) cover18

end Cert.KernelIdeal.R2

end
-- ==== Proof.R3.lean ====
/-
  The fourth launch, the logistic function of `U·HDᵀ` by blocks of 512 rows of `U`: the block arithmetic is a tile
  product contracting the second axis of both operands followed by `1/2 · tanh (x/2) + 1/2`; each grid point writes
  back the band of rows of that expression of the operand arrays, and the eight bands cover the result.
-/
import proofs.«147425_g84645215470087_cont_9to1_m_424_2_alg».proof.Proof.Gen.KernelIdeal.Frame
import proofs.«147425_g84645215470087_cont_9to1_m_424_2_alg».proof.Proof.LibMatmul
import proofs.«147425_g84645215470087_cont_9to1_m_424_2_alg».proof.Proof.LibPay
import proofs.«147425_g84645215470087_cont_9to1_m_424_2_alg».proof.Proof.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

theorem hz : (![0, 0] : Fin 2 → Nat) = fun _ => 0 := funext fun a => by fin_cases a <;> rfl

/-- The dimension numbers of this product contract the second axis of both operands: at output `(p, q)` and
    contraction coordinate `k` the factors sit at `(p, k)` and `(q, k)`. -/
theorem lhs0_uh (i : S512x4096.Idx) (c : dot_S512x64_S4096x64_S512x4096_1_1_0_0_n_n.contr.Idx) : (dot_S512x64_S4096x64_S512x4096_1_1_0_0_n_n.lhsIdx i c 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem lhs1_uh (i : S512x4096.Idx) (c : dot_S512x64_S4096x64_S512x4096_1_1_0_0_n_n.contr.Idx) : (dot_S512x64_S4096x64_S512x4096_1_1_0_0_n_n.lhsIdx i c 1).val = (c ⟨0, by decide⟩).val :=
  dot_S512x64_S4096x64_S512x4096_1_1_0_0_n_n.lhsIdx_val_of_single rfl i c
theorem rhs0_uh (i : S512x4096.Idx) (c : dot_S512x64_S4096x64_S512x4096_1_1_0_0_n_n.contr.Idx) : (dot_S512x64_S4096x64_S512x4096_1_1_0_0_n_n.rhsIdx i c 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem rhs1_uh (i : S512x4096.Idx) (c : dot_S512x64_S4096x64_S512x4096_1_1_0_0_n_n.contr.Idx) : (dot_S512x64_S4096x64_S512x4096_1_1_0_0_n_n.rhsIdx i c 1).val = (c ⟨0, by decide⟩).val :=
  dot_S512x64_S4096x64_S512x4096_1_1_0_0_n_n.rhsIdx_val_of_single rfl i c
theorem lhs_uh (p : Fin 512) (q : Fin 4096) (k : Fin 64) :
    dot_S512x64_S4096x64_S512x4096_1_1_0_0_n_n.lhsIdx (ix2 p q) ((contrEquiv1 dot_S512x64_S4096x64_S512x4096_1_1_0_0_n_n 64 rfl rfl).symm k) = ix2 p k := by
  have hk := contrEquiv1_symm_val dot_S512x64_S4096x64_S512x4096_1_1_0_0_n_n 64 rfl rfl k
  funext a; apply Fin.ext
  match a with
  | ⟨0, _⟩ => exact lhs0_uh _ _
  | ⟨1, _⟩ => exact (lhs1_uh _ _).trans hk
theorem rhs_uh (p : Fin 512) (q : Fin 4096) (k : Fin 64) :
    dot_S512x64_S4096x64_S512x4096_1_1_0_0_n_n.rhsIdx (ix2 p q) ((contrEquiv1 dot_S512x64_S4096x64_S512x4096_1_1_0_0_n_n 64 rfl rfl).symm k) = ix2 q k := by
  have hk := contrEquiv1_symm_val dot_S512x64_S4096x64_S512x4096_1_1_0_0_n_n 64 rfl rfl k
  funext a; apply Fin.ext
  match a with
  | ⟨0, _⟩ => exact rhs0_uh _ _
  | ⟨1, _⟩ => exact (rhs1_uh _ _).trans hk

/-- This tile product (its operands narrowed to bf16, which changes nothing over the extended reals) is `mmT`. -/
theorem mmT_uh (X : FVec Ideal S512x64 .f32) (W : FVec Ideal S4096x64 .f32) (h1 h2 : (FTy.bf16).bits < (FTy.f32).bits) :
    matmul dot_S512x64_S4096x64_S512x4096_1_1_0_0_n_n none (truncf .bf16 X h1) (truncf .bf16 W h2) (constant S512x4096 .f32 0x00000000#32) = mmT X W := by
  funext j
  obtain ⟨p, q, rfl⟩ : ∃ (p : Fin 512) (q : Fin 4096), j = ix2 p q := ⟨_, _, eq_ix j⟩
  exact Cert.LibMatmul.matmul_zero_at dot_S512x64_S4096x64_S512x4096_1_1_0_0_n_n 64 rfl rfl _ _ (ix2 p q) (fun k => ix2 p k) (fun k => ix2 q k) (lhs_uh p q) (rhs_uh p q)

/-- The fourth launch's block arithmetic: the tanh form of the logistic function of `u·hdᵀ`. -/
theorem pay_spec (v0 : Vec Ideal S512x64 .f32) (v2 : Vec Ideal S4096x64 .f32) : k3_pay1 v0 v2 = logisticT (mmT v0 v2) := by
  unfold k3_pay1
  rw [shapeCast_self, shapeCast_self]
  dsimp only
  rw [mmT_uh]
  exact Cert.LibPay.tanh_form _

variable (V : (c : Dev nD) → (b : Ref sig .tc) → Buf (Elt Ideal) ((c : Thread nD τ).loc b))

/-- The printed block index maps over the eight grid points: every row-blocked window moves with the first output's
    row block, every other block index is zero, and the row block stays below eight. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 7 :=
  (by decide +kernel : ∀ t : Fin grid3.N, _)

/-- Every row block of output window 2 is some grid point's. -/
theorem idx_onto2 : ∀ q0 : Fin 8, ∃ t : Fin cfg3.N, win3_2.index t = ![q0.val, 0] :=
  (by decide +kernel : ∀ q0 : Fin 8, ∃ t : Fin grid3.N, win3_2.index t = ![q0.val, 0])

/-- Input window 0 moves with the output's row block: its block at grid point `t` is the band of 512 rows of its
    array that starts where the output's block starts. -/
theorem blk0 (c : Dev nD) (t : Fin cfg3.N) :
    Rows (win3_2.index t (0 : Fin 2) * 512) (iblk3 V c 0 t) (V c (Pipeline.arrRef spec3 0)) := by
  intro j i h0 h1
  have e := idx_facts t
  show V c (Pipeline.arrRef spec3 0) (((cfg3.win 0).blk t).view.emb j) = V c (Pipeline.arrRef spec3 0) i
  congr 1; funext a; apply Fin.ext
  match a with
  | ⟨0, _⟩ => show win3_0.index t (0 : Fin 2) * 512 + 1 * (j 0).val = (i 0).val; omega
  | ⟨1, _⟩ => show win3_0.index t (1 : Fin 2) * 64 + 1 * (j 1).val = (i 1).val; omega

/-- Input window 1 is loaded whole: its block at every grid point is the array itself. -/
theorem blk1 (c : Dev nD) (t : Fin cfg3.N) (y : S4096x64.Idx) : iblk3 V c 1 t y = V c (Pipeline.arrRef spec3 1) y := by
  have e := idx_facts t
  show V c (Pipeline.arrRef spec3 1) (((cfg3.win 1).blk t).view.emb y) = V c (Pipeline.arrRef spec3 1) y
  congr 1; funext a; apply Fin.ext
  match a with
  | ⟨0, _⟩ => show win3_1.index t (0 : Fin 2) * 4096 + 1 * (y 0).val = (y 0).val; omega
  | ⟨1, _⟩ => show win3_1.index t (1 : Fin 2) * 64 + 1 * (y 1).val = (y 1).val; omega

/-- What grid point `t` writes back through output window 2 is block `t` of the specification's array. -/
theorem flushed_eq2 (c : Dev nD) (t : Fin cfg3.N) :
    (dat3 V c).flushed 2 t = ((cfg3.win 2).blk t).view.read (Elt Ideal) (logisticT (mmT (V c (Pipeline.arrRef spec3 0)) (V c (Pipeline.arrRef spec3 1)))) := by
  show (cfg3.win 2).cut (grid3.coords t) ((dat3 V c).after 2 t) = _
  rw [after3_2]
  unfold out3_2
  rw [View.canon_unit_zero hz]
  simp only [View.ld_unit_zero (S := S512x64) hz, View.ld_unit_zero (S := S4096x64) hz]
  have e := idx_facts t
  funext j
  refine (congrFun (pay_spec _ _) j).trans ?_
  refine (((blk0 V c t).mmT (blk1 V c t)).logisticT) j _ ?_ ?_
  · show win3_2.index t (0 : Fin 2) * 512 + 1 * (j 0).val = win3_2.index t (0 : Fin 2) * 512 + (j 0).val; omega
  · show win3_2.index t (1 : Fin 2) * 4096 + 1 * (j 1).val = (j 1).val; omega

/-- An index of output 2's array is in grid point `t`'s block iff each coordinate is in the block's range. -/
theorem mem_blk2 (t : Fin cfg3.N) (i : S4096x4096.Idx) :
    i ∈ ((cfg3.win 2).blk t).view.set ↔ ∀ a : Fin 2, win3_2.index t a * S512x4096.size a ≤ (i a).val ∧ (i a).val < win3_2.index t a * S512x4096.size a + S512x4096.size a := by
  show i ∈ ((View.whole main_v0_2).slice (win3_2.rect t)).set ↔ _
  rw [View.set_slice_whole, Rect.mem_set_unit]
  exact Iff.rfl

/-- The eight row blocks cover output 2's array: row `r` lies in block `r / 512`. -/
theorem cover2 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ := idx_onto2 ⟨(i 0).val / 512, by omega⟩
  have q0 : win3_2.index t (0 : Fin 2) = (i 0).val / 512 := congrFun ht 0
  have q1 : win3_2.index t (1 : Fin 2) = 0 := congrFun ht 1
  refine ⟨t, flush3_2 t, ?_⟩
  rw [mem_blk2]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 4096 ≤ (i 1).val ∧ (i 1).val < win3_2.index t (1 : Fin 2) * 4096 + 4096; omega

/-- After the launch, output 2's array is the specification's array of the launch's operand arrays as found. -/
theorem final2 (c : Dev nD) : (dat3 V c).arrAt 2 cfg3.N = logisticT (mmT (V c (Pipeline.arrRef spec3 0)) (V c (Pipeline.arrRef spec3 1))) :=
  (dat3 V c).arrAt_eq_of_cover 2 _ (fun t _ => flushed_eq2 V c t) cover2

end Cert.KernelIdeal.R3

end
-- ==== Proof.Walk.lean ====
/-
  The kernel program's buffers at the entry of each of its four launches, walked back to the launch memory: an
  argument array no launch or host operation has written still holds its launch contents, a bias vector the host
  reshaped to one row holds `row1` of the argument, and an array one launch wrote and a later one reads holds what
  the writing launch left.
-/
import proofs.«147425_g84645215470087_cont_9to1_m_424_2_alg».proof.Proof.Gen.KernelIdeal.Frame
import proofs.«147425_g84645215470087_cont_9to1_m_424_2_alg».proof.Proof.LibPay
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Cert.Spec

variable (m : (ℓ : Loc nD τ sig) → Buf (Elt Ideal) ℓ) (ρ : Dev nD → PrngReg) (c : Dev nD)

/-- No host operation before the first launch writes the buffer in the goal. -/
local macro "host_untouched" : tactic => `(tactic| (
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### At the first launch's entry: after the host's seven reshapes -/

/-- Argument 0 at the first launch's entry is as launched. -/
theorem w1_arg0 : W1 m ρ c (Proc.devRef .tc main_arg0) = m ((c : Thread nD τ).loc main_arg0) :=
  (StableHlo.after_of_forall_not_mem (b := Proc.devRef .tc main_arg0) _ _ (by host_untouched)).trans rfl

/-- Argument 2 at the first launch's entry is as launched. -/
theorem w1_arg2 : W1 m ρ c (Proc.devRef .tc main_arg2) = m ((c : Thread nD τ).loc main_arg2) :=
  (StableHlo.after_of_forall_not_mem (b := Proc.devRef .tc main_arg2) _ _ (by host_untouched)).trans rfl

/-- Argument 1 at the first launch's entry is as launched. -/
theorem w1_arg1 : W1 m ρ c (Proc.devRef .tc main_arg1) = m ((c : Thread nD τ).loc main_arg1) :=
  (StableHlo.after_of_forall_not_mem (b := Proc.devRef .tc main_arg1) _ _ (by host_untouched)).trans rfl

/-- Argument 4 at the first launch's entry is as launched. -/
theorem w1_arg4 : W1 m ρ c (Proc.devRef .tc main_arg4) = m ((c : Thread nD τ).loc main_arg4) :=
  (StableHlo.after_of_forall_not_mem (b := Proc.devRef .tc main_arg4) _ _ (by host_untouched)).trans rfl

/-- Argument 6 at the first launch's entry is as launched. -/
theorem w1_arg6 : W1 m ρ c (Proc.devRef .tc main_arg6) = m ((c : Thread nD τ).loc main_arg6) :=
  (StableHlo.after_of_forall_not_mem (b := Proc.devRef .tc main_arg6) _ _ (by host_untouched)).trans rfl

/-- Argument 8 at the first launch's entry is as launched. -/
theorem w1_arg8 : W1 m ρ c (Proc.devRef .tc main_arg8) = m ((c : Thread nD τ).loc main_arg8) :=
  (StableHlo.after_of_forall_not_mem (b := Proc.devRef .tc main_arg8) _ _ (by host_untouched)).trans rfl

/-- Argument 9 at the first launch's entry is as launched. -/
theorem w1_arg9 : W1 m ρ c (Proc.devRef .tc main_arg9) = m ((c : Thread nD τ).loc main_arg9) :=
  (StableHlo.after_of_forall_not_mem (b := Proc.devRef .tc main_arg9) _ _ (by host_untouched)).trans rfl

/-- Argument 11 at the first launch's entry is as launched. -/
theorem w1_arg11 : W1 m ρ c (Proc.devRef .tc main_arg11) = m ((c : Thread nD τ).loc main_arg11) :=
  (StableHlo.after_of_forall_not_mem (b := Proc.devRef .tc main_arg11) _ _ (by host_untouched)).trans rfl

/-- Argument 13 at the first launch's entry is as launched. -/
theorem w1_arg13 : W1 m ρ c (Proc.devRef .tc main_arg13) = m ((c : Thread nD τ).loc main_arg13) :=
  (StableHlo.after_of_forall_not_mem (b := Proc.devRef .tc main_arg13) _ _ (by host_untouched)).trans rfl

/-- Argument 15 at the first launch's entry is as launched. -/
theorem w1_arg15 : W1 m ρ c (Proc.devRef .tc main_arg15) = m ((c : Thread nD τ).loc main_arg15) :=
  (StableHlo.after_of_forall_not_mem (b := Proc.devRef .tc main_arg15) _ _ (by host_untouched)).trans rfl

/-- The host's reshape of argument 3 to one row, at the first launch's entry. -/
theorem w1_row0 : (W1 m ρ c (Proc.devRef .tc main_call0_v0) : A2 1 120) = row1 (m ((c : Thread nD τ).loc main_arg3)) := by
  dsimp only [W1, hostOps0]
  after_results
  exact Cert.LibPay.shapeCast_row _ _

/-- The host's reshape of argument 5 to one row, at the first launch's entry. -/
theorem w1_row1 : (W1 m ρ c (Proc.devRef .tc main_call0_v1) : A2 1 20) = row1 (m ((c : Thread nD τ).loc main_arg5)) := by
  dsimp only [W1, hostOps0]
  after_results
  exact Cert.LibPay.shapeCast_row _ _

/-- The host's reshape of argument 7 to one row, at the first launch's entry. -/
theorem w1_row2 : (W1 m ρ c (Proc.devRef .tc main_call0_v2) : A2 1 64) = row1 (m ((c : Thread nD τ).loc main_arg7)) := by
  dsimp only [W1, hostOps0]
  after_results
  exact Cert.LibPay.shapeCast_row _ _

/-- The host's reshape of argument 10 to one row, at the first launch's entry. -/
theorem w1_row3 : (W1 m ρ c (Proc.devRef .tc main_call0_v3) : A2 1 64) = row1 (m ((c : Thread nD τ).loc main_arg10)) := by
  dsimp only [W1, hostOps0]
  after_results
  exact Cert.LibPay.shapeCast_row _ _

/-- The host's reshape of argument 12 to one row, at the first launch's entry. -/
theorem w1_row4 : (W1 m ρ c (Proc.devRef .tc main_call0_v4) : A2 1 256) = row1 (m ((c : Thread nD τ).loc main_arg12)) := by
  dsimp only [W1, hostOps0]
  after_results
  exact Cert.LibPay.shapeCast_row _ _

/-- The host's reshape of argument 14 to one row, at the first launch's entry. -/
theorem w1_row5 : (W1 m ρ c (Proc.devRef .tc main_call0_v5) : A2 1 512) = row1 (m ((c : Thread nD τ).loc main_arg14)) := by
  dsimp only [W1, hostOps0]
  after_results
  exact Cert.LibPay.shapeCast_row _ _

/-- The host's reshape of argument 16 to one row, at the first launch's entry. -/
theorem w1_row6 : (W1 m ρ c (Proc.devRef .tc main_call0_v6) : A2 1 2000) = row1 (m ((c : Thread nD τ).loc main_arg16)) := by
  dsimp only [W1, hostOps0]
  after_results
  exact Cert.LibPay.shapeCast_row _ _

/-! ### The first launch's inputs -/

/-- The first launch reads argument 0 as launched. -/
theorem walk_1_0 : V1 m ρ c (Pipeline.arrRef spec0 0) = m ((c : Thread nD τ).loc main_arg0) := w1_arg0 m ρ c
/-- The first launch reads argument 2 as launched. -/
theorem walk_1_1 : V1 m ρ c (Pipeline.arrRef spec0 1) = m ((c : Thread nD τ).loc main_arg2) := w1_arg2 m ρ c

/-! ### The second launch's inputs -/

/-- The second launch reads argument 1 as launched. -/
theorem walk_2_0 : V2 m ρ c (Pipeline.arrRef spec1 0) = m ((c : Thread nD τ).loc main_arg1) :=
  (W2_of_ne m ρ c main_arg1 (by decide)).trans (w1_arg1 m ρ c)
/-- The second launch reads the first launch's output. -/
theorem link_2_1 : V2 m ρ c (Pipeline.arrRef spec1 1) = (dat0 (V1 m ρ) c).arrAt 2 cfg0.N := W2_arr m ρ c 2
/-- The second launch reads argument 3 as one row. -/
theorem walk_2_2 : (V2 m ρ c (Pipeline.arrRef spec1 2) : A2 1 120) = row1 (m ((c : Thread nD τ).loc main_arg3)) :=
  (W2_of_ne m ρ c main_call0_v0 (by decide)).trans (w1_row0 m ρ c)

/-! ### The third launch's inputs -/

/-- The third launch reads argument 1 as launched: the second launch read it through an input window. -/
theorem walk_3_0 : V3 m ρ c (Pipeline.arrRef spec2 0) = m ((c : Thread nD τ).loc main_arg1) :=
  ((W3_arr m ρ c 0).trans (((dat1 (V2 m ρ) c).arrAt_in 0 rfl _).trans (A_eq1 (V2 m ρ) c 0))).trans
    ((W2_of_ne m ρ c main_arg1 (by decide)).trans (w1_arg1 m ρ c))
/-- The third launch reads the second launch's output. -/
theorem link_3_1 : V3 m ρ c (Pipeline.arrRef spec2 1) = (dat1 (V2 m ρ) c).arrAt 3 cfg1.N := W3_arr m ρ c 3
/-- The third launch reads argument 4 as launched. -/
theorem walk_3_2 : V3 m ρ c (Pipeline.arrRef spec2 2) = m ((c : Thread nD τ).loc main_arg4) :=
  (W3_of_ne m ρ c main_arg4 (by decide)).trans ((W2_of_ne m ρ c main_arg4 (by decide)).trans (w1_arg4 m ρ c))
/-- The third launch reads argument 6 as launched. -/
theorem walk_3_4 : V3 m ρ c (Pipeline.arrRef spec2 4) = m ((c : Thread nD τ).loc main_arg6) :=
  (W3_of_ne m ρ c main_arg6 (by decide)).trans ((W2_of_ne m ρ c main_arg6 (by decide)).trans (w1_arg6 m ρ c))
/-- The third launch reads argument 8 as launched. -/
theorem walk_3_6 : V3 m ρ c (Pipeline.arrRef spec2 6) = m ((c : Thread nD τ).loc main_arg8) :=
  (W3_of_ne m ρ c main_arg8 (by decide)).trans ((W2_of_ne m ρ c main_arg8 (by decide)).trans (w1_arg8 m ρ c))
/-- The third launch reads argument 9 as launched. -/
theorem walk_3_7 : V3 m ρ c (Pipeline.arrRef spec2 7) = m ((c : Thread nD τ).loc main_arg9) :=
  (W3_of_ne m ρ c main_arg9 (by decide)).trans ((W2_of_ne m ρ c main_arg9 (by decide)).trans (w1_arg9 m ρ c))
/-- The third launch reads argument 11 as launched. -/
theorem walk_3_9 : V3 m ρ c (Pipeline.arrRef spec2 9) = m ((c : Thread nD τ).loc main_arg11) :=
  (W3_of_ne m ρ c main_arg11 (by decide)).trans ((W2_of_ne m ρ c main_arg11 (by decide)).trans (w1_arg11 m ρ c))
/-- The third launch reads argument 13 as launched. -/
theorem walk_3_11 : V3 m ρ c (Pipeline.arrRef spec2 11) = m ((c : Thread nD τ).loc main_arg13) :=
  (W3_of_ne m ρ c main_arg13 (by decide)).trans ((W2_of_ne m ρ c main_arg13 (by decide)).trans (w1_arg13 m ρ c))
/-- The third launch reads argument 15 as launched. -/
theorem walk_3_13 : V3 m ρ c (Pipeline.arrRef spec2 13) = m ((c : Thread nD τ).loc main_arg15) :=
  (W3_of_ne m ρ c main_arg15 (by decide)).trans ((W2_of_ne m ρ c main_arg15 (by decide)).trans (w1_arg15 m ρ c))
/-- The third launch reads argument 5 as one row. -/
theorem walk_3_3 : (V3 m ρ c (Pipeline.arrRef spec2 3) : A2 1 20) = row1 (m ((c : Thread nD τ).loc main_arg5)) :=
  (W3_of_ne m ρ c main_call0_v1 (by decide)).trans ((W2_of_ne m ρ c main_call0_v1 (by decide)).trans (w1_row1 m ρ c))
/-- The third launch reads argument 7 as one row. -/
theorem walk_3_5 : (V3 m ρ c (Pipeline.arrRef spec2 5) : A2 1 64) = row1 (m ((c : Thread nD τ).loc main_arg7)) :=
  (W3_of_ne m ρ c main_call0_v2 (by decide)).trans ((W2_of_ne m ρ c main_call0_v2 (by decide)).trans (w1_row2 m ρ c))
/-- The third launch reads argument 10 as one row. -/
theorem walk_3_8 : (V3 m ρ c (Pipeline.arrRef spec2 8) : A2 1 64) = row1 (m ((c : Thread nD τ).loc main_arg10)) :=
  (W3_of_ne m ρ c main_call0_v3 (by decide)).trans ((W2_of_ne m ρ c main_call0_v3 (by decide)).trans (w1_row3 m ρ c))
/-- The third launch reads argument 12 as one row. -/
theorem walk_3_10 : (V3 m ρ c (Pipeline.arrRef spec2 10) : A2 1 256) = row1 (m ((c : Thread nD τ).loc main_arg12)) :=
  (W3_of_ne m ρ c main_call0_v4 (by decide)).trans ((W2_of_ne m ρ c main_call0_v4 (by decide)).trans (w1_row4 m ρ c))
/-- The third launch reads argument 14 as one row. -/
theorem walk_3_12 : (V3 m ρ c (Pipeline.arrRef spec2 12) : A2 1 512) = row1 (m ((c : Thread nD τ).loc main_arg14)) :=
  (W3_of_ne m ρ c main_call0_v5 (by decide)).trans ((W2_of_ne m ρ c main_call0_v5 (by decide)).trans (w1_row5 m ρ c))
/-- The third launch reads argument 16 as one row. -/
theorem walk_3_14 : (V3 m ρ c (Pipeline.arrRef spec2 14) : A2 1 2000) = row1 (m ((c : Thread nD τ).loc main_arg16)) :=
  (W3_of_ne m ρ c main_call0_v6 (by decide)).trans ((W2_of_ne m ρ c main_call0_v6 (by decide)).trans (w1_row6 m ρ c))

/-! ### The fourth launch's inputs, and the three results at the end -/

/-- The fourth launch's first input is the third launch's output 17. -/
theorem link_4_0 : V4 m ρ c (Pipeline.arrRef spec3 0) = (dat2 (V3 m ρ) c).arrAt 17 cfg2.N := W4_arr m ρ c 17
/-- The fourth launch's second input is the third launch's output 16. -/
theorem link_4_1 : V4 m ρ c (Pipeline.arrRef spec3 1) = (dat2 (V3 m ρ) c).arrAt 16 cfg2.N := W4_arr m ρ c 16
/-- The third result is what the fourth launch leaves. -/
theorem link_5_v0_2 : W5 m ρ c (Proc.devRef .tc main_v0_2) = (dat3 (V4 m ρ) c).arrAt 2 cfg3.N := W5_arr m ρ c 2
/-- The first result is what the third launch leaves: the fourth launch does not touch it. -/
theorem link_5_v0_0 : W5 m ρ c (Proc.devRef .tc main_v0_0) = (dat2 (V3 m ρ) c).arrAt 15 cfg2.N :=
  (W5_of_ne m ρ c main_v0_0 (by decide)).trans (W4_arr m ρ c 15)
/-- The second result is what the third launch leaves: the fourth launch does not touch it. -/
theorem link_5_v0_1 : W5 m ρ c (Proc.devRef .tc main_v0_1) = (dat2 (V3 m ρ) c).arrAt 18 cfg2.N :=
  (W5_of_ne m ρ c main_v0_1 (by decide)).trans (W4_arr m ρ c 18)

end Cert.KernelIdeal.Walk

end
-- ==== Proof.KernelValue.lean ====
/-
  The idealized kernel's three results as functions of its seventeen arguments. Launch by launch, the array a launch
  leaves is the specification's expression of the arrays it finds, and the arrays it finds are the arguments (a bias
  vector read as one row) or the arrays earlier launches left: `P = X·W1`, `H = relu (A·P + b1)`,
  `Z = (A·H)·W2 + b2`, `HD = Z·Wd + bd`, `U = HD·Wb`, the perceptron on `Z`, and the tanh form of the logistic
  function of `U·HDᵀ`. The run then ends with the three result buffers at those arrays and the arguments unchanged.
-/
import proofs.«147425_g84645215470087_cont_9to1_m_424_2_alg».proof.Proof.KernelRun
import proofs.«147425_g84645215470087_cont_9to1_m_424_2_alg».proof.Proof.R0
import proofs.«147425_g84645215470087_cont_9to1_m_424_2_alg».proof.Proof.R1
import proofs.«147425_g84645215470087_cont_9to1_m_424_2_alg».proof.Proof.R2
import proofs.«147425_g84645215470087_cont_9to1_m_424_2_alg».proof.Proof.R3
import proofs.«147425_g84645215470087_cont_9to1_m_424_2_alg».proof.Proof.Walk
import proofs.«147425_g84645215470087_cont_9to1_m_424_2_alg».proof.Proof.Net

set_option maxRecDepth 16384

noncomputable section

namespace Cert.KernelIdeal.NetValue

open Cert.KernelIdeal Cert.KernelIdeal.Gen
open Idealize.ShloMosaic Idealize.ShloMosaic.TcCoe Idealize.SL.Sem
open Cert.Spec Cert.KernelIdeal.Walk

variable (m : (ℓ : Loc nD τ sig) → Buf (Elt Ideal) ℓ) (ρ : Dev nD → PrngReg) (c : Dev nD)

/-- After the first launch: `X·W1`. -/
theorem p_val : (dat0 (V1 m ρ) c).arrAt 2 cfg0.N = Cert.Net.P (m ((c : Thread nD τ).loc main_arg0)) (m ((c : Thread nD τ).loc main_arg2)) := by
  rw [Cert.KernelIdeal.R0.final2, walk_1_0, walk_1_1]
  rfl

/-- After the second launch: `relu (A·P + b1)`. -/
theorem h_val : (dat1 (V2 m ρ) c).arrAt 3 cfg1.N = (Cert.Net.H (m ((c : Thread nD τ).loc main_arg0)) (m ((c : Thread nD τ).loc main_arg1)) (m ((c : Thread nD τ).loc main_arg2)) (m ((c : Thread nD τ).loc main_arg3))) := by
  rw [Cert.KernelIdeal.R1.final3, walk_2_0, link_2_1, p_val, walk_2_2]
  rfl

/-- The latent array the third launch leaves: `(A·H)·W2 + b2`. -/
theorem z_val : (dat2 (V3 m ρ) c).arrAt 15 cfg2.N = (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) := by
  rw [Cert.KernelIdeal.R2.final15, walk_3_0, link_3_1, h_val, walk_3_2, walk_3_3]
  rfl

/-- The first decoder factor the third launch leaves: `Z·Wd + bd`. -/
theorem hd_val : (dat2 (V3 m ρ) c).arrAt 16 cfg2.N = (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))) := by
  rw [Cert.KernelIdeal.R2.final16, walk_3_0, link_3_1, h_val, walk_3_2, walk_3_3, walk_3_4, walk_3_5]
  rfl

/-- The second decoder factor the third launch leaves: `HD·Wb`. -/
theorem u_val : (dat2 (V3 m ρ) c).arrAt 17 cfg2.N = (Cert.Net.U (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))) (m ((c : Thread nD τ).loc main_arg8))) := by
  rw [Cert.KernelIdeal.R2.final17, walk_3_0, link_3_1, h_val, walk_3_2, walk_3_3, walk_3_4, walk_3_5, walk_3_6]
  rfl

/-- The perceptron's output of the third launch, with the arrays the launch finds named: whatever they are, the
    launch leaves the perceptron of `(a0·a1)·a2 + a3` with the weights and one-row biases `a7 … a14`. -/
theorem xo_of (V : (c : Dev nD) → (b : Ref sig .tc) → Buf (Elt Ideal) ((c : Thread nD τ).loc b)) (c : Dev nD)
    (a0 : A2 4096 4096) (a1 : A2 4096 120) (a2 : A2 120 20) (a3 : A2 1 20) (a7 : A2 20 64) (a8 : A2 1 64) (a9 : A2 64 256) (a10 : A2 1 256) (a11 : A2 256 512) (a12 : A2 1 512) (a13 : A2 512 2000) (a14 : A2 1 2000)
    (h0 : (V c (Pipeline.arrRef spec2 0) : A2 4096 4096) = a0)
    (h1 : (V c (Pipeline.arrRef spec2 1) : A2 4096 120) = a1)
    (h2 : (V c (Pipeline.arrRef spec2 2) : A2 120 20) = a2)
    (h3 : (V c (Pipeline.arrRef spec2 3) : A2 1 20) = a3)
    (h7 : (V c (Pipeline.arrRef spec2 7) : A2 20 64) = a7)
    (h8 : (V c (Pipeline.arrRef spec2 8) : A2 1 64) = a8)
    (h9 : (V c (Pipeline.arrRef spec2 9) : A2 64 256) = a9)
    (h10 : (V c (Pipeline.arrRef spec2 10) : A2 1 256) = a10)
    (h11 : (V c (Pipeline.arrRef spec2 11) : A2 256 512) = a11)
    (h12 : (V c (Pipeline.arrRef spec2 12) : A2 1 512) = a12)
    (h13 : (V c (Pipeline.arrRef spec2 13) : A2 512 2000) = a13)
    (h14 : (V c (Pipeline.arrRef spec2 14) : A2 1 2000) = a14) :
    (dat2 V c).arrAt 18 cfg2.N
      = lin (relu (lin (relu (lin (relu (lin (addRow (mm (mm a0 a1) a2) a3) a7 a8)) a9 a10)) a11 a12)) a13 a14 := by
  subst h0 h1 h2 h3 h7 h8 h9 h10 h11 h12 h13 h14
  exact Cert.KernelIdeal.R2.final18 V c

/-- The perceptron's output the third launch leaves. -/
theorem xo_val : (dat2 (V3 m ρ) c).arrAt 18 cfg2.N = (Cert.Net.XO (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  exact xo_of (V3 m ρ) c _ _ _ _ _ _ _ _ _ _ _ _ (walk_3_0 m ρ c) ((link_3_1 m ρ c).trans (h_val m ρ c)) (walk_3_2 m ρ c) (walk_3_3 m ρ c)
    (walk_3_7 m ρ c) (walk_3_8 m ρ c) (walk_3_9 m ρ c) (walk_3_10 m ρ c) (walk_3_11 m ρ c) (walk_3_12 m ρ c) (walk_3_13 m ρ c) (walk_3_14 m ρ c)

/-- The adjacency reconstruction the fourth launch leaves: the tanh form of the logistic function of `U·HDᵀ`. -/
theorem ao_val : (dat3 (V4 m ρ) c).arrAt 2 cfg3.N = (Cert.Net.AOk (Cert.Net.U (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))) (m ((c : Thread nD τ).loc main_arg8))) (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)))) := by
  rw [Cert.KernelIdeal.R3.final2, link_4_0, link_4_1, u_val, hd_val]
  rfl

/-- Every weakly fair execution of the idealized kernel terminates without a fault, with the three result buffers at
    the network's arrays of the arguments and the arguments unchanged. -/
theorem run : θ_run defs (onTc (τ := τ) (main (F := Ideal))) ⟨m, fun _ => 0, ρ⟩ (fun r => ∀ c : Dev nD,
      r.2.mem ((c.tc : Thread nD τ).loc main_v0_0) = (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)))
      ∧ r.2.mem ((c.tc : Thread nD τ).loc main_v0_1) = (Cert.Net.XO (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
      ∧ r.2.mem ((c.tc : Thread nD τ).loc main_v0_2) = (Cert.Net.AOk (Cert.Net.U (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))) (m ((c : Thread nD τ).loc main_arg8))) (Cert.Net.HD (Cert.Net.Zk (m ((c : Thread nD τ).loc main_arg1)) (Cert.Net.H (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c).1.trans ((link_5_v0_0 m ρ c).trans (z_val m ρ c)),
     (h c).2.1.trans ((link_5_v0_1 m ρ c).trans (xo_val m ρ c)),
     (h c).2.2.1.trans ((link_5_v0_2 m ρ c).trans (ao_val m ρ c)),
     (h c).2.2.2⟩)
    (Cert.KernelIdeal.RunValue.run_W5 m ρ)

end Cert.KernelIdeal.NetValue

end
-- ==== Proof.LibRealAlg.lean ====
/-
  General facts on the extended reals: an extended real "is a real" when it is the image of a real
  number; sums, products and maxima of reals are reals; a product of three finite real families can
  be regrouped; and the logistic function is half the hyperbolic tangent of half the argument, plus
  one half, at every extended real.
-/
import Idealize.ShloMosaic.PureOps.Ideal
import Idealize.ShloMosaic.PureOps.Ideal.Laws

noncomputable section

namespace Cert.LibRealAlg

open Idealize.ShloMosaic
open scoped BigOperators

/-! ### Extended reals that are real numbers -/

/-- An extended real is finite when it is the image of a real number. -/
def IsReal (x : EReal) : Prop := ∃ r : ℝ, x = (r : EReal)

/-- Zero is a real. -/
theorem isReal_zero : IsReal 0 := ⟨0, EReal.coe_zero.symm⟩

/-- One is a real. -/
theorem isReal_one : IsReal 1 := ⟨1, EReal.coe_one.symm⟩

/-- The image of a real number is a real. -/
theorem isReal_coe (r : ℝ) : IsReal (r : EReal) := ⟨r, rfl⟩

/-- A real is neither infinity. -/
theorem IsReal.ne_top {x : EReal} (hx : IsReal x) : x ≠ ⊤ := by
  obtain ⟨a, rfl⟩ := hx; exact EReal.coe_ne_top a

/-- A real is neither infinity. -/
theorem IsReal.ne_bot {x : EReal} (hx : IsReal x) : x ≠ ⊥ := by
  obtain ⟨a, rfl⟩ := hx; exact EReal.coe_ne_bot a

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases le_total x y with h | h
  · rw [max_eq_right h]; exact hy
  · rw [max_eq_left h]; exact hx

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a finite type is a real. -/
theorem isReal_sum_univ {ι : Type*} [Fintype ι] (f : ι → EReal) (h : ∀ i, IsReal (f i)) :
    IsReal (∑ i, f i) :=
  IsReal.sum Finset.univ f fun i _ => h i

/-- The single-precision zero word denotes the real number zero. -/
theorem isReal_ofBits_zero : IsReal (Ideal.ofBits .f32 0x00000000#32) := by
  rw [Ideal.ofBits_zero_f32]; exact isReal_zero

/-- The maximum of a real and the value of the single-precision zero word is a real. -/
theorem isReal_max_ofBits_zero {x : EReal} (hx : IsReal x) :
    IsReal (max x (Ideal.ofBits .f32 0x00000000#32)) :=
  hx.max isReal_ofBits_zero

/-- The maximum of a real with zero is the coercion of the real maximum with zero. -/
theorem max_coe_ofBits_zero (r : ℝ) :
    max (r : EReal) (Ideal.ofBits .f32 0x00000000#32) = ((max r 0 : ℝ) : EReal) := by
  rw [Ideal.ofBits_zero_f32, ← EReal.coe_zero]
  rcases le_total r 0 with h | h
  · rw [max_eq_right h, max_eq_right (EReal.coe_le_coe_iff.2 h)]
  · rw [max_eq_left h, max_eq_left (EReal.coe_le_coe_iff.2 h)]

/-! ### Regrouping a product of three finite real families -/

/-- For real families `a`, `h`, `w` over finite index types,
    `∑ₖ (∑ⱼ aⱼ hⱼₖ) wₖ = ∑ⱼ aⱼ (∑ₖ hⱼₖ wₖ)`: associativity of the matrix product, entry by entry. -/
theorem sum_mul_sum_assoc {J K : Type*} [Fintype J] [Fintype K] (a : J → EReal) (h : J → K → EReal)
    (w : K → EReal) (ha : ∀ j, IsReal (a j)) (hh : ∀ j k, IsReal (h j k)) (hw : ∀ k, IsReal (w k)) :
    (∑ k, (∑ j, a j * h j k) * w k) = ∑ j, a j * ∑ k, h j k * w k := by
  choose a' ha' using ha
  choose h' hh' using hh
  choose w' hw' using hw
  obtain rfl : a = fun j => ((a' j : ℝ) : EReal) := funext ha'
  obtain rfl : h = fun j k => ((h' j k : ℝ) : EReal) := funext fun j => funext fun k => hh' j k
  obtain rfl : w = fun k => ((w' k : ℝ) : EReal) := funext hw'
  simp only [← EReal.coe_mul, ← coe_sum]
  rw [EReal.coe_eq_coe_iff]
  simp only [Finset.sum_mul, Finset.mul_sum]
  rw [Finset.sum_comm]
  simp only [mul_assoc]

/-! ### The logistic function by the hyperbolic tangent -/

/-- The single-precision word `0x3F000000` denotes one half. -/
theorem ofBits_half : Ideal.ofBits .f32 0x3F000000#32 = ((1 / 2 : ℝ) : EReal) := by
  simp [Ideal.ofBits, Ideal.ieee, -EReal.coe_mul]; norm_num

/-- The single-precision word `0x3F800000` denotes one. -/
theorem ofBits_one : Ideal.ofBits .f32 0x3F800000#32 = ((1 : ℝ) : EReal) := by
  simp [Ideal.ofBits, Ideal.ieee, -EReal.coe_mul]; norm_num

/-- On the reals, `1/2 · tanh (r/2) + 1/2 = 1 / (1 + e⁻ʳ)`. -/
theorem real_logistic_eq_tanh (r : ℝ) :
    1 / 2 * Real.tanh (1 / 2 * r) + 1 / 2 = (1 + Real.exp (-r))⁻¹ := by
  have hu : 0 < Real.exp (1 / 2 * r) := Real.exp_pos _
  have hv : 0 < Real.exp (-(1 / 2 * r)) := Real.exp_pos _
  have huv : Real.exp (1 / 2 * r) * Real.exp (-(1 / 2 * r)) = 1 := by
    rw [← Real.exp_add, add_neg_cancel, Real.exp_zero]
  have hr : Real.exp (-r) = Real.exp (-(1 / 2 * r)) * Real.exp (-(1 / 2 * r)) := by
    rw [← Real.exp_add]; congr 1; ring
  rw [Real.tanh_eq, hr]
  generalize Real.exp (1 / 2 * r) = u at *
  generalize Real.exp (-(1 / 2 * r)) = v at *
  have huv' : u + v ≠ 0 := by positivity
  have hvv : 1 + v * v ≠ 0 := by positivity
  field_simp
  linear_combination (2 * v) * huv

/-- At every extended real `s`, `1/2 · tanh (1/2 · s) + 1/2 = 1 / (1 + exp (-s))`, with the constants
    given by their single-precision words: at `-∞` both sides are `0`, at `+∞` both are `1`. -/
theorem logistic_eq_tanh (s : EReal) :
    Ideal.ofBits .f32 0x3F000000#32 * Ideal.tanh (Ideal.ofBits .f32 0x3F000000#32 * s)
        + Ideal.ofBits .f32 0x3F000000#32
      = Ideal.div (Ideal.ofBits .f32 0x3F800000#32) (Ideal.ofBits .f32 0x3F800000#32 + Ideal.exp (-s)) := by
  rw [ofBits_half, ofBits_one]
  induction s using EReal.rec with
  | bot =>
    rw [EReal.coe_mul_bot_of_pos (by norm_num), Ideal.tanh_bot, EReal.neg_bot, Ideal.exp_top,
      EReal.coe_add_top, Ideal.div, if_neg (by simp), EReal.inv_top, mul_zero,
      ← EReal.coe_one, ← EReal.coe_neg, ← EReal.coe_mul, ← EReal.coe_add, ← EReal.coe_zero]
    norm_num
  | coe r =>
    rw [← EReal.coe_mul, Ideal.tanh_coe, ← EReal.coe_mul, ← EReal.coe_add, ← EReal.coe_neg, Ideal.exp_coe,
      ← EReal.coe_add, Ideal.div_coe (by positivity), ← EReal.coe_mul, real_logistic_eq_tanh]
    norm_num
  | top =>
    rw [EReal.coe_mul_top_of_pos (by norm_num), Ideal.tanh_top, EReal.neg_top, Ideal.exp_bot, add_zero,
      Ideal.div, if_neg (by simp), ← EReal.coe_inv, ← EReal.coe_one, ← EReal.coe_mul, ← EReal.coe_mul,
      ← EReal.coe_add]
    norm_num

end Cert.LibRealAlg

end
-- ==== Proof.RefNet.lean ====
/-
  The reference program's intermediate arrays, identified with the network's layers: each operation of the
  reference is a matrix product, the addition of a bias row, a maximum with zero, a transpose, or the logistic
  function written with the exponential, and the composites are the layers `H`, `Z`, the decoder's
  reconstruction and the perceptron's output. Then the two places where the kernel groups or writes the same
  mathematics differently: `(A·H)·W = A·(H·W)` for arrays of reals, and the logistic function by the hyperbolic tangent.
-/
import proofs.«147425_g84645215470087_cont_9to1_m_424_2_alg».proof.Proof.Gen.ReferenceIdeal.Read
import proofs.«147425_g84645215470087_cont_9to1_m_424_2_alg».proof.Proof.Net
import proofs.«147425_g84645215470087_cont_9to1_m_424_2_alg».proof.Proof.LibRealAlg

noncomputable section

namespace Cert.RefNet

open Idealize.ShloMosaic Idealize.ShloMosaic.ValueIdx Idealize.SL.Sem
open Cert.ReferenceIdeal Cert.ReferenceIdeal.Read Cert.Spec Cert.Net Cert.LibRealAlg

/-! ### An array given entry by entry is the named operation -/

/-- An array whose entry `(p, q)` is `∑ₜ a (p, t) · b (t, q)` is the matrix product. -/
theorem mm_of_apply {r k c : ℕ} (a : A2 r k) (b : A2 k c) (y : A2 r c)
    (l : (⟨2, ![r, c]⟩ : Shape).Idx → Fin k → (⟨2, ![r, k]⟩ : Shape).Idx)
    (rr : (⟨2, ![r, c]⟩ : Shape).Idx → Fin k → (⟨2, ![k, c]⟩ : Shape).Idx)
    (hl : ∀ i t, (l i t 0).val = (i 0).val ∧ (l i t 1).val = t.val)
    (hr : ∀ i t, (rr i t 0).val = t.val ∧ (rr i t 1).val = (i 1).val)
    (hy : ∀ i, y i = ∑ t : Fin k, a (l i t) * b (rr i t)) : y = mm a b := by
  funext i
  rw [hy i]
  unfold mm
  refine Finset.sum_congr rfl fun t _ => ?_
  have e1 : l i t = ix2 (rw0 i) t := funext fun d => Fin.ext (by
    match d with
    | ⟨0, _⟩ => exact (hl i t).1
    | ⟨1, _⟩ => exact (hl i t).2)
  have e2 : rr i t = ix2 t (cl1 i) := funext fun d => Fin.ext (by
    match d with
    | ⟨0, _⟩ => exact (hr i t).1
    | ⟨1, _⟩ => exact (hr i t).2)
  rw [e1, e2]

/-- A vector read at an index whose coordinate is the column of `i`. -/
theorem bias_of {r c : ℕ} (x : V1 c) (j : (⟨1, ![c]⟩ : Shape).Idx) (i : (⟨2, ![r, c]⟩ : Shape).Idx)
    (h : (j 0).val = (i 1).val) : x j = x (ix1 (cl1 i)) :=
  congrArg x (funext fun d => Fin.ext (by
    match d with
    | ⟨0, _⟩ => exact h))

/-- An array whose entry is `a (p, q) + x q` is `a` with the row `x` added to every row. -/
theorem addRow_of_apply {r c : ℕ} (a : A2 r c) (x : V1 c) (y bb : A2 r c)
    (hb : ∀ i, bb i = x (ix1 (cl1 i))) (hy : ∀ i, y i = a i + bb i) : y = addRow a (row1 x) := by
  funext i
  rw [hy i, hb i]
  rfl

/-- An array whose entry is the maximum of `a`'s entry and zero is `relu a`. -/
theorem relu_of_apply {r c : ℕ} (a y z : A2 r c) (hz : ∀ i, z i = zero) (hy : ∀ i, y i = max (a i) (z i)) :
    y = relu a := by
  funext i
  rw [hy i, hz i]
  rfl

/-- An array whose entry `(p, q)` is `a (q, p)` is the transpose. -/
theorem tr_of_apply {r c : ℕ} (a : A2 r c) (y : A2 c r)
    (idx : (⟨2, ![c, r]⟩ : Shape).Idx → (⟨2, ![r, c]⟩ : Shape).Idx)
    (hi : ∀ i, (idx i 0).val = (i 1).val ∧ (idx i 1).val = (i 0).val) (hy : ∀ i, y i = a (idx i)) : y = tr a := by
  funext i
  rw [hy i]
  unfold tr
  exact congrArg a (funext fun d => Fin.ext (by
    match d with
    | ⟨0, _⟩ => exact (hi i).1
    | ⟨1, _⟩ => exact (hi i).2))

variable
  (x0 : (⟨S4096x2000, .f32⟩ : BufTy).Contents (Elt Ideal))
  (x1 : (⟨S4096x4096, .f32⟩ : BufTy).Contents (Elt Ideal))
  (x2 : (⟨S2000x120, .f32⟩ : BufTy).Contents (Elt Ideal))
  (x3 : (⟨S120, .f32⟩ : BufTy).Contents (Elt Ideal))
  (x4 : (⟨S120x20, .f32⟩ : BufTy).Contents (Elt Ideal))
  (x5 : (⟨S20, .f32⟩ : BufTy).Contents (Elt Ideal))
  (x6 : (⟨S20x64, .f32⟩ : BufTy).Contents (Elt Ideal))
  (x7 : (⟨S64, .f32⟩ : BufTy).Contents (Elt Ideal))
  (x8 : (⟨S64x64, .f32⟩ : BufTy).Contents (Elt Ideal))
  (x9 : (⟨S20x64, .f32⟩ : BufTy).Contents (Elt Ideal))
  (x10 : (⟨S64, .f32⟩ : BufTy).Contents (Elt Ideal))
  (x11 : (⟨S64x256, .f32⟩ : BufTy).Contents (Elt Ideal))
  (x12 : (⟨S256, .f32⟩ : BufTy).Contents (Elt Ideal))
  (x13 : (⟨S256x512, .f32⟩ : BufTy).Contents (Elt Ideal))
  (x14 : (⟨S512, .f32⟩ : BufTy).Contents (Elt Ideal))
  (x15 : (⟨S512x2000, .f32⟩ : BufTy).Contents (Elt Ideal))
  (x16 : (⟨S2000, .f32⟩ : BufTy).Contents (Elt Ideal))

/-! ### The encoder -/

/-- The first product is `X·W1`. -/
theorem ref_p : val_main_v0 (F := Ideal) x0 x2 = Cert.Net.P x0 x2 :=
  mm_of_apply _ _ _ lidx_main_v0 ridx_main_v0 (fun _ _ => ⟨rfl, rfl⟩) (fun _ _ => ⟨rfl, rfl⟩)
    (fun i => by rw [val_main_v0_apply])

/-- The second product is `A·(X·W1)`. -/
theorem ref_v1 : val_main_v1 (F := Ideal) x0 x1 x2 = mm x1 (Cert.Net.P x0 x2) :=
  mm_of_apply _ _ _ lidx_main_v1 ridx_main_v1 (fun _ _ => ⟨rfl, rfl⟩) (fun _ _ => ⟨rfl, rfl⟩)
    (fun i => by rw [val_main_v1_apply, ref_p])

/-- The bias row of this layer, read at an entry. -/
theorem ref_b3 (i : S4096x120.Idx) : val_main_v3 (F := Ideal) x3 i = x3 (ix1 (cl1 i)) := by
  rw [val_main_v3_apply, val_main_v2_apply]
  exact bias_of x3 _ i rfl

/-- `A·(X·W1) + b1`. -/
theorem ref_v4 : val_main_v4 (F := Ideal) x0 x1 x2 x3 = addRow (mm x1 (Cert.Net.P x0 x2)) (row1 x3) :=
  addRow_of_apply _ x3 _ (val_main_v3 (F := Ideal) x3) (ref_b3 x3)
    (fun i => by rw [val_main_v4_apply, ref_v1, Ideal.addf_def])

/-- The reference's first layer is `H`. -/
theorem ref_h : val_main_v5 (F := Ideal) x0 x1 x2 x3 = Cert.Net.H x0 x1 x2 x3 :=
  relu_of_apply _ _ (val_main_call0_v0 (F := Ideal))
    (fun i => by rw [val_main_call0_v0_apply, val_main_call0_cst_apply, Ideal.ofBits_def])
    (fun i => by rw [val_main_v5_apply, ref_v4, Ideal.maximumf_def])

/-- `H·W2`. -/
theorem ref_v6 : val_main_v6 (F := Ideal) x0 x1 x2 x3 x4 = mm (Cert.Net.H x0 x1 x2 x3) x4 :=
  mm_of_apply _ _ _ lidx_main_v6 ridx_main_v6 (fun _ _ => ⟨rfl, rfl⟩) (fun _ _ => ⟨rfl, rfl⟩)
    (fun i => by rw [val_main_v6_apply, ref_h])

/-- `A·(H·W2)`. -/
theorem ref_v7 : val_main_v7 (F := Ideal) x0 x1 x2 x3 x4 = mm x1 (mm (Cert.Net.H x0 x1 x2 x3) x4) :=
  mm_of_apply _ _ _ lidx_main_v7 ridx_main_v7 (fun _ _ => ⟨rfl, rfl⟩) (fun _ _ => ⟨rfl, rfl⟩)
    (fun i => by rw [val_main_v7_apply, ref_v6])

/-- The bias row of this layer, read at an entry. -/
theorem ref_b9 (i : S4096x20.Idx) : val_main_v9 (F := Ideal) x5 i = x5 (ix1 (cl1 i)) := by
  rw [val_main_v9_apply, val_main_v8_apply]
  exact bias_of x5 _ i rfl

/-- The reference's latent array is `A·(H·W2) + b2`. -/
theorem ref_z : val_main_v10 (F := Ideal) x0 x1 x2 x3 x4 x5 = Cert.Net.Zr x1 (Cert.Net.H x0 x1 x2 x3) x4 x5 :=
  addRow_of_apply _ x5 _ (val_main_v9 (F := Ideal) x5) (ref_b9 x5)
    (fun i => by rw [val_main_v10_apply, ref_v7, Ideal.addf_def])

/-! ### The decoder -/

/-- `Z·Wd`. -/
theorem ref_v11 : val_main_v11 (F := Ideal) x0 x1 x2 x3 x4 x5 x6 = mm (Cert.Net.Zr x1 (Cert.Net.H x0 x1 x2 x3) x4 x5) x6 :=
  mm_of_apply _ _ _ lidx_main_v11 ridx_main_v11 (fun _ _ => ⟨rfl, rfl⟩) (fun _ _ => ⟨rfl, rfl⟩)
    (fun i => by rw [val_main_v11_apply, ref_z])

/-- The bias row of this layer, read at an entry. -/
theorem ref_b13 (i : S4096x64.Idx) : val_main_v13 (F := Ideal) x7 i = x7 (ix1 (cl1 i)) := by
  rw [val_main_v13_apply, val_main_v12_apply]
  exact bias_of x7 _ i rfl

/-- `HD = Z·Wd + bd`. -/
theorem ref_hd : val_main_v14 (F := Ideal) x0 x1 x2 x3 x4 x5 x6 x7 = Cert.Net.HD (Cert.Net.Zr x1 (Cert.Net.H x0 x1 x2 x3) x4 x5) x6 x7 :=
  addRow_of_apply _ x7 _ (val_main_v13 (F := Ideal) x7) (ref_b13 x7)
    (fun i => by rw [val_main_v14_apply, ref_v11, Ideal.addf_def])

/-- `U = HD·Wb`. -/
theorem ref_u : val_main_v15 (F := Ideal) x0 x1 x2 x3 x4 x5 x6 x7 x8 = Cert.Net.U (Cert.Net.HD (Cert.Net.Zr x1 (Cert.Net.H x0 x1 x2 x3) x4 x5) x6 x7) x8 :=
  mm_of_apply _ _ _ lidx_main_v15 ridx_main_v15 (fun _ _ => ⟨rfl, rfl⟩) (fun _ _ => ⟨rfl, rfl⟩)
    (fun i => by rw [val_main_v15_apply, ref_hd])

/-- The transposed decoder array. -/
theorem ref_v16 : val_main_v16 (F := Ideal) x0 x1 x2 x3 x4 x5 x6 x7 = tr (Cert.Net.HD (Cert.Net.Zr x1 (Cert.Net.H x0 x1 x2 x3) x4 x5) x6 x7) :=
  tr_of_apply _ _ idx_main_v16 (fun _ => ⟨rfl, rfl⟩) (fun i => by rw [val_main_v16_apply, ref_hd])

/-- `U·HDᵀ`. -/
theorem ref_v17 : val_main_v17 (F := Ideal) x0 x1 x2 x3 x4 x5 x6 x7 x8 = mm (Cert.Net.U (Cert.Net.HD (Cert.Net.Zr x1 (Cert.Net.H x0 x1 x2 x3) x4 x5) x6 x7) x8) (tr (Cert.Net.HD (Cert.Net.Zr x1 (Cert.Net.H x0 x1 x2 x3) x4 x5) x6 x7)) :=
  mm_of_apply _ _ _ lidx_main_v17 ridx_main_v17 (fun _ _ => ⟨rfl, rfl⟩) (fun _ _ => ⟨rfl, rfl⟩)
    (fun i => by rw [val_main_v17_apply, ref_u, ref_v16])

/-- The reference's reconstruction is the logistic function, written with the exponential, of `U·HDᵀ`. -/
theorem ref_ao : val_main_v23 (F := Ideal) x0 x1 x2 x3 x4 x5 x6 x7 x8 = Cert.Net.AOr (Cert.Net.U (Cert.Net.HD (Cert.Net.Zr x1 (Cert.Net.H x0 x1 x2 x3) x4 x5) x6 x7) x8) (Cert.Net.HD (Cert.Net.Zr x1 (Cert.Net.H x0 x1 x2 x3) x4 x5) x6 x7) := by
  funext i
  rw [val_main_v23_apply, val_main_v22_apply, val_main_cst_0_apply, val_main_v21_apply, val_main_v20_apply,
    val_main_cst_apply, val_main_v19_apply, val_main_v18_apply, ref_v17]
  rfl

/-! ### The perceptron -/

/-- First layer's product. -/
theorem ref_v24 : val_main_v24 (F := Ideal) x0 x1 x2 x3 x4 x5 x9 = mm (Cert.Net.Zr x1 (Cert.Net.H x0 x1 x2 x3) x4 x5) x9 :=
  mm_of_apply _ _ _ lidx_main_v24 ridx_main_v24 (fun _ _ => ⟨rfl, rfl⟩) (fun _ _ => ⟨rfl, rfl⟩)
    (fun i => by rw [val_main_v24_apply, ref_z])

/-- The bias row of this layer, read at an entry. -/
theorem ref_b26 (i : S4096x64.Idx) : val_main_v26 (F := Ideal) x10 i = x10 (ix1 (cl1 i)) := by
  rw [val_main_v26_apply, val_main_v25_apply]
  exact bias_of x10 _ i rfl

/-- First affine layer. -/
theorem ref_v27 : val_main_v27 (F := Ideal) x0 x1 x2 x3 x4 x5 x9 x10 = lin (Cert.Net.Zr x1 (Cert.Net.H x0 x1 x2 x3) x4 x5) x9 (row1 x10) :=
  addRow_of_apply _ x10 _ (val_main_v26 (F := Ideal) x10) (ref_b26 x10)
    (fun i => by rw [val_main_v27_apply, ref_v24, Ideal.addf_def])

/-- First layer's output. -/
theorem ref_v28 : val_main_v28 (F := Ideal) x0 x1 x2 x3 x4 x5 x9 x10 = relu (lin (Cert.Net.Zr x1 (Cert.Net.H x0 x1 x2 x3) x4 x5) x9 (row1 x10)) :=
  relu_of_apply _ _ (val_main_call1_v0 (F := Ideal))
    (fun i => by rw [val_main_call1_v0_apply, val_main_call1_cst_apply, Ideal.ofBits_def])
    (fun i => by rw [val_main_v28_apply, ref_v27, Ideal.maximumf_def])

/-- Second layer's product. -/
theorem ref_v29 : val_main_v29 (F := Ideal) x0 x1 x2 x3 x4 x5 x9 x10 x11 = mm (relu (lin (Cert.Net.Zr x1 (Cert.Net.H x0 x1 x2 x3) x4 x5) x9 (row1 x10))) x11 :=
  mm_of_apply _ _ _ lidx_main_v29 ridx_main_v29 (fun _ _ => ⟨rfl, rfl⟩) (fun _ _ => ⟨rfl, rfl⟩)
    (fun i => by rw [val_main_v29_apply, ref_v28])

/-- The bias row of this layer, read at an entry. -/
theorem ref_b31 (i : S4096x256.Idx) : val_main_v31 (F := Ideal) x12 i = x12 (ix1 (cl1 i)) := by
  rw [val_main_v31_apply, val_main_v30_apply]
  exact bias_of x12 _ i rfl

/-- Second affine layer. -/
theorem ref_v32 : val_main_v32 (F := Ideal) x0 x1 x2 x3 x4 x5 x9 x10 x11 x12 = lin (relu (lin (Cert.Net.Zr x1 (Cert.Net.H x0 x1 x2 x3) x4 x5) x9 (row1 x10))) x11 (row1 x12) :=
  addRow_of_apply _ x12 _ (val_main_v31 (F := Ideal) x12) (ref_b31 x12)
    (fun i => by rw [val_main_v32_apply, ref_v29, Ideal.addf_def])

/-- Second layer's output. -/
theorem ref_v33 : val_main_v33 (F := Ideal) x0 x1 x2 x3 x4 x5 x9 x10 x11 x12 = relu (lin (relu (lin (Cert.Net.Zr x1 (Cert.Net.H x0 x1 x2 x3) x4 x5) x9 (row1 x10))) x11 (row1 x12)) :=
  relu_of_apply _ _ (val_main_call2_v0 (F := Ideal))
    (fun i => by rw [val_main_call2_v0_apply, val_main_call2_cst_apply, Ideal.ofBits_def])
    (fun i => by rw [val_main_v33_apply, ref_v32, Ideal.maximumf_def])

/-- Third layer's product. -/
theorem ref_v34 : val_main_v34 (F := Ideal) x0 x1 x2 x3 x4 x5 x9 x10 x11 x12 x13 = mm (relu (lin (relu (lin (Cert.Net.Zr x1 (Cert.Net.H x0 x1 x2 x3) x4 x5) x9 (row1 x10))) x11 (row1 x12))) x13 :=
  mm_of_apply _ _ _ lidx_main_v34 ridx_main_v34 (fun _ _ => ⟨rfl, rfl⟩) (fun _ _ => ⟨rfl, rfl⟩)
    (fun i => by rw [val_main_v34_apply, ref_v33])

/-- The bias row of this layer, read at an entry. -/
theorem ref_b36 (i : S4096x512.Idx) : val_main_v36 (F := Ideal) x14 i = x14 (ix1 (cl1 i)) := by
  rw [val_main_v36_apply, val_main_v35_apply]
  exact bias_of x14 _ i rfl

/-- Third affine layer. -/
theorem ref_v37 : val_main_v37 (F := Ideal) x0 x1 x2 x3 x4 x5 x9 x10 x11 x12 x13 x14 = lin (relu (lin (relu (lin (Cert.Net.Zr x1 (Cert.Net.H x0 x1 x2 x3) x4 x5) x9 (row1 x10))) x11 (row1 x12))) x13 (row1 x14) :=
  addRow_of_apply _ x14 _ (val_main_v36 (F := Ideal) x14) (ref_b36 x14)
    (fun i => by rw [val_main_v37_apply, ref_v34, Ideal.addf_def])

/-- Third layer's output. -/
theorem ref_v38 : val_main_v38 (F := Ideal) x0 x1 x2 x3 x4 x5 x9 x10 x11 x12 x13 x14 = relu (lin (relu (lin (relu (lin (Cert.Net.Zr x1 (Cert.Net.H x0 x1 x2 x3) x4 x5) x9 (row1 x10))) x11 (row1 x12))) x13 (row1 x14)) :=
  relu_of_apply _ _ (val_main_call3_v0 (F := Ideal))
    (fun i => by rw [val_main_call3_v0_apply, val_main_call3_cst_apply, Ideal.ofBits_def])
    (fun i => by rw [val_main_v38_apply, ref_v37, Ideal.maximumf_def])

/-- Fourth layer's product. -/
theorem ref_v39 : val_main_v39 (F := Ideal) x0 x1 x2 x3 x4 x5 x9 x10 x11 x12 x13 x14 x15 = mm (relu (lin (relu (lin (relu (lin (Cert.Net.Zr x1 (Cert.Net.H x0 x1 x2 x3) x4 x5) x9 (row1 x10))) x11 (row1 x12))) x13 (row1 x14))) x15 :=
  mm_of_apply _ _ _ lidx_main_v39 ridx_main_v39 (fun _ _ => ⟨rfl, rfl⟩) (fun _ _ => ⟨rfl, rfl⟩)
    (fun i => by rw [val_main_v39_apply, ref_v38])

/-- The bias row of this layer, read at an entry. -/
theorem ref_b41 (i : S4096x2000.Idx) : val_main_v41 (F := Ideal) x16 i = x16 (ix1 (cl1 i)) := by
  rw [val_main_v41_apply, val_main_v40_apply]
  exact bias_of x16 _ i rfl

/-- The reference's feature reconstruction is the perceptron on `Z`. -/
theorem ref_xo : val_main_v42 (F := Ideal) x0 x1 x2 x3 x4 x5 x9 x10 x11 x12 x13 x14 x15 x16 = Cert.Net.XO (Cert.Net.Zr x1 (Cert.Net.H x0 x1 x2 x3) x4 x5) x9 x10 x11 x12 x13 x14 x15 x16 :=
  addRow_of_apply _ x16 _ (val_main_v41 (F := Ideal) x16) (ref_b41 x16)
    (fun i => by rw [val_main_v42_apply, ref_v39, Ideal.addf_def])

/-! ### The two regroupings -/

/-- A matrix product of arrays of reals is an array of reals. -/
theorem mm_real {r k c : ℕ} (a : A2 r k) (b : A2 k c) (ha : ∀ i, IsReal (a i)) (hb : ∀ i, IsReal (b i)) :
    ∀ i, IsReal (mm a b i) :=
  fun i => isReal_sum_univ _ fun t => (ha _).mul (hb _)

/-- For arrays of reals, `(A·H)·W + b = A·(H·W) + b`. -/
theorem zk_eq_zr (x1 : A2 4096 4096) (h : A2 4096 120) (x4 : A2 120 20) (x5 : V1 20)
    (h1 : ∀ i, IsReal (x1 i)) (hh : ∀ i, IsReal (h i)) (h4 : ∀ i, IsReal (x4 i)) :
    Cert.Net.Zk x1 h x4 x5 = Cert.Net.Zr x1 h x4 x5 := by
  funext i
  have e : mm (mm x1 h) x4 i = mm x1 (mm h x4) i :=
    sum_mul_sum_assoc (fun j => x1 (ix2 (rw0 i) j)) (fun j k => h (ix2 j k)) (fun k => x4 (ix2 k (cl1 i)))
      (fun j => h1 _) (fun j k => hh _) (fun k => h4 _)
  unfold Cert.Net.Zk Cert.Net.Zr addRow
  rw [e]

/-- With real inputs the first layer `H` is an array of reals. -/
theorem h_real (x0 : A2 4096 2000) (x1 : A2 4096 4096) (x2 : A2 2000 120) (x3 : V1 120)
    (h0 : ∀ i, IsReal (x0 i)) (h1 : ∀ i, IsReal (x1 i)) (h2 : ∀ i, IsReal (x2 i)) (h3 : ∀ i, IsReal (x3 i)) :
    ∀ i, IsReal (Cert.Net.H x0 x1 x2 x3 i) := by
  intro i
  unfold Cert.Net.H Cert.Net.P relu addRow row1
  exact isReal_max_ofBits_zero ((mm_real _ _ h1 (mm_real _ _ h0 h2) i).add (h3 _))

/-- The logistic function of `U·HDᵀ`, written with the hyperbolic tangent or with the exponential. -/
theorem aok_eq_aor (u hd : A2 4096 64) : Cert.Net.AOk u hd = Cert.Net.AOr u hd := by
  funext i
  have e : mmT u hd i = mm u (tr hd) i := rfl
  unfold Cert.Net.AOk Cert.Net.AOr logisticT logisticE
  rw [e]
  exact logistic_eq_tanh _

/-! ### The kernel's grouping against the reference's arrays -/

/-- The latent array as the kernel groups it is the reference's. -/
theorem z_eq (hr0 : ∀ i : S4096x2000.Idx, IsReal (x0 i)) (hr1 : ∀ i : S4096x4096.Idx, IsReal (x1 i)) (hr2 : ∀ i : S2000x120.Idx, IsReal (x2 i)) (hr3 : ∀ i : S120.Idx, IsReal (x3 i)) (hr4 : ∀ i : S120x20.Idx, IsReal (x4 i)) :
    Cert.Net.Zk x1 (Cert.Net.H x0 x1 x2 x3) x4 x5 = val_main_v10 (F := Ideal) x0 x1 x2 x3 x4 x5 := by
  rw [ref_z]
  exact zk_eq_zr x1 (Cert.Net.H x0 x1 x2 x3) x4 x5 hr1 (h_real x0 x1 x2 x3 hr0 hr1 hr2 hr3) hr4

/-- The perceptron on the kernel's latent array is the reference's feature reconstruction. -/
theorem xo_eq (hr0 : ∀ i : S4096x2000.Idx, IsReal (x0 i)) (hr1 : ∀ i : S4096x4096.Idx, IsReal (x1 i)) (hr2 : ∀ i : S2000x120.Idx, IsReal (x2 i)) (hr3 : ∀ i : S120.Idx, IsReal (x3 i)) (hr4 : ∀ i : S120x20.Idx, IsReal (x4 i)) :
    Cert.Net.XO (Cert.Net.Zk x1 (Cert.Net.H x0 x1 x2 x3) x4 x5) x9 x10 x11 x12 x13 x14 x15 x16 = val_main_v42 (F := Ideal) x0 x1 x2 x3 x4 x5 x9 x10 x11 x12 x13 x14 x15 x16 := by
  rw [ref_xo, zk_eq_zr x1 (Cert.Net.H x0 x1 x2 x3) x4 x5 hr1 (h_real x0 x1 x2 x3 hr0 hr1 hr2 hr3) hr4]

/-- The kernel's adjacency reconstruction is the reference's. -/
theorem ao_eq (hr0 : ∀ i : S4096x2000.Idx, IsReal (x0 i)) (hr1 : ∀ i : S4096x4096.Idx, IsReal (x1 i)) (hr2 : ∀ i : S2000x120.Idx, IsReal (x2 i)) (hr3 : ∀ i : S120.Idx, IsReal (x3 i)) (hr4 : ∀ i : S120x20.Idx, IsReal (x4 i)) :
    Cert.Net.AOk (Cert.Net.U (Cert.Net.HD (Cert.Net.Zk x1 (Cert.Net.H x0 x1 x2 x3) x4 x5) x6 x7) x8) (Cert.Net.HD (Cert.Net.Zk x1 (Cert.Net.H x0 x1 x2 x3) x4 x5) x6 x7) = val_main_v23 (F := Ideal) x0 x1 x2 x3 x4 x5 x6 x7 x8 := by
  rw [ref_ao, zk_eq_zr x1 (Cert.Net.H x0 x1 x2 x3) x4 x5 hr1 (h_real x0 x1 x2 x3 hr0 hr1 hr2 hr3) hr4, aok_eq_aor]

end Cert.RefNet

end
-- ==== Proof.PreReal.lean ====
/-
  The precondition "every input entry has absolute value below +∞", decoded: each of the seventeen
  argument arrays holds only real numbers. An extended real `x` with `max x (-x) < ⊤` is neither
  infinity, hence a real; a conjunction of "all entries" tests that comes out true holds entry by entry.
-/
import proofs.«147425_g84645215470087_cont_9to1_m_424_2_alg».proof.Proof.LibRealAlg
import proofs.«147425_g84645215470087_cont_9to1_m_424_2_alg».proof.Defs
import Idealize.ShloMosaic.Lib.ReduceAll
import Idealize.ShloMosaic.Lib.ValueIdx

noncomputable section

namespace Cert.PreReal

open Idealize.ShloMosaic Cert.LibRealAlg Cert.Pre_finite_inputs

/-- The shape of rank zero has one index. -/
instance : Subsingleton S_.Idx := ⟨fun a b => funext fun d => d.elim0⟩

/-- An extended real whose absolute value compares below the word of `+∞` is a real. -/
theorem isReal_of_abs_lt (x : Ideal .f32)
    (h : FloatOps.cmpf .olt (FloatOps.hostAbsf x) (FloatOps.ofBits (F := Ideal) .f32 0x7F800000#32) = 1#1) :
    IsReal x := by
  rw [Ideal.hostAbsf_def, Ideal.cmpf_def, Ideal.absf_def, Ideal.ofBits_def] at h
  have htop : Ideal.ofBits .f32 0x7F800000#32 = ⊤ := by simp [Ideal.ofBits, Ideal.ieee]
  rw [htop] at h
  induction x using EReal.rec with
  | bot => simp [Ideal.cmp] at h
  | coe r => exact isReal_coe r
  | top => simp [Ideal.cmp] at h

/-- An "all entries have absolute value below +∞" test that is true: every entry is a real. -/
theorem all_isReal {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, IsReal (x i) := by
  intro i
  have h := Host.reduce_andi_all _ _ hr hu ValueIdx.ix0 e i
  exact isReal_of_abs_lt (x i) h

/-- The precondition, at the extended reals, says that every entry of each of the seventeen
    argument arrays is a real. -/
theorem isReal_of_pre [Cert.Pre_finite_inputs.Facts]
    (x0 : FVec Ideal S4096x2000 .f32) (x1 : FVec Ideal S4096x4096 .f32) (x2 : FVec Ideal S2000x120 .f32) (x3 : FVec Ideal S120 .f32) (x4 : FVec Ideal S120x20 .f32) (x5 : FVec Ideal S20 .f32) (x6 : FVec Ideal S20x64 .f32) (x7 : FVec Ideal S64 .f32) (x8 : FVec Ideal S64x64 .f32) (x9 : FVec Ideal S20x64 .f32) (x10 : FVec Ideal S64 .f32) (x11 : FVec Ideal S64x256 .f32) (x12 : FVec Ideal S256 .f32) (x13 : FVec Ideal S256x512 .f32) (x14 : FVec Ideal S512 .f32) (x15 : FVec Ideal S512x2000 .f32) (x16 : FVec Ideal S2000 .f32)
    (h : Cert.Pre_finite_inputs.fn (F := Ideal) x0 x1 x2 x3 x4 x5 x6 x7 x8 x9 x10 x11 x12 x13 x14 x15 x16 = (fun _ => 1#1)) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩ := e
  exact ⟨all_isReal _ _ _ _ e0, all_isReal _ _ _ _ e1, all_isReal _ _ _ _ e2, all_isReal _ _ _ _ e3, all_isReal _ _ _ _ e4, all_isReal _ _ _ _ e5, all_isReal _ _ _ _ e6, all_isReal _ _ _ _ e7, all_isReal _ _ _ _ e8, all_isReal _ _ _ _ e9, all_isReal _ _ _ _ e10, all_isReal _ _ _ _ e11, all_isReal _ _ _ _ e12, all_isReal _ _ _ _ e13, all_isReal _ _ _ _ e14, all_isReal _ _ _ _ e15, all_isReal _ _ _ _ e16⟩

end Cert.PreReal

end
-- ==== Proof.lean ====
/-
  The certificate. Both idealized programs compute, over the extended reals, a two-layer graph encoder followed by a
  bilinear decoder and a four-layer perceptron; they differ in the grouping of one three-matrix product — the kernel
  forms `(A·H)·W2`, the reference `A·(H·W2)`, equal because under the precondition every entry involved is a real
  number — and in the spelling of the logistic function, `1/2 · tanh (x/2) + 1/2` against `1 / (1 + e^{-x})`, equal
  on every extended real. The kernel's run is read launch by launch off its frame (four launches of eight row blocks
  each); the reference's run and its stages are read index by index; the two meet at the network's arrays.
  The word-level kernel needs only its frame; the idealization rewrote nothing, so `preserves` is trivial.
-/
import proofs.«147425_g84645215470087_cont_9to1_m_424_2_alg».proof.Defs
import proofs.«147425_g84645215470087_cont_9to1_m_424_2_alg».proof.Proof.Gen.Kernel
import proofs.«147425_g84645215470087_cont_9to1_m_424_2_alg».proof.Proof.Gen.Kernel.Skeleton
import proofs.«147425_g84645215470087_cont_9to1_m_424_2_alg».proof.Proof.Gen.Kernel.Launch
import proofs.«147425_g84645215470087_cont_9to1_m_424_2_alg».proof.Proof.Gen.Kernel.Points
import proofs.«147425_g84645215470087_cont_9to1_m_424_2_alg».proof.Proof.Gen.Kernel.Frame
import proofs.«147425_g84645215470087_cont_9to1_m_424_2_alg».proof.Proof.Gen.KernelIdeal
import proofs.«147425_g84645215470087_cont_9to1_m_424_2_alg».proof.Proof.Gen.KernelIdeal.Skeleton
import proofs.«147425_g84645215470087_cont_9to1_m_424_2_alg».proof.Proof.Gen.KernelIdeal.Launch
import proofs.«147425_g84645215470087_cont_9to1_m_424_2_alg».proof.Proof.Gen.KernelIdeal.Points
import proofs.«147425_g84645215470087_cont_9to1_m_424_2_alg».proof.Proof.Gen.KernelIdeal.Frame
import proofs.«147425_g84645215470087_cont_9to1_m_424_2_alg».proof.Proof.Gen.ReferenceIdeal
import proofs.«147425_g84645215470087_cont_9to1_m_424_2_alg».proof.Proof.Gen.ReferenceIdeal.Run
import proofs.«147425_g84645215470087_cont_9to1_m_424_2_alg».proof.Proof.Gen.ReferenceIdeal.Read
import proofs.«147425_g84645215470087_cont_9to1_m_424_2_alg».proof.Proof.Gen.Pre_finite_inputs
import proofs.«147425_g84645215470087_cont_9to1_m_424_2_alg».proof.Proof.KernelValue
import proofs.«147425_g84645215470087_cont_9to1_m_424_2_alg».proof.Proof.RefNet
import proofs.«147425_g84645215470087_cont_9to1_m_424_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the arguments, both idealized programs end with the same three arrays: the latent
    array, the perceptron's output and the adjacency reconstruction of the network, in the kernel's grouping, which
    under the precondition is the reference's. -/
theorem algebraic : Cert.algebraic_KernelIdeal_ReferenceIdeal := by
  intro m ρ m' ρ' hpre hagree
  refine ⟨fun c => (Cert.Net.Zk (m ((c.tc : Thread Cert.KernelIdeal.nD Cert.KernelIdeal.τ).loc Cert.KernelIdeal.main_arg1)) (Cert.Net.H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => (Cert.Net.XO (Cert.Net.Zk (m ((c.tc : Thread Cert.KernelIdeal.nD Cert.KernelIdeal.τ).loc Cert.KernelIdeal.main_arg1)) (Cert.Net.H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    fun c => (Cert.Net.AOk (Cert.Net.U (Cert.Net.HD (Cert.Net.Zk (m ((c.tc : Thread Cert.KernelIdeal.nD Cert.KernelIdeal.τ).loc Cert.KernelIdeal.main_arg1)) (Cert.Net.H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8))) (Cert.Net.HD (Cert.Net.Zk (m ((c.tc : Thread Cert.KernelIdeal.nD Cert.KernelIdeal.τ).loc Cert.KernelIdeal.main_arg1)) (Cert.Net.H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))),
    Cert.KernelIdeal.NetValue.run m ρ, ?_⟩
  refine (θ_run Cert.ReferenceIdeal.defs _ _).mono (fun _ h c => ⟨?_, ?_, ?_, (h c).2.2.2⟩)
    (Cert.ReferenceIdeal.Value.run (F := Ideal) m' ρ')
  all_goals
    obtain ⟨r0, r1, r2, r3, r4, -⟩ := Cert.PreReal.isReal_of_pre _ _ _ _ _ _ _ _ _ _ _ _ _ _ _ _ _ (hpre c)
  · rw [(h c).1, Cert.ReferenceIdeal.Read.val_main_v10_eq, (hagree c).1, (hagree c).2.1, (hagree c).2.2.1, (hagree c).2.2.2.1, (hagree c).2.2.2.2.1, (hagree c).2.2.2.2.2.1]
    exact (Cert.RefNet.z_eq _ _ _ _ _ _ r0 r1 r2 r3 r4).symm
  · rw [(h c).2.1, Cert.ReferenceIdeal.Read.val_main_v42_eq, (hagree c).1, (hagree c).2.1, (hagree c).2.2.1, (hagree c).2.2.2.1, (hagree c).2.2.2.2.1, (hagree c).2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.RefNet.xo_eq _ _ _ _ _ _ _ _ _ _ _ _ _ _ r0 r1 r2 r3 r4).symm
  · rw [(h c).2.2.1, Cert.ReferenceIdeal.Read.val_main_v23_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact (Cert.RefNet.ao_eq _ _ _ _ _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
